-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x41 : Shape := ⟨2, ![50000, 41]⟩
abbrev S2x800000 : Shape := ⟨2, ![2, 800000]⟩
abbrev S41x192 : Shape := ⟨2, ![41, 192]⟩
abbrev S192 : Shape := ⟨1, ![192]⟩
abbrev S4x192x192 : Shape := ⟨3, ![4, 192, 192]⟩
abbrev S4x192 : Shape := ⟨2, ![4, 192]⟩
abbrev S192x192 : Shape := ⟨2, ![192, 192]⟩
abbrev S192x96 : Shape := ⟨2, ![192, 96]⟩
abbrev S96 : Shape := ⟨1, ![96]⟩
abbrev S96x2 : Shape := ⟨2, ![96, 2]⟩
abbrev S2 : Shape := ⟨1, ![2]⟩
abbrev S96x1 : Shape := ⟨2, ![96, 1]⟩
abbrev S1 : Shape := ⟨1, ![1]⟩
abbrev S_ : Shape := ⟨0, ![]⟩

class Facts : Prop where
  bcast_S_S50000x41 : S_.BroadcastsInDim S50000x41 (![] : Fin 0 → Fin S50000x41.rank)
  reducesTo_S50000x41_S_d0_1 : S50000x41.ReducesTo [0, 1] S_
  h_S_ : 0 < S_.numel
  bcast_S_S41x192 : S_.BroadcastsInDim S41x192 (![] : Fin 0 → Fin S41x192.rank)
  reducesTo_S41x192_S_d0_1 : S41x192.ReducesTo [0, 1] S_
  bcast_S_S192 : S_.BroadcastsInDim S192 (![] : Fin 0 → Fin S192.rank)
  reducesTo_S192_S_d0 : S192.ReducesTo [0] S_
  bcast_S_S4x192x192 : S_.BroadcastsInDim S4x192x192 (![] : Fin 0 → Fin S4x192x192.rank)
  reducesTo_S4x192x192_S_d0_1_2 : S4x192x192.ReducesTo [0, 1, 2] S_
  bcast_S_S4x192 : S_.BroadcastsInDim S4x192 (![] : Fin 0 → Fin S4x192.rank)
  reducesTo_S4x192_S_d0_1 : S4x192.ReducesTo [0, 1] S_
  bcast_S_S192x192 : S_.BroadcastsInDim S192x192 (![] : Fin 0 → Fin S192x192.rank)
  reducesTo_S192x192_S_d0_1 : S192x192.ReducesTo [0, 1] S_
  bcast_S_S192x96 : S_.BroadcastsInDim S192x96 (![] : Fin 0 → Fin S192x96.rank)
  reducesTo_S192x96_S_d0_1 : S192x96.ReducesTo [0, 1] S_
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S192x96 .f32) (main_arg13 : FVec F S96 .f32) (main_arg14 : FVec F S96x1 .f32) (main_arg15 : FVec F S1 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S192x96 .f32 := Host.absf main_arg12
  let main_cst_20 : FVec F S_ .f32 := constant S_ .f32 0x7F800000#32
  let main_v55 : FVec F S192x96 .f32 := broadcastInDim S192x96 ![] bcast_S_S192x96 main_cst_20
  let main_v56 : IVec S192x96 1 := cmpf .olt main_v54 main_v55
  let main_c_21 : IVec S_ 1 := constantI S_ 1 1#1
  let main_v57 : IVec S_ 1 := (fun x v => Host.reduce IntOp.andi x v reducesTo_S192x96_S_d0_1 h_S_) main_v56 main_c_21
  let main_v58 : IVec S_ 1 := andi main_v53 main_v57
  let main_v59 : FVec F S96 .f32 := Host.absf main_arg13
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96x1 .f32 := Host.absf main_arg14
  let main_cst_24 : FVec F S_ .f32 := constant S_ .f32 0x7F800000#32
  let main_v65 : FVec F S96x1 .f32 := broadcastInDim S96x1 ![] bcast_S_S96x1 main_cst_24
  let main_v66 : IVec S96x1 1 := cmpf .olt main_v64 main_v65
  let main_c_25 : IVec S_ 1 := constantI S_ 1 1#1
  let main_v67 : IVec S_ 1 := (fun x v => Host.reduce IntOp.andi x v reducesTo_S96x1_S_d0_1 h_S_) main_v66 main_c_25
  fn_part4 (F := F) main_arg15 main_v63 main_v67

def fn_part2 {F : FTy → Type} [FloatOps F] (main_arg8 : FVec F S192x96 .f32) (main_arg9 : FVec F S96 .f32) (main_arg10 : FVec F S96x2 .f32) (main_arg11 : FVec F S2 .f32) (main_arg12 : FVec F S192x96 .f32) (main_arg13 : FVec F S96 .f32) (main_arg14 : FVec F S96x1 .f32) (main_arg15 : FVec F S1 .f32) (main_v33 : IVec S_ 1) : IVec S_ 1 :=
  let main_v34 : FVec F S192x96 .f32 := Host.absf main_arg8
  let main_cst_12 : FVec F S_ .f32 := constant S_ .f32 0x7F800000#32
  let main_v35 : FVec F S192x96 .f32 := broadcastInDim S192x96 ![] bcast_S_S192x96 main_cst_12
  let main_v36 : IVec S192x96 1 := cmpf .olt main_v34 main_v35
  let main_c_13 : IVec S_ 1 := constantI S_ 1 1#1
  let main_v37 : IVec S_ 1 := (fun x v => Host.reduce IntOp.andi x v reducesTo_S192x96_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x2 .f32 := Host.absf main_arg10
  let main_cst_16 : FVec F S_ .f32 := constant S_ .f32 0x7F800000#32
  let main_v45 : FVec F S96x2 .f32 := broadcastInDim S96x2 ![] bcast_S_S96x2 main_cst_16
  let main_v46 : IVec S96x2 1 := cmpf .olt main_v44 main_v45
  let main_c_17 : IVec S_ 1 := constantI S_ 1 1#1
  let main_v47 : IVec S_ 1 := (fun x v => Host.reduce IntOp.andi x v reducesTo_S96x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg12 main_arg13 main_arg14 main_arg15 main_v48 main_v49 main_v50

def fn_part1 {F : FTy → Type} [FloatOps F] (main_arg5 : FVec F S4x192 .f32) (main_arg6 : FVec F S192x192 .f32) (main_arg7 : FVec F S192 .f32) (main_arg8 : FVec F S192x96 .f32) (main_arg9 : FVec F S96 .f32) (main_arg10 : FVec F S96x2 .f32) (main_arg11 : FVec F S2 .f32) (main_arg12 : FVec F S192x96 .f32) (main_arg13 : FVec F S96 .f32) (main_arg14 : FVec F S96x1 .f32) (main_arg15 : FVec F S1 .f32) (main_v13 : IVec S_ 1) (main_v16 : IVec S4x192x192 1) : IVec S_ 1 :=
  let main_c_5 : IVec S_ 1 := constantI S_ 1 1#1
  let main_v17 : IVec S_ 1 := (fun x v => Host.reduce IntOp.andi x v reducesTo_S4x192x192_S_d0_1_2 h_S_) main_v16 main_c_5
  let main_v18 : IVec S_ 1 := andi main_v13 main_v17
  let main_v19 : FVec F S4x192 .f32 := Host.absf main_arg5
  let main_cst_6 : FVec F S_ .f32 := constant S_ .f32 0x7F800000#32
  let main_v20 : FVec F S4x192 .f32 := broadcastInDim S4x192 ![] bcast_S_S4x192 main_cst_6
  let main_v21 : IVec S4x192 1 := cmpf .olt main_v19 main_v20
  let main_c_7 : IVec S_ 1 := constantI S_ 1 1#1
  let main_v22 : IVec S_ 1 := (fun x v => Host.reduce IntOp.andi x v reducesTo_S4x192_S_d0_1 h_S_) main_v21 main_c_7
  let main_v23 : IVec S_ 1 := andi main_v18 main_v22
  let main_v24 : FVec F S192x192 .f32 := Host.absf main_arg6
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x41 .f32) (main_arg1 : IVec S2x800000 32) (main_arg2 : FVec F S41x192 .f32) (main_arg3 : FVec F S192 .f32) (main_arg4 : FVec F S4x192x192 .f32) (main_arg5 : FVec F S4x192 .f32) (main_arg6 : FVec F S192x192 .f32) (main_arg7 : FVec F S192 .f32) (main_arg8 : FVec F S192x96 .f32) (main_arg9 : FVec F S96 .f32) (main_arg10 : FVec F S96x2 .f32) (main_arg11 : FVec F S2 .f32) (main_arg12 : FVec F S192x96 .f32) (main_arg13 : FVec F S96 .f32) (main_arg14 : FVec F S96x1 .f32) (main_arg15 : FVec F S1 .f32) : IVec S_ 1 :=
  let main_v0 : FVec F S50000x41 .f32 := Host.absf main_arg0
  let main_cst : FVec F S_ .f32 := constant S_ .f32 0x7F800000#32
  let main_v1 : FVec F S50000x41 .f32 := broadcastInDim S50000x41 ![] bcast_S_S50000x41 main_cst
  let main_v2 : IVec S50000x41 1 := cmpf .olt main_v0 main_v1
  let main_c : IVec S_ 1 := constantI S_ 1 1#1
  let main_v3 : IVec S_ 1 := (fun x v => Host.reduce IntOp.andi x v reducesTo_S50000x41_S_d0_1 h_S_) main_v2 main_c
  let main_v4 : FVec F S41x192 .f32 := Host.absf main_arg2
  let main_cst_0 : FVec F S_ .f32 := constant S_ .f32 0x7F800000#32
  let main_v5 : FVec F S41x192 .f32 := broadcastInDim S41x192 ![] bcast_S_S41x192 main_cst_0
  let main_v6 : IVec S41x192 1 := cmpf .olt main_v4 main_v5
  let main_c_1 : IVec S_ 1 := constantI S_ 1 1#1
  let main_v7 : IVec S_ 1 := (fun x v => Host.reduce IntOp.andi x v reducesTo_S41x192_S_d0_1 h_S_) main_v6 main_c_1
  let main_v8 : IVec S_ 1 := andi main_v3 main_v7
  let main_v9 : FVec F S192 .f32 := Host.absf main_arg3
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S4x192x192 .f32 := Host.absf main_arg4
  let main_cst_4 : FVec F S_ .f32 := constant S_ .f32 0x7F800000#32
  let main_v15 : FVec F S4x192x192 .f32 := broadcastInDim S4x192x192 ![] bcast_S_S4x192x192 main_cst_4
  let main_v16 : IVec S4x192x192 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x41 : Shape := ⟨2, ![50000, 41]⟩
abbrev S2x800000 : Shape := ⟨2, ![2, 800000]⟩
abbrev S41x192 : Shape := ⟨2, ![41, 192]⟩
abbrev S192 : Shape := ⟨1, ![192]⟩
abbrev S4x192x192 : Shape := ⟨3, ![4, 192, 192]⟩
abbrev S4x192 : Shape := ⟨2, ![4, 192]⟩
abbrev S192x192 : Shape := ⟨2, ![192, 192]⟩
abbrev S192x96 : Shape := ⟨2, ![192, 96]⟩
abbrev S96 : Shape := ⟨1, ![96]⟩
abbrev S96x2 : Shape := ⟨2, ![96, 2]⟩
abbrev S2 : Shape := ⟨1, ![2]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x192 : Shape := ⟨2, ![1, 192]⟩
abbrev S50000x192 : Shape := ⟨2, ![50000, 192]⟩
abbrev S2000x41 : Shape := ⟨2, ![2000, 41]⟩
abbrev S2000x192 : Shape := ⟨2, ![2000, 192]⟩
abbrev S1x192x192 : Shape := ⟨3, ![1, 192, 192]⟩
abbrev S2000x1 : Shape := ⟨2, ![2000, 1]⟩
abbrev S800000x1 : Shape := ⟨2, ![800000, 1]⟩
abbrev S800000x192 : Shape := ⟨2, ![800000, 192]⟩
abbrev S1x96 : Shape := ⟨2, ![1, 96]⟩
abbrev S1x2 : Shape := ⟨2, ![1, 2]⟩
abbrev S1x1 : Shape := ⟨2, ![1, 1]⟩
abbrev S50000x2 : Shape := ⟨2, ![50000, 2]⟩
abbrev S2000x2 : Shape := ⟨2, ![2000, 2]⟩
abbrev S2000x96 : Shape := ⟨2, ![2000, 96]⟩
abbrev S2000 : Shape := ⟨1, ![2000]⟩

abbrev nBuf : Space → Nat
  | .hbm => 126
  | .vmem => 80
  | .smem => 0
  | _ => 0

abbrev bufTy : (tb : Table) → Fin (tcTables nBuf tb) → BufTy
  | .hbm, ⟨0, _⟩ => ⟨S50000x41, .f32⟩
  | .hbm, ⟨1, _⟩ => ⟨S2x800000, .i32⟩
  | .hbm, ⟨2, _⟩ => ⟨S41x192, .f32⟩
  | .hbm, ⟨3, _⟩ => ⟨S192, .f32⟩
  | .hbm, ⟨4, _⟩ => ⟨S4x192x192, .f32⟩
  | .hbm, ⟨5, _⟩ => ⟨S4x192, .f32⟩
  | .hbm, ⟨6, _⟩ => ⟨S192x192, .f32⟩
  | .hbm, ⟨7, _⟩ => ⟨S192, .f32⟩
  | .hbm, ⟨8, _⟩ => ⟨S192x96, .f32⟩
  | .hbm, ⟨9, _⟩ => ⟨S96, .f32⟩
  | .hbm, ⟨10, _⟩ => ⟨S96x2, .f32⟩
  | .hbm, ⟨11, _⟩ => ⟨S2, .f32⟩
  | .hbm, ⟨12, _⟩ => ⟨S192x96, .f32⟩
  | .hbm, ⟨13, _⟩ => ⟨S96, .f32⟩
  | .hbm, ⟨14, _⟩ => ⟨S96x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000, .i32⟩
  | .hbm, ⟨21, _⟩ => ⟨S850000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x192, .f32⟩
  | .hbm, ⟨35, _⟩ => ⟨S50000x192, .f32⟩
  | .hbm, ⟨36, _⟩ => ⟨S1x192x192, .f32⟩
  | .hbm, ⟨37, _⟩ => ⟨S192x192, .f32⟩
  | .hbm, ⟨38, _⟩ => ⟨S50000x192, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x192, .bf16⟩
  | .hbm, ⟨48, _⟩ => ⟨S800000x192, .f32⟩
  | .hbm, ⟨49, _⟩ => ⟨S_, .f32⟩
  | .hbm, ⟨50, _⟩ => ⟨S50000x192, .f32⟩
  | .hbm, ⟨51, _⟩ => ⟨S800000x1, .i32⟩
  | .hbm, ⟨52, _⟩ => ⟨S50000x192, .f32⟩
  | .hbm, ⟨53, _⟩ => ⟨S1x192, .f32⟩
  | .hbm, ⟨54, _⟩ => ⟨S192, .f32⟩
  | .hbm, ⟨55, _⟩ => ⟨S1x192x192, .f32⟩
  | .hbm, ⟨56, _⟩ => ⟨S192x192, .f32⟩
  | .hbm, ⟨57, _⟩ => ⟨S1x192, .f32⟩
  | .hbm, ⟨58, _⟩ => ⟨S50000x192, .f32⟩
  | .hbm, ⟨59, _⟩ => ⟨S50000x192, .bf16⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x192, .bf16⟩
  | .hbm, ⟨69, _⟩ => ⟨S800000x192, .f32⟩
  | .hbm, ⟨70, _⟩ => ⟨S_, .f32⟩
  | .hbm, ⟨71, _⟩ => ⟨S50000x192, .f32⟩
  | .hbm, ⟨72, _⟩ => ⟨S800000x1, .i32⟩
  | .hbm, ⟨73, _⟩ => ⟨S50000x192, .f32⟩
  | .hbm, ⟨74, _⟩ => ⟨S1x192, .f32⟩
  | .hbm, ⟨75, _⟩ => ⟨S192, .f32⟩
  | .hbm, ⟨76, _⟩ => ⟨S1x192x192, .f32⟩
  | .hbm, ⟨77, _⟩ => ⟨S192x192, .f32⟩
  | .hbm, ⟨78, _⟩ => ⟨S1x192, .f32⟩
  | .hbm, ⟨79, _⟩ => ⟨S50000x192, .f32⟩
  | .hbm, ⟨80, _⟩ => ⟨S50000x192, .bf16⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x192, .bf16⟩
  | .hbm, ⟨90, _⟩ => ⟨S800000x192, .f32⟩
  | .hbm, ⟨91, _⟩ => ⟨S_, .f32⟩
  | .hbm, ⟨92, _⟩ => ⟨S50000x192, .f32⟩
  | .hbm, ⟨93, _⟩ => ⟨S800000x1, .i32⟩
  | .hbm, ⟨94, _⟩ => ⟨S50000x192, .f32⟩
  | .hbm, ⟨95, _⟩ => ⟨S1x192, .f32⟩
  | .hbm, ⟨96, _⟩ => ⟨S192, .f32⟩
  | .hbm, ⟨97, _⟩ => ⟨S1x192x192, .f32⟩
  | .hbm, ⟨98, _⟩ => ⟨S192x192, .f32⟩
  | .hbm, ⟨99, _⟩ => ⟨S1x192, .f32⟩
  | .hbm, ⟨100, _⟩ => ⟨S50000x192, .f32⟩
  | .hbm, ⟨101, _⟩ => ⟨S50000x192, .bf16⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x192, .bf16⟩
  | .hbm, ⟨111, _⟩ => ⟨S800000x192, .f32⟩
  | .hbm, ⟨112, _⟩ => ⟨S_, .f32⟩
  | .hbm, ⟨113, _⟩ => ⟨S50000x192, .f32⟩
  | .hbm, ⟨114, _⟩ => ⟨S800000x1, .i32⟩
  | .hbm, ⟨115, _⟩ => ⟨S50000x192, .f32⟩
  | .hbm, ⟨116, _⟩ => ⟨S1x192, .f32⟩
  | .hbm, ⟨117, _⟩ => ⟨S192, .f32⟩
  | .hbm, ⟨118, _⟩ => ⟨S1x192, .f32⟩
  | .hbm, ⟨119, _⟩ => ⟨S50000x192, .f32⟩
  | .hbm, ⟨120, _⟩ => ⟨S1x192, .f32⟩
  | .hbm, ⟨121, _⟩ => ⟨S1x96, .f32⟩
  | .hbm, ⟨122, _⟩ => ⟨S1x2, .f32⟩
  | .hbm, ⟨123, _⟩ => ⟨S1x96, .f32⟩
  | .hbm, ⟨124, _⟩ => ⟨S1x1, .f32⟩
  | .hbm, ⟨125, _⟩ => ⟨S50000x2, .f32⟩
  | .local _ .vmem, ⟨0, _⟩ => ⟨S2000x41, .f32⟩
  | .local _ .vmem, ⟨1, _⟩ => ⟨S2000x41, .f32⟩
  | .local _ .vmem, ⟨2, _⟩ => ⟨S41x192, .f32⟩
  | .local _ .vmem, ⟨3, _⟩ => ⟨S1x192, .f32⟩
  | .local _ .vmem, ⟨4, _⟩ => ⟨S2000x192, .f32⟩
  | .local _ .vmem, ⟨5, _⟩ => ⟨S2000x192, .f32⟩
  | .local _ .vmem, ⟨6, _⟩ => ⟨S2000x192, .f32⟩
  | .local _ .vmem, ⟨7, _⟩ => ⟨S2000x192, .f32⟩
  | .local _ .vmem, ⟨8, _⟩ => ⟨S192x192, .f32⟩
  | .local _ .vmem, ⟨9, _⟩ => ⟨S2000x1, .f32⟩
  | .local _ .vmem, ⟨10, _⟩ => ⟨S2000x1, .f32⟩
  | .local _ .vmem, ⟨11, _⟩ => ⟨S2000x192, .bf16⟩
  | .local _ .vmem, ⟨12, _⟩ => ⟨S2000x192, .bf16⟩
  | .local _ .vmem, ⟨13, _⟩ => ⟨S2000x192, .f32⟩
  | .local _ .vmem, ⟨14, _⟩ => ⟨S2000x192, .f32⟩
  | .local _ .vmem, ⟨15, _⟩ => ⟨S2000x192, .bf16⟩
  | .local _ .vmem, ⟨16, _⟩ => ⟨S2000x192, .bf16⟩
  | .local _ .vmem, ⟨17, _⟩ => ⟨S2000x1, .f32⟩
  | .local _ .vmem, ⟨18, _⟩ => ⟨S2000x1, .f32⟩
  | .local _ .vmem, ⟨19, _⟩ => ⟨S1x192, .f32⟩
  | .local _ .vmem, ⟨20, _⟩ => ⟨S2000x192, .f32⟩
  | .local _ .vmem, ⟨21, _⟩ => ⟨S2000x192, .f32⟩
  | .local _ .vmem, ⟨22, _⟩ => ⟨S192x192, .f32⟩
  | .local _ .vmem, ⟨23, _⟩ => ⟨S2000x192, .f32⟩
  | .local _ .vmem, ⟨24, _⟩ => ⟨S2000x192, .f32⟩
  | .local _ .vmem, ⟨25, _⟩ => ⟨S2000x192, .bf16⟩
  | .local _ .vmem, ⟨26, _⟩ => ⟨S2000x192, .bf16⟩
  | .local _ .vmem, ⟨27, _⟩ => ⟨S2000x192, .f32⟩
  | .local _ .vmem, ⟨28, _⟩ => ⟨S2000x192, .f32⟩
  | .local _ .vmem, ⟨29, _⟩ => ⟨S2000x192, .bf16⟩
  | .local _ .vmem, ⟨30, _⟩ => ⟨S2000x192, .bf16⟩
  | .local _ .vmem, ⟨31, _⟩ => ⟨S2000x1, .f32⟩
  | .local _ .vmem, ⟨32, _⟩ => ⟨S2000x1, .f32⟩
  | .local _ .vmem, ⟨33, _⟩ => ⟨S1x192, .f32⟩
  | .local _ .vmem, ⟨34, _⟩ => ⟨S2000x192, .f32⟩
  | .local _ .vmem, ⟨35, _⟩ => ⟨S2000x192, .f32⟩
  | .local _ .vmem, ⟨36, _⟩ => ⟨S192x192, .f32⟩
  | .local _ .vmem, ⟨37, _⟩ => ⟨S2000x192, .f32⟩
  | .local _ .vmem, ⟨38, _⟩ => ⟨S2000x192, .f32⟩
  | .local _ .vmem, ⟨39, _⟩ => ⟨S2000x192, .bf16⟩
  | .local _ .vmem, ⟨40, _⟩ => ⟨S2000x192, .bf16⟩
  | .local _ .vmem, ⟨41, _⟩ => ⟨S2000x192, .f32⟩
  | .local _ .vmem, ⟨42, _⟩ => ⟨S2000x192, .f32⟩
  | .local _ .vmem, ⟨43, _⟩ => ⟨S2000x192, .bf16⟩
  | .local _ .vmem, ⟨44, _⟩ => ⟨S2000x192, .bf16⟩
  | .local _ .vmem, ⟨45, _⟩ => ⟨S2000x1, .f32⟩
  | .local _ .vmem, ⟨46, _⟩ => ⟨S2000x1, .f32⟩
  | .local _ .vmem, ⟨47, _⟩ => ⟨S1x192, .f32⟩
  | .local _ .vmem, ⟨48, _⟩ => ⟨S2000x192, .f32⟩
  | .local _ .vmem, ⟨49, _⟩ => ⟨S2000x192, .f32⟩
  | .local _ .vmem, ⟨50, _⟩ => ⟨S192x192, .f32⟩
  | .local _ .vmem, ⟨51, _⟩ => ⟨S2000x192, .f32⟩
  | .local _ .vmem, ⟨52, _⟩ => ⟨S2000x192, .f32⟩
  | .local _ .vmem, ⟨53, _⟩ => ⟨S2000x192, .bf16⟩
  | .local _ .vmem, ⟨54, _⟩ => ⟨S2000x192, .bf16⟩
  | .local _ .vmem, ⟨55, _⟩ => ⟨S2000x192, .f32⟩
  | .local _ .vmem, ⟨56, _⟩ => ⟨S2000x192, .f32⟩
  | .local _ .vmem, ⟨57, _⟩ => ⟨S2000x192, .bf16⟩
  | .local _ .vmem, ⟨58, _⟩ => ⟨S2000x192, .bf16⟩
  | .local _ .vmem, ⟨59, _⟩ => ⟨S2000x1, .f32⟩
  | .local _ .vmem, ⟨60, _⟩ => ⟨S2000x1, .f32⟩
  | .local _ .vmem, ⟨61, _⟩ => ⟨S1x192, .f32⟩
  | .local _ .vmem, ⟨62, _⟩ => ⟨S2000x192, .f32⟩
  | .local _ .vmem, ⟨63, _⟩ => ⟨S2000x192, .f32⟩
  | .local _ .vmem, ⟨64, _⟩ => ⟨S2000x192, .f32⟩
  | .local _ .vmem, ⟨65, _⟩ => ⟨S2000x192, .f32⟩
  | .local _ .vmem, ⟨66, _⟩ => ⟨S2000x192, .f32⟩
  | .local _ .vmem, ⟨67, _⟩ => ⟨S2000x192, .f32⟩
  | .local _ .vmem, ⟨68, _⟩ => ⟨S192x192, .f32⟩
  | .local _ .vmem, ⟨69, _⟩ => ⟨S1x192, .f32⟩
  | .local _ .vmem, ⟨70, _⟩ => ⟨S192x96, .f32⟩
  | .local _ .vmem, ⟨71, _⟩ => ⟨S1x96, .f32⟩
  | .local _ .vmem, ⟨72, _⟩ => ⟨S96x2, .f32⟩
  | .local _ .vmem, ⟨73, _⟩ => ⟨S1x2, .f32⟩
  | .local _ .vmem, ⟨74, _⟩ => ⟨S192x96, .f32⟩
  | .local _ .vmem, ⟨75, _⟩ => ⟨S1x96, .f32⟩
  | .local _ .vmem, ⟨76, _⟩ => ⟨S96x1, .f32⟩
  | .local _ .vmem, ⟨77, _⟩ => ⟨S1x1, .f32⟩
  | .local _ .vmem, ⟨78, _⟩ => ⟨S2000x2, .f32⟩
  | .local _ .vmem, ⟨79, _⟩ => ⟨S2000x2, .f32⟩
  | _, _ => ⟨S50000x41, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_c_7 : Ref sig .tc := ⟨.hbm, 81, rfl⟩
abbrev main_v54 : Ref sig .tc := ⟨.hbm, 82, rfl⟩
abbrev main_v55 : Ref sig .tc := ⟨.hbm, 83, rfl⟩
abbrev main_c_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70_0 : Ref sig .tc := ⟨.hbm, 100, rfl⟩
abbrev main_v70_1 : Ref sig .tc := ⟨.hbm, 101, rfl⟩
abbrev main_c_10 : Ref sig .tc := ⟨.hbm, 102, rfl⟩
abbrev main_v71 : Ref sig .tc := ⟨.hbm, 103, rfl⟩
abbrev main_v72 : Ref sig .tc := ⟨.hbm, 104, rfl⟩
abbrev main_c_11 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg7_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg4_1 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg8_0 : Ref sig .tc := ⟨.vmem, 75, rfl⟩
abbrev cc6_stg9_0 : Ref sig .tc := ⟨.vmem, 76, rfl⟩
abbrev cc6_stg10_0 : Ref sig .tc := ⟨.vmem, 77, rfl⟩
abbrev cc6_stg11_0 : Ref sig .tc := ⟨.vmem, 78, rfl⟩
abbrev cc6_stg11_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem6_0 : DmaSem sig := 37
abbrev cc3_sem6_1 : DmaSem sig := 38
abbrev cc3_sem7_0 : DmaSem sig := 39
abbrev cc3_sem7_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem4_1 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem4_1 : DmaSem sig := 63
abbrev cc5_sem5_0 : DmaSem sig := 64
abbrev cc5_sem5_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem8_0 : DmaSem sig := 75
abbrev cc6_sem9_0 : DmaSem sig := 76
abbrev cc6_sem10_0 : DmaSem sig := 77
abbrev cc6_sem11_0 : DmaSem sig := 78
abbrev cc6_sem11_1 : DmaSem sig := 79

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x41 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S41x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S192x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x192 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S192x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x192 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x192 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x192 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x192 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S192x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x192 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x192 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x192 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x192 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x192 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S192x192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x192 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S192x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S96x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x2 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S192x96 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x96 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S96x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S2000x2 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  shapeCasts_S192_S1x192 : S192.ShapeCasts S1x192
  inb_S2000x41_S2000x41_0_0 : ∀ a, (![0, 0] : Fin 2 → Nat) a + S2000x41.size a ≤ S2000x41.size a
  h_S2000x41 : 0 < S2000x41.numel
  bitsLt_bf16_f32 : FTy.bits .bf16 < FTy.bits .f32
  inb_S41x192_S41x192_0_0 : ∀ a, (![0, 0] : Fin 2 → Nat) a + S41x192.size a ≤ S41x192.size a
  h_S41x192 : 0 < S41x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  slices_S4x192x192_S1x192x192_0_0_0 : S4x192x192.Slices ![0, 0, 0] S1x192x192
  shapeCasts_S1x192x192_S192x192 : S1x192x192.ShapeCasts S192x192
  shapeCasts_S2000x192_S2000x192 : S2000x192.ShapeCasts S2000x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x192 : S2000x1.Broadcasts S2000x192
  packedbf16_S2000x192_S2000x192_0_0 : (Rect.unit (s := S2000x192) ![0, 0] S2000x192.size inb_S2000x192_S2000x192_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x192 : S_.BroadcastsInDim S50000x192 (![] : Fin 0 → Fin S50000x192.rank)
  slices_S4x192_S1x192_0_0 : S4x192.Slices ![0, 0] S1x192
  shapeCasts_S1x192_S192 : S1x192.ShapeCasts S192
  slices_S4x192x192_S1x192x192_1_0_0 : S4x192x192.Slices ![1, 0, 0] S1x192x192
  slices_S4x192_S1x192_1_0 : S4x192.Slices ![1, 0] S1x192
  slices_S4x192x192_S1x192x192_2_0_0 : S4x192x192.Slices ![2, 0, 0] S1x192x192
  slices_S4x192_S1x192_2_0 : S4x192.Slices ![2, 0] S1x192
  slices_S4x192x192_S1x192x192_3_0_0 : S4x192x192.Slices ![3, 0, 0] S1x192x192
  slices_S4x192_S1x192_3_0 : S4x192.Slices ![3, 0] S1x192
  shapeCasts_S96_S1x96 : S96.ShapeCasts S1x96
  shapeCasts_S2_S1x2 : S2.ShapeCasts S1x2
  shapeCasts_S1_S1x1 : S1.ShapeCasts S1x1
  inb_S192x96_S192x96_0_0 : ∀ a, (![0, 0] : Fin 2 → Nat) a + S192x96.size a ≤ S192x96.size a
  h_S192x96 : 0 < S192x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000_S850000x1_S850000_n_0_0_1_wf : ScatterDims.WF S50000 S850000x1 S850000 [] [0] [0] 1
  dot_S2000x41_S41x192_S2000x192_1_0_0_1_n_n_wf : DotDims.WF S2000x41 S41x192 S2000x192 [1] [0] [0] [1] [] []
  dot_S2000x192_S192x192_S2000x192_1_0_0_1_n_n_wf : DotDims.WF S2000x192 S192x192 S2000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x192_S192x96_S2000x96_1_0_0_1_n_n_wf : DotDims.WF S2000x192 S192x96 S2000x96 [1] [0] [0] [1] [] []
  dot_S2000x96_S96x2_S2000x2_1_0_0_1_n_n_wf : DotDims.WF S2000x96 S96x2 S2000x2 [1] [0] [0] [1] [] []
  dot_S2000x96_S96x1_S2000x1_1_0_0_1_n_n_wf : DotDims.WF S2000x96 S96x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x41.size a ≤ S50000x41.size a
  hwx0_0 : ∀ i : grid0.Coords, EltTy.bits .f32 = 32 ∨ (Rect.block (s := S50000x41) S2000x41.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S41x192.size a ≤ S41x192.size a
  hwx0_1 : ∀ i : grid0.Coords, EltTy.bits .f32 = 32 ∨ (Rect.block (s := S41x192) S41x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x192.size a ≤ S50000x192.size a
  hwx0_3 : ∀ i : grid0.Coords, EltTy.bits .f32 = 32 ∨ (Rect.block (s := S50000x192) S2000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x192.size a ≤ S50000x192.size a
  hwx1_0 : ∀ i : grid1.Coords, EltTy.bits .f32 = 32 ∨ (Rect.block (s := S50000x192) S2000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x192.size a ≤ S192x192.size a
  hwx1_1 : ∀ i : grid1.Coords, EltTy.bits .f32 = 32 ∨ (Rect.block (s := S192x192) S192x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x192.size a ≤ S50000x192.size a
  hwx1_3 : ∀ i : grid1.Coords, EltTy.bits .bf16 = 32 ∨ (Rect.block (s := S50000x192) S2000x192.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S50000x192.size a
  hwx2_0 : ∀ i : grid2.Coords, EltTy.bits .f32 = 32 ∨ (Rect.block (s := S50000x192) S2000x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x192.size a ≤ S50000x192.size a
  hwx2_1 : ∀ i : grid2.Coords, EltTy.bits .bf16 = 32 ∨ (Rect.block (s := S50000x192) S2000x192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x192.size a ≤ S1x192.size a
  hwx2_3 : ∀ i : grid2.Coords, EltTy.bits .f32 = 32 ∨ (Rect.block (s := S1x192) S1x192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x192.size a ≤ S50000x192.size a
  hwx2_4 : ∀ i : grid2.Coords, EltTy.bits .f32 = 32 ∨ (Rect.block (s := S50000x192) S2000x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S192x192.size a ≤ S192x192.size a
  hwx2_5 : ∀ i : grid2.Coords, EltTy.bits .f32 = 32 ∨ (Rect.block (s := S192x192) S192x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x192.size a ≤ S50000x192.size a
  hwx2_6 : ∀ i : grid2.Coords, EltTy.bits .f32 = 32 ∨ (Rect.block (s := S50000x192) S2000x192.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x192.size a ≤ S50000x192.size a
  hwx2_7 : ∀ i : grid2.Coords, EltTy.bits .bf16 = 32 ∨ (Rect.block (s := S50000x192) S2000x192.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x192.size a ≤ S50000x192.size a
  hwx3_0 : ∀ i : grid3.Coords, EltTy.bits .f32 = 32 ∨ (Rect.block (s := S50000x192) S2000x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x192.size a ≤ S50000x192.size a
  hwx3_1 : ∀ i : grid3.Coords, EltTy.bits .bf16 = 32 ∨ (Rect.block (s := S50000x192) S2000x192.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x192.size a ≤ S1x192.size a
  hwx3_3 : ∀ i : grid3.Coords, EltTy.bits .f32 = 32 ∨ (Rect.block (s := S1x192) S1x192.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x192.size a ≤ S50000x192.size a
  hwx3_4 : ∀ i : grid3.Coords, EltTy.bits .f32 = 32 ∨ (Rect.block (s := S50000x192) S2000x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S192x192.size a ≤ S192x192.size a
  hwx3_5 : ∀ i : grid3.Coords, EltTy.bits .f32 = 32 ∨ (Rect.block (s := S192x192) S192x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x192.size a ≤ S50000x192.size a
  hwx3_6 : ∀ i : grid3.Coords, EltTy.bits .f32 = 32 ∨ (Rect.block (s := S50000x192) S2000x192.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x192.size a ≤ S50000x192.size a
  hwx3_7 : ∀ i : grid3.Coords, EltTy.bits .bf16 = 32 ∨ (Rect.block (s := S50000x192) S2000x192.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x192.size a ≤ S50000x192.size a
  hwx4_0 : ∀ i : grid4.Coords, EltTy.bits .f32 = 32 ∨ (Rect.block (s := S50000x192) S2000x192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x192.size a ≤ S50000x192.size a
  hwx4_1 : ∀ i : grid4.Coords, EltTy.bits .bf16 = 32 ∨ (Rect.block (s := S50000x192) S2000x192.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x192.size a ≤ S1x192.size a
  hwx4_3 : ∀ i : grid4.Coords, EltTy.bits .f32 = 32 ∨ (Rect.block (s := S1x192) S1x192.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x192.size a ≤ S50000x192.size a
  hwx4_4 : ∀ i : grid4.Coords, EltTy.bits .f32 = 32 ∨ (Rect.block (s := S50000x192) S2000x192.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S192x192.size a ≤ S192x192.size a
  hwx4_5 : ∀ i : grid4.Coords, EltTy.bits .f32 = 32 ∨ (Rect.block (s := S192x192) S192x192.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x192.size a ≤ S50000x192.size a
  hwx4_6 : ∀ i : grid4.Coords, EltTy.bits .f32 = 32 ∨ (Rect.block (s := S50000x192) S2000x192.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x192.size a ≤ S50000x192.size a
  hwx4_7 : ∀ i : grid4.Coords, EltTy.bits .bf16 = 32 ∨ (Rect.block (s := S50000x192) S2000x192.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x192.size a ≤ S50000x192.size a
  hwx5_0 : ∀ i : grid5.Coords, EltTy.bits .f32 = 32 ∨ (Rect.block (s := S50000x192) S2000x192.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x192.size a ≤ S50000x192.size a
  hwx5_1 : ∀ i : grid5.Coords, EltTy.bits .bf16 = 32 ∨ (Rect.block (s := S50000x192) S2000x192.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x192.size a ≤ S1x192.size a
  hwx5_3 : ∀ i : grid5.Coords, EltTy.bits .f32 = 32 ∨ (Rect.block (s := S1x192) S1x192.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x192.size a ≤ S50000x192.size a
  hwx5_4 : ∀ i : grid5.Coords, EltTy.bits .f32 = 32 ∨ (Rect.block (s := S50000x192) S2000x192.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x192.size a ≤ S50000x192.size a
  hwx5_5 : ∀ i : grid5.Coords, EltTy.bits .f32 = 32 ∨ (Rect.block (s := S50000x192) S2000x192.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x192.size a ≤ S50000x192.size a
  hwx6_0 : ∀ i : grid6.Coords, EltTy.bits .f32 = 32 ∨ (Rect.block (s := S50000x192) S2000x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x192.size a ≤ S192x192.size a
  hwx6_1 : ∀ i : grid6.Coords, EltTy.bits .f32 = 32 ∨ (Rect.block (s := S192x192) S192x192.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x192.size a ≤ S1x192.size a
  hwx6_2 : ∀ i : grid6.Coords, EltTy.bits .f32 = 32 ∨ (Rect.block (s := S1x192) S1x192.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S192x96.size a ≤ S192x96.size a
  hwx6_3 : ∀ i : grid6.Coords, EltTy.bits .f32 = 32 ∨ (Rect.block (s := S192x96) S192x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S96x2.size a ≤ S96x2.size a
  hwx6_5 : ∀ i : grid6.Coords, EltTy.bits .f32 = 32 ∨ (Rect.block (s := S96x2) S96x2.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x2.size a ≤ S1x2.size a
  hwx6_6 : ∀ i : grid6.Coords, EltTy.bits .f32 = 32 ∨ (Rect.block (s := S1x2) S1x2.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S192x96.size a ≤ S192x96.size a
  hwx6_7 : ∀ i : grid6.Coords, EltTy.bits .f32 = 32 ∨ (Rect.block (s := S192x96) S192x96.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x96.size a ≤ S1x96.size a
  hwx6_8 : ∀ i : grid6.Coords, EltTy.bits .f32 = 32 ∨ (Rect.block (s := S1x96) S1x96.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S96x1.size a ≤ S96x1.size a
  hwx6_9 : ∀ i : grid6.Coords, EltTy.bits .f32 = 32 ∨ (Rect.block (s := S96x1) S96x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S2000x2.size a ≤ S50000x2.size a
  hwx6_11 : ∀ i : grid6.Coords, EltTy.bits .f32 = 32 ∨ (Rect.block (s := S50000x2) S2000x2.size (cc6_transform_11 i) (hinb6_11 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x41_S41x192_S2000x192_1_0_0_1_n_n : DotDims S2000x41 S41x192 S2000x192 where
  lhsContracting := [1]
  rhsContracting := [0]
  lhsNonContracting := [0]
  rhsNonContracting := [1]
  lhsBatch := []
  rhsBatch := []
  wf := dot_S2000x41_S41x192_S2000x192_1_0_0_1_n_n_wf
def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x192_S192x96_S2000x96_1_0_0_1_n_n : DotDims S2000x192 S192x96 S2000x96 where
  lhsContracting := [1]
  rhsContracting := [0]
  lhsNonContracting := [0]
  rhsNonContracting := [1]
  lhsBatch := []
  rhsBatch := []
  wf := dot_S2000x192_S192x96_S2000x96_1_0_0_1_n_n_wf
def dot_S2000x96_S96x2_S2000x2_1_0_0_1_n_n : DotDims S2000x96 S96x2 S2000x2 where
  lhsContracting := [1]
  rhsContracting := [0]
  lhsNonContracting := [0]
  rhsNonContracting := [1]
  lhsBatch := []
  rhsBatch := []
  wf := dot_S2000x96_S96x2_S2000x2_1_0_0_1_n_n_wf
def dot_S2000x96_S96x1_S2000x1_1_0_0_1_n_n : DotDims S2000x96 S96x1 S2000x1 where
  lhsContracting := [1]
  rhsContracting := [0]
  lhsNonContracting := [0]
  rhsNonContracting := [1]
  lhsBatch := []
  rhsBatch := []
  wf := dot_S2000x96_S96x1_S2000x1_1_0_0_1_n_n_wf

abbrev win0_0 : Pipeline.Window sig grid0 :=
  Pipeline.Window.ofSpec (Memref.whole main_arg0) S2000x41.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S41x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S192x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2000x192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S2000x192.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v34) S192x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36_0) S2000x192.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v36_1) S2000x192.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S2000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36_1) S2000x192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36_0) S2000x192.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v51) S192x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53_0) S2000x192.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v53_1) S2000x192.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v64) S2000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53_1) S2000x192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x192.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53_0) S2000x192.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v68) S192x192.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70_0) S2000x192.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v70_1) S2000x192.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v81) S2000x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70_1) S2000x192.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70_0) S2000x192.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v85) S2000x192.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S2000x192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S192x192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x192.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S192x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v87) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg10) S96x2.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v88) S1x2.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg12) S192x96.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v89) S1x96.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg14) S96x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v90) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v91) S2000x2.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S50000x41 : Shape := ⟨2, ![50000, 41]⟩
abbrev S2x800000 : Shape := ⟨2, ![2, 800000]⟩
abbrev S41x192 : Shape := ⟨2, ![41, 192]⟩
abbrev S192 : Shape := ⟨1, ![192]⟩
abbrev S4x192x192 : Shape := ⟨3, ![4, 192, 192]⟩
abbrev S4x192 : Shape := ⟨2, ![4, 192]⟩
abbrev S192x192 : Shape := ⟨2, ![192, 192]⟩
abbrev S192x96 : Shape := ⟨2, ![192, 96]⟩
abbrev S96 : Shape := ⟨1, ![96]⟩
abbrev S96x2 : Shape := ⟨2, ![96, 2]⟩
abbrev S2 : Shape := ⟨1, ![2]⟩
abbrev S96x1 : Shape := ⟨2, ![96, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x192 : Shape := ⟨2, ![50000, 192]⟩
abbrev S1x192 : Shape := ⟨2, ![1, 192]⟩
abbrev S1x192x192 : Shape := ⟨3, ![1, 192, 192]⟩
abbrev S850000x192 : Shape := ⟨2, ![850000, 192]⟩
abbrev S50000x96 : Shape := ⟨2, ![50000, 96]⟩
abbrev S1x96 : Shape := ⟨2, ![1, 96]⟩
abbrev S50000x2 : Shape := ⟨2, ![50000, 2]⟩
abbrev S1x2 : Shape := ⟨2, ![1, 2]⟩
abbrev S50000x1 : Shape := ⟨2, ![50000, 1]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S50000x41, .f32⟩
  | 1 => ⟨S2x800000, .i32⟩
  | 2 => ⟨S41x192, .f32⟩
  | 3 => ⟨S192, .f32⟩
  | 4 => ⟨S4x192x192, .f32⟩
  | 5 => ⟨S4x192, .f32⟩
  | 6 => ⟨S192x192, .f32⟩
  | 7 => ⟨S192, .f32⟩
  | 8 => ⟨S192x96, .f32⟩
  | 9 => ⟨S96, .f32⟩
  | 10 => ⟨S96x2, .f32⟩
  | 11 => ⟨S2, .f32⟩
  | 12 => ⟨S192x96, .f32⟩
  | 13 => ⟨S96, .f32⟩
  | 14 => ⟨S96x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S50000x192, .f32⟩
  | 54 => ⟨S1x192, .f32⟩
  | 55 => ⟨S50000x192, .f32⟩
  | 56 => ⟨S50000x192, .f32⟩
  | 57 => ⟨S1x192x192, .f32⟩
  | 58 => ⟨S192x192, .f32⟩
  | 59 => ⟨S50000x192, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x192, .f32⟩
  | 69 => ⟨S850000x192, .f32⟩
  | 70 => ⟨S850000x192, .f32⟩
  | 71 => ⟨S_, .f32⟩
  | 72 => ⟨S50000x192, .f32⟩
  | 73 => ⟨S850000x1, .i32⟩
  | 74 => ⟨S50000x192, .f32⟩
  | 75 => ⟨S1x192, .f32⟩
  | 76 => ⟨S192, .f32⟩
  | 77 => ⟨S1x192, .f32⟩
  | 78 => ⟨S50000x192, .f32⟩
  | 79 => ⟨S50000x192, .f32⟩
  | 80 => ⟨S_, .f32⟩
  | 81 => ⟨S50000x192, .f32⟩
  | 82 => ⟨S50000x192, .f32⟩
  | 83 => ⟨S50000x192, .f32⟩
  | 84 => ⟨S1x192x192, .f32⟩
  | 85 => ⟨S192x192, .f32⟩
  | 86 => ⟨S50000x192, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x192, .f32⟩
  | 96 => ⟨S850000x192, .f32⟩
  | 97 => ⟨S850000x192, .f32⟩
  | 98 => ⟨S_, .f32⟩
  | 99 => ⟨S50000x192, .f32⟩
  | 100 => ⟨S850000x1, .i32⟩
  | 101 => ⟨S50000x192, .f32⟩
  | 102 => ⟨S1x192, .f32⟩
  | 103 => ⟨S192, .f32⟩
  | 104 => ⟨S1x192, .f32⟩
  | 105 => ⟨S50000x192, .f32⟩
  | 106 => ⟨S50000x192, .f32⟩
  | 107 => ⟨S_, .f32⟩
  | 108 => ⟨S50000x192, .f32⟩
  | 109 => ⟨S50000x192, .f32⟩
  | 110 => ⟨S50000x192, .f32⟩
  | 111 => ⟨S1x192x192, .f32⟩
  | 112 => ⟨S192x192, .f32⟩
  | 113 => ⟨S50000x192, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x192, .f32⟩
  | 123 => ⟨S850000x192, .f32⟩
  | 124 => ⟨S850000x192, .f32⟩
  | 125 => ⟨S_, .f32⟩
  | 126 => ⟨S50000x192, .f32⟩
  | 127 => ⟨S850000x1, .i32⟩
  | _ => ⟨S50000x41, .f32⟩

abbrev hbmTy0_1 (i : Nat) : BufTy := match i % 128 with
  | 0 => ⟨S50000x192, .f32⟩
  | 1 => ⟨S1x192, .f32⟩
  | 2 => ⟨S192, .f32⟩
  | 3 => ⟨S1x192, .f32⟩
  | 4 => ⟨S50000x192, .f32⟩
  | 5 => ⟨S50000x192, .f32⟩
  | 6 => ⟨S_, .f32⟩
  | 7 => ⟨S50000x192, .f32⟩
  | 8 => ⟨S50000x192, .f32⟩
  | 9 => ⟨S50000x192, .f32⟩
  | 10 => ⟨S1x192x192, .f32⟩
  | 11 => ⟨S192x192, .f32⟩
  | 12 => ⟨S50000x192, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x192, .f32⟩
  | 22 => ⟨S850000x192, .f32⟩
  | 23 => ⟨S850000x192, .f32⟩
  | 24 => ⟨S_, .f32⟩
  | 25 => ⟨S50000x192, .f32⟩
  | 26 => ⟨S850000x1, .i32⟩
  | 27 => ⟨S50000x192, .f32⟩
  | 28 => ⟨S1x192, .f32⟩
  | 29 => ⟨S192, .f32⟩
  | 30 => ⟨S1x192, .f32⟩
  | 31 => ⟨S50000x192, .f32⟩
  | 32 => ⟨S50000x192, .f32⟩
  | 33 => ⟨S_, .f32⟩
  | 34 => ⟨S50000x192, .f32⟩
  | 35 => ⟨S50000x192, .f32⟩
  | 36 => ⟨S50000x192, .f32⟩
  | 37 => ⟨S50000x192, .f32⟩
  | 38 => ⟨S1x192, .f32⟩
  | 39 => ⟨S50000x192, .f32⟩
  | 40 => ⟨S50000x192, .f32⟩
  | 41 => ⟨S_, .f32⟩
  | 42 => ⟨S50000x192, .f32⟩
  | 43 => ⟨S50000x192, .f32⟩
  | 44 => ⟨S50000x96, .f32⟩
  | 45 => ⟨S1x96, .f32⟩
  | 46 => ⟨S50000x96, .f32⟩
  | 47 => ⟨S50000x96, .f32⟩
  | 48 => ⟨S_, .f32⟩
  | 49 => ⟨S50000x96, .f32⟩
  | 50 => ⟨S50000x96, .f32⟩
  | 51 => ⟨S50000x2, .f32⟩
  | 52 => ⟨S1x2, .f32⟩
  | 53 => ⟨S50000x2, .f32⟩
  | 54 => ⟨S50000x2, .f32⟩
  | 55 => ⟨S50000x96, .f32⟩
  | 56 => ⟨S1x96, .f32⟩
  | 57 => ⟨S50000x96, .f32⟩
  | 58 => ⟨S50000x96, .f32⟩
  | 59 => ⟨S_, .f32⟩
  | 60 => ⟨S50000x96, .f32⟩
  | 61 => ⟨S50000x96, .f32⟩
  | 62 => ⟨S50000x1, .f32⟩
  | 63 => ⟨S1x1, .f32⟩
  | 64 => ⟨S50000x1, .f32⟩
  | 65 => ⟨S50000x1, .f32⟩
  | 66 => ⟨S50000x1, .f32⟩
  | 67 => ⟨S50000x1, .f32⟩
  | 68 => ⟨S_, .f32⟩
  | 69 => ⟨S50000x1, .f32⟩
  | 70 => ⟨S50000x1, .f32⟩
  | 71 => ⟨S_, .f32⟩
  | 72 => ⟨S50000x1, .f32⟩
  | 73 => ⟨S50000x1, .f32⟩
  | 74 => ⟨S50000x2, .f32⟩
  | 75 => ⟨S_, .f32⟩
  | 76 => ⟨S50000, .f32⟩
  | 77 => ⟨S50000x1, .f32⟩
  | 78 => ⟨S_, .f32⟩
  | 79 => ⟨S50000x1, .f32⟩
  | 80 => ⟨S50000x1, .f32⟩
  | 81 => ⟨S50000x1, .f32⟩
  | 82 => ⟨S50000x2, .f32⟩
  | 83 => ⟨S50000x2, .f32⟩
  | 84 => ⟨S50000x2, .f32⟩
  | 85 => ⟨S50000x2, .f32⟩
  | _ => ⟨S50000x41, .f32⟩

abbrev hbmTy (i : Nat) : BufTy := match i / 128 with
  | 0 => hbmTy0_0 i
  | 1 => hbmTy0_1 i
  | _ => ⟨S50000x41, .f32⟩

abbrev bufTy : (tb : Table) → Fin (tcTables nBuf tb) → BufTy
  | .hbm, ⟨i, _⟩ => hbmTy i
  | _, _ => ⟨S50000x41, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call0_cst : Ref sig .tc := ⟨.hbm, 80, rfl⟩
abbrev main_call0_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call1_cst : Ref sig .tc := ⟨.hbm, 107, rfl⟩
abbrev main_call1_v0 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_11 : Ref sig .tc := ⟨.hbm, 114, rfl⟩
abbrev main_v81 : Ref sig .tc := ⟨.hbm, 115, rfl⟩
abbrev main_v82 : Ref sig .tc := ⟨.hbm, 116, rfl⟩
abbrev main_c_12 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call2_cst : Ref sig .tc := ⟨.hbm, 134, rfl⟩
abbrev main_call2_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_14 : Ref sig .tc := ⟨.hbm, 141, rfl⟩
abbrev main_v103 : Ref sig .tc := ⟨.hbm, 142, rfl⟩
abbrev main_v104 : Ref sig .tc := ⟨.hbm, 143, rfl⟩
abbrev main_c_15 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_16 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_call3_cst : Ref sig .tc := ⟨.hbm, 161, rfl⟩
abbrev main_call3_v0 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_call4_cst : Ref sig .tc := ⟨.hbm, 169, rfl⟩
abbrev main_call4_v0 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_call5_cst : Ref sig .tc := ⟨.hbm, 176, rfl⟩
abbrev main_call5_v0 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_call6_cst : Ref sig .tc := ⟨.hbm, 187, rfl⟩
abbrev main_call6_v0 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_17 : Ref sig .tc := ⟨.hbm, 196, rfl⟩
abbrev main_v147 : Ref sig .tc := ⟨.hbm, 197, rfl⟩
abbrev main_v148 : Ref sig .tc := ⟨.hbm, 198, rfl⟩
abbrev main_cst_18 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_19 : Ref sig .tc := ⟨.hbm, 203, rfl⟩
abbrev main_v152 : Ref sig .tc := ⟨.hbm, 204, rfl⟩
abbrev main_v153 : Ref sig .tc := ⟨.hbm, 205, rfl⟩
abbrev main_cst_20 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S4x192x192_S1x192x192_0_0_0 : S4x192x192.Slices ![0, 0, 0] S1x192x192
  shapeCasts_S1x192x192_S192x192 : S1x192x192.ShapeCasts S192x192
  bcast_S850000x1_S850000x192_0_1 : S850000x1.BroadcastsInDim S850000x192 (![0, 1] : Fin 2 → Fin S850000x192.rank)
  bcast_S_S50000x192 : S_.BroadcastsInDim S50000x192 (![] : Fin 0 → Fin S50000x192.rank)
  slices_S4x192_S1x192_0_0 : S4x192.Slices ![0, 0] S1x192
  shapeCasts_S1x192_S192 : S1x192.ShapeCasts S192
  slices_S4x192x192_S1x192x192_1_0_0 : S4x192x192.Slices ![1, 0, 0] S1x192x192
  slices_S4x192_S1x192_1_0 : S4x192.Slices ![1, 0] S1x192
  slices_S4x192x192_S1x192x192_2_0_0 : S4x192x192.Slices ![2, 0, 0] S1x192x192
  slices_S4x192_S1x192_2_0 : S4x192.Slices ![2, 0] S1x192
  slices_S4x192x192_S1x192x192_3_0_0 : S4x192x192.Slices ![3, 0, 0] S1x192x192
  slices_S4x192_S1x192_3_0 : S4x192.Slices ![3, 0] S1x192
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x41_S41x192_S50000x192_1_0_0_1_n_n_wf : DotDims.WF S50000x41 S41x192 S50000x192 [1] [0] [0] [1] [] []
  dot_S50000x192_S192x192_S50000x192_1_0_0_1_n_n_wf : DotDims.WF S50000x192 S192x192 S50000x192 [1] [0] [0] [1] [] []
  gather_S50000x192_S850000x1_S850000x192_1_0_n_n_0_1_1192_wf : GatherDims.WF S50000x192 S850000x1 S850000x192 [1] [0] [] [0] [] 1 ![1, 192]
  scatter_S50000x192_S850000x1_S850000x192_1_0_0_1_wf : ScatterDims.WF S50000x192 S850000x1 S850000x192 [1] [0] [0] 1
  dot_S50000x192_S192x96_S50000x96_1_0_0_1_n_n_wf : DotDims.WF S50000x192 S192x96 S50000x96 [1] [0] [0] [1] [] []
  dot_S50000x96_S96x2_S50000x2_1_0_0_1_n_n_wf : DotDims.WF S50000x96 S96x2 S50000x2 [1] [0] [0] [1] [] []
  dot_S50000x96_S96x1_S50000x1_1_0_0_1_n_n_wf : DotDims.WF S50000x96 S96x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x41_S41x192_S50000x192_1_0_0_1_n_n : DotDims S50000x41 S41x192 S50000x192 where
  lhsContracting := [1]
  rhsContracting := [0]
  lhsNonContracting := [0]
  rhsNonContracting := [1]
  lhsBatch := []
  rhsBatch := []
  wf := dot_S50000x41_S41x192_S50000x192_1_0_0_1_n_n_wf
def dot_S50000x192_S192x192_S50000x192_1_0_0_1_n_n : DotDims S50000x192 S192x192 S50000x192 where
  lhsContracting := [1]
  rhsContracting := [0]
  lhsNonContracting := [0]
  rhsNonContracting := [1]
  lhsBatch := []
  rhsBatch := []
  wf := dot_S50000x192_S192x192_S50000x192_1_0_0_1_n_n_wf
def gather_S50000x192_S850000x1_S850000x192_1_0_n_n_0_1_1192 : GatherDims S50000x192 S850000x1 S850000x192 where
  offsetDims := [1]
  collapsedSliceDims := [0]
  operandBatchingDims := []
  startIndicesBatchingDims := []
  startIndexMap := [0]
  indexVectorDim := 1
  sliceSizes := ![1, 192]
  wf := gather_S50000x192_S850000x1_S850000x192_1_0_n_n_0_1_1192_wf
def scatter_S50000x192_S850000x1_S850000x192_1_0_0_1 : ScatterDims S50000x192 S850000x1 S850000x192 where
  updateWindowDims := [1]
  insertedWindowDims := [0]
  scatterDimsToOperandDims := [0]
  indexVectorDim := 1
  wf := scatter_S50000x192_S850000x1_S850000x192_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf
def dot_S50000x96_S96x1_S50000x1_1_0_0_1_n_n : DotDims S50000x96 S96x1 S50000x1 where
  lhsContracting := [1]
  rhsContracting := [0]
  lhsNonContracting := [0]
  rhsNonContracting := [1]
  lhsBatch := []
  rhsBatch := []
  wf := dot_S50000x96_S96x1_S50000x1_1_0_0_1_n_n_wf

class Facts : Prop extends Facts₀ where

variable [Facts]
-- ==== Proof.KernelRun.lean ====
/-
  The kernel program's run with its result named.

  Every weakly fair execution of the program terminates without a fault; at the end the result buffer holds what the
  last boundary's contents hold there (`W14`: the launch memory carried through the seven host stretches and the
  seven regions, each region's arrays at what its write-backs leave), and the sixteen argument arrays are as launched.
-/
import proofs.«181823_j62440234549671_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the fourteen segments from the launch memory, its final state read against the last boundary's
    contents: the result buffer there, each argument array back at its launch contents. -/
theorem run : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.RunValue

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«181823_j62440234549671_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.Spec.lean ====
/-
  The graph network of this certificate as index-by-index functions over the extended reals, for any number of rows.

  A node-feature array has one row per node.  Every dense stage below reads, for the output's row `r`, only row `r`
  of its row-wise operands (and all of its weights), so each commutes with taking a contiguous band of rows
  (`rowsFrom`): that is what lets a kernel that works band by band be read as one function of the whole arrays.

  * `scaleRows a d`      — row `r` of `a` multiplied by the row's own factor `d (r, 0)`;
  * `residual agg ms d b h` — one residual graph-convolution update with the self-loop message added densely:
                            `h + max ((agg + ms) · d + b) 0`, `d` a column, `b` a bias row;
  * `position`, `radius`, `onCircle` — the two read-out heads and the final normalisation
                            `pos / sqrt (Σ_q pos² + ε) · radius`.
-/
import Idealize.ShloMosaic.PureOps.Ideal
import Idealize.ShloMosaic.Lib.ValueIdx
import proofs.«181823_j62440234549671_2_alg».proof.Proof.LibDenseLayers

noncomputable section

namespace Cert.Spec

open Idealize.ShloMosaic Idealize.ShloMosaic.ValueIdx Cert.Layers

/-- An `M × N` array of extended reals. -/
abbrev Arr (M N : Nat) := (⟨2, ![M, N]⟩ : Shape).Idx → EReal

variable {M K N B : Nat}

/-- Row `r` of `a` multiplied by the factor `d (r, 0)` of that row. -/
def scaleRows (a : Arr M N) (d : Arr M 1) : Arr M N :=
  fun i => a i * d (ix2 (i 0) (0 : Fin 1))

/-- One residual update: the aggregated neighbour messages `agg` and the node's own scaled message `ms` are added,
    scaled by the node's factor, biased, clamped at zero and added to the features. -/
def residual (agg ms : Arr M N) (d : Arr M 1) (b : Arr 1 N) (h : Arr M N) : Arr M N :=
  fun i => h i + max ((agg i + ms i) * d (ix2 (i 0) (0 : Fin 1)) + b (ix2 (0 : Fin 1) (i 1))) 0

/-- The position head: two clamped dense layers and a plain one, `192 → 192 → 96 → 2`. -/
def position (h : Arr M 192) (w1 : Arr 192 192) (b1 : Arr 1 192) (w2 : Arr 192 96) (b2 : Arr 1 96)
    (w3 : Arr 96 2) (b3 : Arr 1 2) : Arr M 2 :=
  addRow (project (addRowClamp (project (addRowClamp (project h w1) b1) w2) b2) w3) b3

/-- The radius head: a clamped dense layer, a plain one and the logistic function, `192 → 96 → 1`. -/
def radius (h : Arr M 192) (w1 : Arr 192 96) (b1 : Arr 1 96) (w2 : Arr 96 1) (b2 : Arr 1 1) : Arr M 1 :=
  fun i => Ideal.logistic (addRow (project (addRowClamp (project h w1) b1) w2) b2 i)

/-- Each position divided by `sqrt (x² + y² + ε)` and multiplied by the node's radius. -/
def onCircle (pos : Arr M 2) (rad : Arr M 1) (ε : EReal) : Arr M 2 :=
  fun i => Ideal.div (pos i) (Ideal.sqrt ((∑ q : Fin 2, pos (ix2 (i 0) q) * pos (ix2 (i 0) q)) + ε))
    * rad (ix2 (i 0) (0 : Fin 1))

/-- The whole read-out: both heads of the features `h`, then the normalisation. -/
def readout (h : Arr M 192) (wp1 : Arr 192 192) (bp1 : Arr 1 192) (wp2 : Arr 192 96) (bp2 : Arr 1 96)
    (wp3 : Arr 96 2) (bp3 : Arr 1 2) (wr1 : Arr 192 96) (br1 : Arr 1 96) (wr2 : Arr 96 1) (br2 : Arr 1 1)
    (ε : EReal) : Arr M 2 :=
  onCircle (position h wp1 bp1 wp2 bp2 wp3 bp3) (radius h wr1 br1 wr2 br2) ε

/-! ## Bands of rows -/

/-- Rows `o, o + 1, …, o + B − 1` of an array. -/
def rowsFrom (B o : Nat) (ho : o + B ≤ M) (a : Arr M N) : Arr B N :=
  fun j => a (ix2 ⟨o + (j 0).val, by have := idx2_lt0 j; omega⟩ (j 1))

theorem project_rows (o : Nat) (ho : o + B ≤ M) (x : Arr M K) (w : Arr K N) :
    project (rowsFrom B o ho x) w = rowsFrom B o ho (project x w) := rfl

theorem addRow_rows (o : Nat) (ho : o + B ≤ M) (a : Arr M N) (b : Arr 1 N) :
    addRow (rowsFrom B o ho a) b = rowsFrom B o ho (addRow a b) := rfl

theorem addRowClamp_rows (o : Nat) (ho : o + B ≤ M) (a : Arr M N) (b : Arr 1 N) :
    addRowClamp (rowsFrom B o ho a) b = rowsFrom B o ho (addRowClamp a b) := rfl

theorem scaleRows_rows (o : Nat) (ho : o + B ≤ M) (a : Arr M N) (d : Arr M 1) :
    scaleRows (rowsFrom B o ho a) (rowsFrom B o ho d) = rowsFrom B o ho (scaleRows a d) := rfl

theorem residual_rows (o : Nat) (ho : o + B ≤ M) (agg ms : Arr M N) (d : Arr M 1) (b : Arr 1 N) (h : Arr M N) :
    residual (rowsFrom B o ho agg) (rowsFrom B o ho ms) (rowsFrom B o ho d) b (rowsFrom B o ho h)
      = rowsFrom B o ho (residual agg ms d b h) := rfl

theorem position_rows (o : Nat) (ho : o + B ≤ M) (h : Arr M 192) (w1 : Arr 192 192) (b1 : Arr 1 192) (w2 : Arr 192 96)
    (b2 : Arr 1 96) (w3 : Arr 96 2) (b3 : Arr 1 2) :
    position (rowsFrom B o ho h) w1 b1 w2 b2 w3 b3 = rowsFrom B o ho (position h w1 b1 w2 b2 w3 b3) := rfl

theorem radius_rows (o : Nat) (ho : o + B ≤ M) (h : Arr M 192) (w1 : Arr 192 96) (b1 : Arr 1 96) (w2 : Arr 96 1)
    (b2 : Arr 1 1) :
    radius (rowsFrom B o ho h) w1 b1 w2 b2 = rowsFrom B o ho (radius h w1 b1 w2 b2) := rfl

theorem onCircle_rows (o : Nat) (ho : o + B ≤ M) (pos : Arr M 2) (rad : Arr M 1) (ε : EReal) :
    onCircle (rowsFrom B o ho pos) (rowsFrom B o ho rad) ε = rowsFrom B o ho (onCircle pos rad ε) := rfl

theorem readout_rows (o : Nat) (ho : o + B ≤ M) (h : Arr M 192) (wp1 : Arr 192 192) (bp1 : Arr 1 192) (wp2 : Arr 192 96)
    (bp2 : Arr 1 96) (wp3 : Arr 96 2) (bp3 : Arr 1 2) (wr1 : Arr 192 96) (br1 : Arr 1 96) (wr2 : Arr 96 1)
    (br2 : Arr 1 1) (ε : EReal) :
    readout (rowsFrom B o ho h) wp1 bp1 wp2 bp2 wp3 bp3 wr1 br1 wr2 br2 ε
      = rowsFrom B o ho (readout h wp1 bp1 wp2 bp2 wp3 bp3 wr1 br1 wr2 br2 ε) := rfl

/-! ## The graph: rows gathered along edges and summed per destination node -/

/-- The edge list as stored: row 0 the source node of each edge, row 1 its destination, as 32-bit words. -/
abbrev EdgeWords := (⟨2, ![2, 800000]⟩ : Shape).Idx → BitVec 32

/-- A vector of `n` extended reals. -/
abbrev Vec1 (n : Nat) := (⟨1, ![n]⟩ : Shape).Idx → EReal

def srcWord (x1 : EdgeWords) (e : Fin 800000) : BitVec 32 := x1 (ix2 (0 : Fin 2) e)
def dstWord (x1 : EdgeWords) (e : Fin 800000) : BitVec 32 := x1 (ix2 (1 : Fin 2) e)

/-- The array-indexing convention for a negative row number `w`: `w + 50000`. -/
def wrap (w : BitVec 32) : BitVec 32 := Scalar.select (IntOp.cmpi .slt w 0#32) (IntOp.addi w 50000#32) w

/-- The row a gather reads for the start index `w`: `w` as a signed integer, clamped into `[0, 49999]`. -/
def rowOf (w : BitVec 32) : Fin 50000 := ⟨min w.toInt.toNat 49999, by omega⟩

/-- A list of 800000 edge words followed by one self-loop word per node: `0, 1, …, 49999`. -/
def withLoops (f : Fin 800000 → BitVec 32) : Fin 850000 → BitVec 32 :=
  fun e => if h : e.val < 800000 then f ⟨e.val, h⟩ else BitVec.ofNat 32 (e.val - 800000)

variable {E : Nat}

/-- Row `e` of the result is row `src e` of `x`. -/
def gatherRows (src : Fin E → Fin M) (x : Arr M N) : Arr E N := fun j => x (ix2 (src (j 0)) (j 1))

/-- Row `r` of the result is the sum of those rows `e` of `u` whose destination `dst e` is `r`. -/
def sumInto (M : Nat) (dst : Fin E → ℤ) (u : Arr E N) : Arr M N :=
  fun i => ∑ e : Fin E, if dst e = ((i 0).val : ℤ) then u (ix2 e (i 1)) else 0

/-- A vector as a `1 × n` row, and as an `n × 1` column. -/
def asRow {n : Nat} (v : Vec1 n) : Arr 1 n := fun j => v (ix1 (j 1))
def asCol {n : Nat} (v : Vec1 n) : Arr n 1 := fun j => v (ix1 (j 0))

/-- Slab `l` of the four stacked layer weights, and row `l` of the four stacked layer biases. -/
def layerWeights (x4 : (⟨3, ![4, 192, 192]⟩ : Shape).Idx → EReal) (l : Fin 4) : Arr 192 192 :=
  fun j => x4 (ix3 l (j 0) (j 1))
def layerBias (x5 : Arr 4 192) (l : Fin 4) : Arr 1 192 := fun j => x5 (ix2 l (j 1))

/-! ### The real edges only (what travels the gather and the scatter in the kernel's arrangement) -/

def srcK (x1 : EdgeWords) (e : Fin 800000) : Fin 50000 := rowOf (wrap (srcWord x1 e))
def dstK (x1 : EdgeWords) (e : Fin 800000) : ℤ := (dstWord x1 e).toInt

/-- One layer, the kernel's arrangement: the messages `ms = (h · w) ⊙ d` are gathered along the real edges and summed
    per destination; the node's own message, the destination's factor, the bias, the clamp and the residual follow
    densely (`residual`). -/
def updateK (x1 : EdgeWords) (d : Arr 50000 1) (w : Arr 192 192) (b : Arr 1 192) (h : Arr 50000 192) : Arr 50000 192 :=
  residual (sumInto 50000 (dstK x1) (gatherRows (srcK x1) (scaleRows (project h w) d))) (scaleRows (project h w) d) d b h

/-! ### The edges with one self-loop per node appended (the reference's arrangement) -/

def srcR (x1 : EdgeWords) (e : Fin 850000) : Fin 50000 := rowOf (wrap (withLoops (srcWord x1) e))
def dstRowR (x1 : EdgeWords) (e : Fin 850000) : Fin 50000 := rowOf (wrap (withLoops (dstWord x1) e))
def dstR (x1 : EdgeWords) (e : Fin 850000) : ℤ := (withLoops (dstWord x1) e).toInt

/-- The symmetric normalisation coefficient of edge `e`: the factors of its two end points multiplied. -/
def coefR (x1 : EdgeWords) (dv : Vec1 50000) (e : Fin 850000) : EReal := dv (ix1 (srcR x1 e)) * dv (ix1 (dstRowR x1 e))

/-- One layer, the reference's arrangement: `h + max (Σ_{e into r} coef e · (h · w)[src e] + b) 0` over edges and loops. -/
def updateR (x1 : EdgeWords) (dv : Vec1 50000) (w : Arr 192 192) (b : Arr 1 192) (h : Arr 50000 192) : Arr 50000 192 :=
  fun i => h i + max (sumInto 50000 (dstR x1) (fun j : (⟨2, ![850000, 192]⟩ : Shape).Idx => coefR x1 dv (j 0) * gatherRows (srcR x1) (project h w) j) i
    + b (ix2 (0 : Fin 1) (i 1))) 0

/-! ### The whole network, in each arrangement -/

/-- The constant under the square root, the single-precision word of `1e-8` read exactly. -/
def eps : EReal := Ideal.ofBits .f32 0x322BCC77#32

/-- The features after the input projection. -/
def inputFeatures (x : Arr 50000 41) (win : Arr 41 192) (bin : Arr 1 192) : Arr 50000 192 := addRow (project x win) bin

def netK (x : Arr 50000 41) (x1 : EdgeWords) (dv : Vec1 50000) (win : Arr 41 192) (bin : Arr 1 192)
    (wc : Fin 4 → Arr 192 192) (bc : Fin 4 → Arr 1 192)
    (wp1 : Arr 192 192) (bp1 : Arr 1 192) (wp2 : Arr 192 96) (bp2 : Arr 1 96) (wp3 : Arr 96 2) (bp3 : Arr 1 2)
    (wr1 : Arr 192 96) (br1 : Arr 1 96) (wr2 : Arr 96 1) (br2 : Arr 1 1) : Arr 50000 2 :=
  readout (updateK x1 (asCol dv) (wc 3) (bc 3) (updateK x1 (asCol dv) (wc 2) (bc 2) (updateK x1 (asCol dv) (wc 1) (bc 1)
    (updateK x1 (asCol dv) (wc 0) (bc 0) (inputFeatures x win bin))))) wp1 bp1 wp2 bp2 wp3 bp3 wr1 br1 wr2 br2 eps

def netR (x : Arr 50000 41) (x1 : EdgeWords) (dv : Vec1 50000) (win : Arr 41 192) (bin : Arr 1 192)
    (wc : Fin 4 → Arr 192 192) (bc : Fin 4 → Arr 1 192)
    (wp1 : Arr 192 192) (bp1 : Arr 1 192) (wp2 : Arr 192 96) (bp2 : Arr 1 96) (wp3 : Arr 96 2) (bp3 : Arr 1 2)
    (wr1 : Arr 192 96) (br1 : Arr 1 96) (wr2 : Arr 96 1) (br2 : Arr 1 1) : Arr 50000 2 :=
  readout (updateR x1 dv (wc 3) (bc 3) (updateR x1 dv (wc 2) (bc 2) (updateR x1 dv (wc 1) (bc 1)
    (updateR x1 dv (wc 0) (bc 0) (inputFeatures x win bin))))) wp1 bp1 wp2 bp2 wp3 bp3 wr1 br1 wr2 br2 eps

end Cert.Spec

end
-- ==== Proof.Law.lean ====
/-
  The law that joins the two arrangements of a graph-convolution layer.

  The reference sums, over the real edges AND one self-loop per node, the messages `coef e · m[src e]` with
  `coef e = d (src e) · d (dst e)`.  The kernel sums only over the real edges the messages already scaled by the source's
  factor, `m[src e] · d (src e)`, adds the node's own scaled message `m[r] · d r` densely, and multiplies the total by the
  destination's factor `d r` afterwards.  For a summand whose destination is `r` the factor `d (dst e)` IS `d r`, and the
  self-loop of node `r` contributes `(d r · d r) · m[r]`; so the two totals agree as soon as multiplication by `d r`
  distributes over the sum.  On the extended reals that holds for a NONNEGATIVE REAL factor, whatever the summands are
  (multiplying by such a factor is additive: it preserves the order, and sends both infinities to themselves or to
  zero) — and every `d r` is one: the reciprocal square root of a number that is at least one.
-/
import proofs.«181823_j62440234549671_2_alg».proof.Proof.Spec
import Mathlib.Data.EReal.Operations
import Mathlib.Algebra.BigOperators.Fin

set_option maxRecDepth 16384

noncomputable section

namespace Cert.Spec

open Idealize.ShloMosaic Idealize.ShloMosaic.ValueIdx Cert.Layers

/-! ## Multiplying a sum by a nonnegative real -/

/-- Multiplication by a nonnegative real, as an additive map of the extended reals. -/
def mulByReal (x : EReal) (hx : 0 ≤ x) (hx' : x ≠ ⊤) : EReal →+ EReal where
  toFun y := y * x
  map_zero' := zero_mul x
  map_add' y z := EReal.right_distrib_of_nonneg_of_ne_top hx hx' y z

theorem sum_mul_of_nonneg {ι : Type} (s : Finset ι) (f : ι → EReal) (x : EReal) (hx : 0 ≤ x) (hx' : x ≠ ⊤) :
    (∑ e ∈ s, f e) * x = ∑ e ∈ s, f e * x :=
  map_sum (mulByReal x hx hx') f s

/-! ## Row numbers as 32-bit words -/

/-- A word that is not negative as a signed integer is left alone by the negative-index convention. -/
theorem wrap_of_nonneg (w : BitVec 32) (h : 0 ≤ w.toInt) : wrap w = w := by
  have hs : w.slt 0#32 = false := by
    simp only [BitVec.slt, BitVec.toInt_zero, decide_eq_false_iff_not, not_lt]
    exact h
  unfold wrap Scalar.select IntOp.cmpi
  simp only [hs]
  rfl

/-- A word whose signed value is the row number `p` reads row `p`. -/
theorem rowOf_of_toInt (w : BitVec 32) (p : Fin 50000) (h : w.toInt = (p.val : ℤ)) : rowOf w = p := by
  apply Fin.ext
  show min w.toInt.toNat 49999 = p.val
  rw [h, Int.toNat_natCast]
  have := p.isLt
  omega

theorem rowOf_wrap_of_toInt (w : BitVec 32) (p : Fin 50000) (h : w.toInt = (p.val : ℤ)) : rowOf (wrap w) = p := by
  rw [wrap_of_nonneg w (by rw [h]; exact Int.natCast_nonneg _)]
  exact rowOf_of_toInt w p h

/-- The self-loop word of node `n` is the number `n`. -/
theorem toInt_ofNat_node (n : Nat) (hn : n < 50000) : (BitVec.ofNat 32 n).toInt = (n : ℤ) := by
  have h1 : (BitVec.ofNat 32 n).toNat = n := by
    rw [BitVec.toNat_ofNat]; exact Nat.mod_eq_of_lt (by omega)
  rw [BitVec.toInt_eq_toNat_cond, h1, if_pos (by omega)]

/-! ## The appended self-loops -/

theorem withLoops_edge (f : Fin 800000 → BitVec 32) (e : Fin 800000) :
    withLoops f (Fin.castAdd 50000 e) = f e := by
  unfold withLoops
  rw [dif_pos (show (Fin.castAdd 50000 e).val < 800000 from e.isLt)]
  exact congrArg f (Fin.ext rfl)

theorem withLoops_loop (f : Fin 800000 → BitVec 32) (n : Fin 50000) :
    withLoops f (Fin.natAdd 800000 n) = BitVec.ofNat 32 n.val := by
  unfold withLoops
  rw [dif_neg (show ¬ (Fin.natAdd 800000 n).val < 800000 from by show ¬ (800000 + n.val < 800000); omega)]
  show BitVec.ofNat 32 (800000 + n.val - 800000) = _
  rw [Nat.add_sub_cancel_left]

/-! ## One layer -/

/-- One entry of a layer in the kernel's arrangement, written out. -/
theorem updateK_apply (x1 : EdgeWords) (dv : Vec1 50000) (w : Arr 192 192) (b : Arr 1 192) (h : Arr 50000 192)
    (p : Fin 50000) (q : Fin 192) :
    updateK x1 (asCol dv) w b h (ix2 p q)
      = h (ix2 p q) + max (((∑ e : Fin 800000, if dstK x1 e = (p.val : ℤ)
            then project h w (ix2 (srcK x1 e) q) * dv (ix1 (srcK x1 e)) else 0)
          + project h w (ix2 p q) * dv (ix1 p)) * dv (ix1 p) + b (ix2 (0 : Fin 1) q)) 0 := rfl

/-- One entry of a layer in the reference's arrangement, written out. -/
theorem updateR_apply (x1 : EdgeWords) (dv : Vec1 50000) (w : Arr 192 192) (b : Arr 1 192) (h : Arr 50000 192)
    (p : Fin 50000) (q : Fin 192) :
    updateR x1 dv w b h (ix2 p q)
      = h (ix2 p q) + max ((∑ e : Fin 850000, if dstR x1 e = (p.val : ℤ)
            then coefR x1 dv e * project h w (ix2 (srcR x1 e) q) else 0) + b (ix2 (0 : Fin 1) q)) 0 := rfl

/-- THE LAW: with every node factor a nonnegative real, the kernel's arrangement of a layer is the reference's. -/
theorem updateK_eq_updateR (x1 : EdgeWords) (dv : Vec1 50000) (hd : ∀ i, ∃ r : ℝ, 0 ≤ r ∧ dv i = (r : EReal))
    (w : Arr 192 192) (b : Arr 1 192) (h : Arr 50000 192) :
    updateK x1 (asCol dv) w b h = updateR x1 dv w b h := by
  funext i
  obtain ⟨p, q, rfl⟩ : ∃ (p : Fin 50000) (q : Fin 192), i = ix2 p q := ⟨i 0, i 1, eq_ix2 i⟩
  obtain ⟨r, hr0, hr⟩ := hd (ix1 p)
  have hx : (0 : EReal) ≤ dv (ix1 p) := by rw [hr]; exact_mod_cast hr0
  have hx' : dv (ix1 p) ≠ ⊤ := by rw [hr]; exact EReal.coe_ne_top r
  rw [updateK_apply, updateR_apply]
  -- the projected features, named once
  generalize project h w = P
  refine congrArg (fun z => h (ix2 p q) + max (z + b (ix2 (0 : Fin 1) q)) 0) ?_
  -- the reference's sum: the real edges, then the self-loops
  have hsplit : (∑ e : Fin 850000, if dstR x1 e = (p.val : ℤ) then coefR x1 dv e * P (ix2 (srcR x1 e) q) else 0)
      = (∑ e : Fin 800000, if dstR x1 (Fin.castAdd 50000 e) = (p.val : ℤ)
            then coefR x1 dv (Fin.castAdd 50000 e) * P (ix2 (srcR x1 (Fin.castAdd 50000 e)) q) else 0)
        + ∑ n : Fin 50000, if dstR x1 (Fin.natAdd 800000 n) = (p.val : ℤ)
            then coefR x1 dv (Fin.natAdd 800000 n) * P (ix2 (srcR x1 (Fin.natAdd 800000 n)) q) else 0 :=
    Fin.sum_univ_add (fun e : Fin (800000 + 50000) =>
      if dstR x1 e = (p.val : ℤ) then coefR x1 dv e * P (ix2 (srcR x1 e) q) else 0)
  rw [hsplit, EReal.right_distrib_of_nonneg_of_ne_top hx hx', sum_mul_of_nonneg _ _ _ hx hx']
  refine congrArg₂ (· + ·) ?_ ?_
  · -- a real edge into `p`: its destination's factor is `p`'s
    refine Finset.sum_congr rfl fun e _ => ?_
    have hdst : dstR x1 (Fin.castAdd 50000 e) = dstK x1 e := by
      unfold dstR dstK; rw [withLoops_edge]
    have hsrc : srcR x1 (Fin.castAdd 50000 e) = srcK x1 e := by
      unfold srcR srcK; rw [withLoops_edge]
    rw [hdst, hsrc]
    by_cases hp : dstK x1 e = (p.val : ℤ)
    · rw [if_pos hp, if_pos hp]
      have hrow : dstRowR x1 (Fin.castAdd 50000 e) = p := by
        unfold dstRowR; rw [withLoops_edge]; exact rowOf_wrap_of_toInt _ p hp
      unfold coefR
      rw [hsrc, hrow]
      rw [mul_comm (P (ix2 (srcK x1 e) q)) (dv (ix1 (srcK x1 e))), mul_assoc, mul_comm (P (ix2 (srcK x1 e) q)) (dv (ix1 p)),
        ← mul_assoc]
    · rw [if_neg hp, if_neg hp, zero_mul]
  · -- the self-loops: only node `p`'s lands on `p`
    have hloop : ∀ n : Fin 50000, (if dstR x1 (Fin.natAdd 800000 n) = (p.val : ℤ)
          then coefR x1 dv (Fin.natAdd 800000 n) * P (ix2 (srcR x1 (Fin.natAdd 800000 n)) q) else 0)
        = if n = p then (dv (ix1 p) * dv (ix1 p)) * P (ix2 p q) else 0 := by
      intro n
      have hw : ∀ f : Fin 800000 → BitVec 32, (withLoops f (Fin.natAdd 800000 n)).toInt = (n.val : ℤ) := fun f => by
        rw [withLoops_loop]; exact toInt_ofNat_node n.val n.isLt
      have hdst : dstR x1 (Fin.natAdd 800000 n) = (n.val : ℤ) := hw _
      have hsrc : srcR x1 (Fin.natAdd 800000 n) = n := rowOf_wrap_of_toInt _ n (hw _)
      have hrow : dstRowR x1 (Fin.natAdd 800000 n) = n := rowOf_wrap_of_toInt _ n (hw _)
      rw [hdst]
      by_cases hnp : n = p
      · subst hnp
        rw [if_pos rfl, if_pos rfl]
        unfold coefR
        rw [hsrc, hrow]
      · rw [if_neg hnp, if_neg (fun hh => hnp (Fin.ext (by exact_mod_cast hh)))]
    rw [Finset.sum_congr rfl (fun n _ => hloop n), Finset.sum_ite_eq' Finset.univ p, if_pos (Finset.mem_univ p)]
    rw [mul_assoc, mul_comm]

/-- The whole network: the kernel's arrangement is the reference's. -/
theorem netK_eq_netR (x : Arr 50000 41) (x1 : EdgeWords) (dv : Vec1 50000)
    (hd : ∀ i, ∃ r : ℝ, 0 ≤ r ∧ dv i = (r : EReal)) (win : Arr 41 192) (bin : Arr 1 192)
    (wc : Fin 4 → Arr 192 192) (bc : Fin 4 → Arr 1 192)
    (wp1 : Arr 192 192) (bp1 : Arr 1 192) (wp2 : Arr 192 96) (bp2 : Arr 1 96) (wp3 : Arr 96 2) (bp3 : Arr 1 2)
    (wr1 : Arr 192 96) (br1 : Arr 1 96) (wr2 : Arr 96 1) (br2 : Arr 1 1) :
    netK x x1 dv win bin wc bc wp1 bp1 wp2 bp2 wp3 bp3 wr1 br1 wr2 br2
      = netR x x1 dv win bin wc bc wp1 bp1 wp2 bp2 wp3 bp3 wr1 br1 wr2 br2 := by
  unfold netK netR
  rw [updateK_eq_updateR x1 dv hd, updateK_eq_updateR x1 dv hd, updateK_eq_updateR x1 dv hd, updateK_eq_updateR x1 dv hd]

end Cert.Spec

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«181823_j62440234549671_2_alg».proof.Proof.LibPlainDot
import proofs.«181823_j62440234549671_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.Region0.lean ====
/-
  Region 0, the input projection, as one function of the arrays it finds.

  The region walks the 50000 node rows in 25 bands of 2000.  At band `t` it multiplies rows `2000 t … 2000 t + 1999` of the
  node features by the whole weight matrix, adds the bias row to every row, and writes the band back to the same rows
  of the result.  Each output row depends only on the same row of the features, so band `t` of the result is band `t`
  of `addRow (project x w) b`; the 25 bands tile the result, so the result array ends holding that function.
-/
import proofs.«181823_j62440234549671_2_alg».proof.Proof.Gen.KernelIdeal.Frame
import proofs.«181823_j62440234549671_2_alg».proof.Proof.Spec
import proofs.«181823_j62440234549671_2_alg».proof.Proof.LibKernelDense
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- What the body stores, over any three loaded blocks: the rows times the weights, plus the bias row (rounding the
    operands to a narrower format is the identity on extended reals). -/
theorem out_eq (x0 : Vec Ideal S2000x41 .f32) (x1 : Vec Ideal S41x192 .f32) (x2 : Vec Ideal S1x192 .f32) :
    out0_3 (F := Ideal) x0 x1 x2 = addRow (project x0 x1) x2 := by
  unfold out0_3
  rw [View.canon_unit_zero hz]
  simp only [View.ld_unit_zero (S := S2000x41) hz, View.ld_unit_zero (S := S41x192) hz, View.ld_unit_zero (S := S1x192) hz]
  unfold k0_pay1
  simp only [shapeCast_self]
  exact Cert.Lib.matmul_bias_eq_addRow (M := 2000) (K := 41) (N := 192) dot_S2000x41_S41x192_S2000x192_1_0_0_1_n_n rfl none
    x0 x1 x2 broadcasts_S1x192_S2000x192

/-- The printed index maps over the 25 grid points: the feature and result windows move one band per point, the
    weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem band_le (t : Fin cfg0.N) : 2000 * t.val + 2000 ≤ 50000 := by
  have h : t.val < cfg0.N := t.isLt
  have hN : cfg0.N = 25 := N_0
  omega

/-- The feature window's block at point `t` is band `t` of the feature array. -/
theorem iblk_0 (c : Dev nD) (t : Fin cfg0.N) :
    (iblk0 (F := Ideal) V c 0 t : Vec Ideal S2000x41 .f32)
      = rowsFrom 2000 (2000 * t.val) (band_le t) (V c main_arg0 : Arr 50000 41) := by
  obtain ⟨e0, e1, -⟩ := idx_facts t
  funext j
  show V c main_arg0 (((cfg0.win 0).blk t).view.emb j) = V c main_arg0 _
  refine congrArg (V c main_arg0) ?_
  funext a
  apply Fin.ext
  match a with
  | ⟨0, _⟩ => show win0_0.index t (0 : Fin 2) * 2000 + 1 * (j 0).val = 2000 * t.val + (j 0).val; rw [e0]; omega
  | ⟨1, _⟩ => show win0_0.index t (1 : Fin 2) * 41 + 1 * (j 1).val = (j 1).val; rw [e1]; omega

/-- The weight window's block is the whole weight matrix at every point. -/
theorem iblk_1 (c : Dev nD) (t : Fin cfg0.N) :
    (iblk0 (F := Ideal) V c 1 t : Vec Ideal S41x192 .f32) = (V c main_arg2 : Arr 41 192) := by
  obtain ⟨-, -, e0, e1, -⟩ := idx_facts t
  funext j
  show V c main_arg2 (((cfg0.win 1).blk t).view.emb j) = V c main_arg2 j
  refine congrArg (V c main_arg2) ?_
  funext a
  apply Fin.ext
  match a with
  | ⟨0, _⟩ => show win0_1.index t (0 : Fin 2) * 41 + 1 * (j 0).val = (j 0).val; rw [e0]; omega
  | ⟨1, _⟩ => show win0_1.index t (1 : Fin 2) * 192 + 1 * (j 1).val = (j 1).val; rw [e1]; omega

/-- The bias window's block is the whole bias row at every point. -/
theorem iblk_2 (c : Dev nD) (t : Fin cfg0.N) :
    (iblk0 (F := Ideal) V c 2 t : Vec Ideal S1x192 .f32) = (V c main_v15 : Arr 1 192) := by
  obtain ⟨-, -, -, -, e0, e1, -⟩ := idx_facts t
  funext j
  show V c main_v15 (((cfg0.win 2).blk t).view.emb j) = V c main_v15 j
  refine congrArg (V c main_v15) ?_
  funext a
  apply Fin.ext
  match a with
  | ⟨0, _⟩ => show win0_2.index t (0 : Fin 2) * 1 + 1 * (j 0).val = (j 0).val; rw [e0]; omega
  | ⟨1, _⟩ => show win0_2.index t (1 : Fin 2) * 192 + 1 * (j 1).val = (j 1).val; rw [e1]; omega

/-- WHAT POINT `t` WRITES BACK is block `t` of the projection of the whole arrays. -/
theorem flushed_eq (c : Dev nD) (t : Fin cfg0.N) :
    (dat0 (F := Ideal) V c).flushed 3 t
      = ((cfg0.win 3).blk t).view.read (Elt Ideal)
          (addRow (project (V c main_arg0 : Arr 50000 41) (V c main_arg2 : Arr 41 192)) (V c main_v15 : Arr 1 192)) := by
  show (cfg0.win 3).cut (grid0.coords t) ((dat0 V c).after 3 t) = _
  rw [after0_3, out_eq (iblk0 V c 0 t) (iblk0 V c 1 t) (iblk0 V c 2 t), iblk_0 V c t, iblk_1 V c t, iblk_2 V c t,
    project_rows, addRow_rows]
  obtain ⟨-, -, -, -, -, -, e0, e1⟩ := idx_facts t
  funext j
  show rowsFrom 2000 (2000 * t.val) (band_le t) (addRow (project (V c main_arg0 : Arr 50000 41) (V c main_arg2 : Arr 41 192)) (V c main_v15 : Arr 1 192)) j
    = addRow (project (V c main_arg0 : Arr 50000 41) (V c main_arg2 : Arr 41 192)) (V c main_v15 : Arr 1 192) (((cfg0.win 3).blk t).view.emb j)
  unfold rowsFrom
  refine congrArg (addRow (project (V c main_arg0 : Arr 50000 41) (V c main_arg2 : Arr 41 192)) (V c main_v15 : Arr 1 192)) ?_
  funext a
  apply Fin.ext
  match a with
  | ⟨0, _⟩ => show 2000 * t.val + (j 0).val = win0_3.index t (0 : Fin 2) * 2000 + 1 * (j 0).val; rw [e0]; omega
  | ⟨1, _⟩ => show (j 1).val = win0_3.index t (1 : Fin 2) * 192 + 1 * (j 1).val; rw [e1]; omega

/-- An index of the result array is in point `t`'s block iff each coordinate is in the block's range on its axis. -/
theorem mem_blk (t : Fin cfg0.N) (i : S50000x192.Idx) :
    i ∈ ((cfg0.win 3).blk t).view.set ↔ ∀ a : Fin 2, win0_3.index t a * S2000x192.size a ≤ (i a).val
      ∧ (i a).val < win0_3.index t a * S2000x192.size a + S2000x192.size a := by
  show i ∈ ((View.whole main_v16).slice (win0_3.rect t)).set ↔ _
  rw [View.set_slice_whole, Rect.mem_set_unit]
  exact Iff.rfl

/-- Row `r` of the result is written by the point `r / 2000`: the 25 bands tile the array. -/
theorem covered (i : S50000x192.Idx) :
    ∃ t : Fin cfg0.N, (cfg0.win 3).flush t = true ∧ i ∈ ((cfg0.win 3).blk t).view.set := by
  have hi0 : (i 0).val < 50000 := (i 0).isLt
  have hi1 : (i 1).val < 192 := (i 1).isLt
  have hN : cfg0.N = 25 := N_0
  have ht : (i 0).val / 2000 < cfg0.N := by rw [hN]; omega
  obtain ⟨-, -, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 192 ≤ (i 1).val
      ∧ (i 1).val < win0_3.index ⟨(i 0).val / 2000, ht⟩ (1 : Fin 2) * 192 + 192
    rw [e1]; omega

/-- THE RESULT ARRAY after the region: the features times the weights plus the bias row, whatever it held before. -/
theorem final3 (c : Dev nD) :
    (dat0 (F := Ideal) V c).arrAt 3 cfg0.N
      = addRow (project (V c main_arg0 : Arr 50000 41) (V c main_arg2 : Arr 41 192)) (V c main_v15 : Arr 1 192) :=
  (dat0 V c).arrAt_eq_of_cover 3 _ (fun t _ => flushed_eq V c t) covered

end Cert.KernelIdeal.Region0

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region1.lean ====
/-
  Region 1, the first layer's messages, as one function of the arrays it finds.

  The region walks the 50000 node rows in 25 bands of 2000.  At band `t` it multiplies rows `2000 t … 2000 t + 1999` of
  the node features by the whole weight matrix and then multiplies each row by that node's own factor, the entry of the
  same row of the one-column factor array.  Each output row depends only on the same row of the features and of the
  factors, so band `t` of the result is band `t` of `scaleRows (project h w) d`; the 25 bands tile the result, so the
  result array ends holding that function.
-/
import proofs.«181823_j62440234549671_2_alg».proof.Proof.Gen.KernelIdeal.Frame
import proofs.«181823_j62440234549671_2_alg».proof.Proof.Spec
import proofs.«181823_j62440234549671_2_alg».proof.Proof.LibPlainDot
import proofs.«181823_j62440234549671_2_alg».proof.Proof.LibKeepdims
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- A matrix product into the zero accumulator, multiplied entrywise by a one-column array broadcast over the lanes, is
    the projection with each row scaled by that row's factor: entry `(p, q)` is `(∑ k, x (p, k) · w (k, q)) · s (p, 0)`. -/
theorem matmul_scale_eq_scaleRows {M K N : Nat} {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (s : FVec Ideal ⟨2, ![M, 1]⟩ .f32)
    (hs : (⟨2, ![M, 1]⟩ : Shape).Broadcasts ⟨2, ![M, N]⟩) :
    mulf (matmul d prec x w (constant ⟨2, ![M, N]⟩ .f32 0x00000000#32)) (broadcastTo ⟨2, ![M, N]⟩ s hs)
      = scaleRows (project x w) s := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      * broadcastTo ⟨2, ![M, N]⟩ s hs (ix2 p q) = (∑ k : Fin K, x (ix2 p k) * w (ix2 k q)) * s (ix2 p (0 : Fin 1))
  rw [Cert.Lib.matmul_plain_zero_apply prec x w p q, Cert.LibKeepdims.broadcastTo_a1_ab_apply s hs p q]

/-- What the body stores, over any three loaded blocks: the rows times the weights, each row scaled by its factor
    (rounding to a narrower format is the identity on extended reals). -/
theorem out_eq (x0 : Vec Ideal S2000x192 .f32) (x1 : Vec Ideal S192x192 .f32) (x2 : Vec Ideal S2000x1 .f32) :
    out1_3 (F := Ideal) x0 x1 x2 = scaleRows (project x0 x1) x2 := by
  unfold out1_3
  rw [View.canon_unit_zero hz]
  simp only [View.ld_unit_zero (S := S2000x192) hz, View.ld_unit_zero (S := S192x192) hz, View.ld_unit_zero (S := S2000x1) hz]
  unfold k1_pay1
  simp only [shapeCast_self]
  exact matmul_scale_eq_scaleRows (M := 2000) (K := 192) (N := 192) dot_S2000x192_S192x192_S2000x192_1_0_0_1_n_n rfl none
    x0 x1 x2 broadcasts_S2000x1_S2000x192

/-- The printed index maps over the 25 grid points: the feature, factor and result windows move one band per point,
    the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem band_le (t : Fin cfg1.N) : 2000 * t.val + 2000 ≤ 50000 := by
  have h : t.val < cfg1.N := t.isLt
  have hN : cfg1.N = 25 := N_1
  omega

/-- The feature window's block at point `t` is band `t` of the feature array. -/
theorem iblk_0 (c : Dev nD) (t : Fin cfg1.N) :
    (iblk1 (F := Ideal) V c 0 t : Vec Ideal S2000x192 .f32)
      = rowsFrom 2000 (2000 * t.val) (band_le t) (V c main_v16 : Arr 50000 192) := by
  obtain ⟨e0, e1, -⟩ := idx_facts t
  funext j
  show V c main_v16 (((cfg1.win 0).blk t).view.emb j) = V c main_v16 _
  refine congrArg (V c main_v16) ?_
  funext a
  apply Fin.ext
  match a with
  | ⟨0, _⟩ => show win1_0.index t (0 : Fin 2) * 2000 + 1 * (j 0).val = 2000 * t.val + (j 0).val; rw [e0]; omega
  | ⟨1, _⟩ => show win1_0.index t (1 : Fin 2) * 192 + 1 * (j 1).val = (j 1).val; rw [e1]; omega

/-- The weight window's block is the whole weight matrix at every point. -/
theorem iblk_1 (c : Dev nD) (t : Fin cfg1.N) :
    (iblk1 (F := Ideal) V c 1 t : Vec Ideal S192x192 .f32) = (V c main_v18 : Arr 192 192) := by
  obtain ⟨-, -, e0, e1, -⟩ := idx_facts t
  funext j
  show V c main_v18 (((cfg1.win 1).blk t).view.emb j) = V c main_v18 j
  refine congrArg (V c main_v18) ?_
  funext a
  apply Fin.ext
  match a with
  | ⟨0, _⟩ => show win1_1.index t (0 : Fin 2) * 192 + 1 * (j 0).val = (j 0).val; rw [e0]; omega
  | ⟨1, _⟩ => show win1_1.index t (1 : Fin 2) * 192 + 1 * (j 1).val = (j 1).val; rw [e1]; omega

/-- The factor window's block at point `t` is band `t` of the one-column factor array. -/
theorem iblk_2 (c : Dev nD) (t : Fin cfg1.N) :
    (iblk1 (F := Ideal) V c 2 t : Vec Ideal S2000x1 .f32)
      = rowsFrom 2000 (2000 * t.val) (band_le t) (V c main_v14 : Arr 50000 1) := by
  obtain ⟨-, -, -, -, e0, e1, -⟩ := idx_facts t
  funext j
  show V c main_v14 (((cfg1.win 2).blk t).view.emb j) = V c main_v14 _
  refine congrArg (V c main_v14) ?_
  funext a
  apply Fin.ext
  match a with
  | ⟨0, _⟩ => show win1_2.index t (0 : Fin 2) * 2000 + 1 * (j 0).val = 2000 * t.val + (j 0).val; rw [e0]; omega
  | ⟨1, _⟩ => show win1_2.index t (1 : Fin 2) * 1 + 1 * (j 1).val = (j 1).val; rw [e1]; omega

/-- WHAT POINT `t` WRITES BACK is block `t` of the scaled projection of the whole arrays. -/
theorem flushed_eq (c : Dev nD) (t : Fin cfg1.N) :
    (dat1 (F := Ideal) V c).flushed 3 t
      = ((cfg1.win 3).blk t).view.read (Elt Ideal)
          (scaleRows (project (V c main_v16 : Arr 50000 192) (V c main_v18 : Arr 192 192)) (V c main_v14 : Arr 50000 1)) := by
  show (cfg1.win 3).cut (grid1.coords t) ((dat1 V c).after 3 t) = _
  rw [after1_3, out_eq (iblk1 V c 0 t) (iblk1 V c 1 t) (iblk1 V c 2 t), iblk_0 V c t, iblk_1 V c t, iblk_2 V c t,
    project_rows, scaleRows_rows]
  obtain ⟨-, -, -, -, -, -, e0, e1⟩ := idx_facts t
  funext j
  show rowsFrom 2000 (2000 * t.val) (band_le t) (scaleRows (project (V c main_v16 : Arr 50000 192) (V c main_v18 : Arr 192 192)) (V c main_v14 : Arr 50000 1)) j
    = scaleRows (project (V c main_v16 : Arr 50000 192) (V c main_v18 : Arr 192 192)) (V c main_v14 : Arr 50000 1) (((cfg1.win 3).blk t).view.emb j)
  unfold rowsFrom
  refine congrArg (scaleRows (project (V c main_v16 : Arr 50000 192) (V c main_v18 : Arr 192 192)) (V c main_v14 : Arr 50000 1)) ?_
  funext a
  apply Fin.ext
  match a with
  | ⟨0, _⟩ => show 2000 * t.val + (j 0).val = win1_3.index t (0 : Fin 2) * 2000 + 1 * (j 0).val; rw [e0]; omega
  | ⟨1, _⟩ => show (j 1).val = win1_3.index t (1 : Fin 2) * 192 + 1 * (j 1).val; rw [e1]; omega

/-- An index of the result array is in point `t`'s block iff each coordinate is in the block's range on its axis. -/
theorem mem_blk (t : Fin cfg1.N) (i : S50000x192.Idx) :
    i ∈ ((cfg1.win 3).blk t).view.set ↔ ∀ a : Fin 2, win1_3.index t a * S2000x192.size a ≤ (i a).val
      ∧ (i a).val < win1_3.index t a * S2000x192.size a + S2000x192.size a := by
  show i ∈ ((View.whole main_v19).slice (win1_3.rect t)).set ↔ _
  rw [View.set_slice_whole, Rect.mem_set_unit]
  exact Iff.rfl

/-- Row `r` of the result is written by the point `r / 2000`: the 25 bands tile the array. -/
theorem covered (i : S50000x192.Idx) :
    ∃ t : Fin cfg1.N, (cfg1.win 3).flush t = true ∧ i ∈ ((cfg1.win 3).blk t).view.set := by
  have hi0 : (i 0).val < 50000 := (i 0).isLt
  have hi1 : (i 1).val < 192 := (i 1).isLt
  have hN : cfg1.N = 25 := N_1
  have ht : (i 0).val / 2000 < cfg1.N := by rw [hN]; omega
  obtain ⟨-, -, -, -, -, -, e0, e1⟩ := idx_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 192 ≤ (i 1).val
      ∧ (i 1).val < win1_3.index ⟨(i 0).val / 2000, ht⟩ (1 : Fin 2) * 192 + 192
    rw [e1]; omega

/-- THE RESULT ARRAY after the region: the features times the weights, each row scaled by its node's factor, whatever
    it held before. -/
theorem final3 (c : Dev nD) :
    (dat1 (F := Ideal) V c).arrAt 3 cfg1.N
      = scaleRows (project (V c main_v16 : Arr 50000 192) (V c main_v18 : Arr 192 192)) (V c main_v14 : Arr 50000 1) :=
  (dat1 V c).arrAt_eq_of_cover 3 _ (fun t _ => flushed_eq V c t) covered

end Cert.KernelIdeal.Region1

end
-- ==== Proof.Region2.lean ====
/-
  Region 2, the first layer's update fused with the second layer's messages, as two functions of the arrays it finds.

  The region walks the 50000 node rows in 25 bands of 2000.  At band `t` it takes rows `2000 t … 2000 t + 1999` of the
  aggregated neighbour messages, of the nodes' own messages, of the one-column factor array and of the features, and the
  whole bias row and the whole weight matrix of the next layer.  It first forms the updated features
  `h + max ((agg + ms) · d + b) 0` and writes that band to the first result; it then multiplies the updated band by the
  next layer's weights, scales each row by the node's factor and writes that band to the second result.  Each output
  row depends only on the same row of the row-wise operands, so band `t` of the first result is band `t` of
  `residual agg ms d b h`, and band `t` of the second is band `t` of `scaleRows (project (residual agg ms d b h) w) d`;
  the 25 bands tile each result, so each result array ends holding its function.
-/
import proofs.«181823_j62440234549671_2_alg».proof.Proof.Gen.KernelIdeal.Frame
import proofs.«181823_j62440234549671_2_alg».proof.Proof.Spec
import proofs.«181823_j62440234549671_2_alg».proof.Proof.LibPlainDot
import proofs.«181823_j62440234549671_2_alg».proof.Proof.LibKeepdims
import Idealize.ShloMosaic.Lib.ValueLayout
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- The entrywise operations of one residual update — the two message arrays added, multiplied by a one-column array
    broadcast over the lanes, a bias row broadcast over the rows added, the clamp at a splat zero, the features added —
    are `residual`: entry `(p, q)` is `h (p, q) + max ((a (p, q) + ms (p, q)) · s (p, 0) + b (0, q)) 0`. -/
theorem residual_ops {M N : Nat} (a ms h : FVec Ideal ⟨2, ![M, N]⟩ .f32) (s : FVec Ideal ⟨2, ![M, 1]⟩ .f32)
    (b : FVec Ideal ⟨2, ![1, N]⟩ .f32) (hs : (⟨2, ![M, 1]⟩ : Shape).Broadcasts ⟨2, ![M, N]⟩)
    (hb : (⟨2, ![1, N]⟩ : Shape).Broadcasts ⟨2, ![M, N]⟩) :
    addf h (maximumf (addf (mulf (addf a ms) (broadcastTo ⟨2, ![M, N]⟩ s hs)) (broadcastTo ⟨2, ![M, N]⟩ b hb))
        (broadcast ⟨2, ![M, N]⟩ (Scalar.ofBits (F := Ideal) .f32 0x00000000#32)))
      = residual a ms s b h := by
  funext i
  obtain ⟨p, q, rfl⟩ : ∃ (p : Fin M) (q : Fin N), i = ix2 p q := ⟨i 0, i 1, eq_ix2 i⟩
  show h (ix2 p q) + max ((a (ix2 p q) + ms (ix2 p q)) * broadcastTo ⟨2, ![M, N]⟩ s hs (ix2 p q)
        + broadcastTo ⟨2, ![M, N]⟩ b hb (ix2 p q)) (Ideal.ofBits .f32 0x00000000#32)
      = h (ix2 p q) + max ((a (ix2 p q) + ms (ix2 p q)) * s (ix2 p (0 : Fin 1)) + b (ix2 (0 : Fin 1) q)) 0
  rw [Cert.LibKeepdims.broadcastTo_a1_ab_apply s hs p q, broadcastTo_1b_ab_apply b hb p q, Ideal.ofBits_zero_f32]

/-- A matrix product into the zero accumulator, multiplied entrywise by a one-column array broadcast over the lanes, is
    the projection with each row scaled by that row's factor: entry `(p, q)` is `(∑ k, x (p, k) · w (k, q)) · s (p, 0)`. -/
theorem matmul_scale_eq_scaleRows {M K N : Nat} {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (s : FVec Ideal ⟨2, ![M, 1]⟩ .f32)
    (hs : (⟨2, ![M, 1]⟩ : Shape).Broadcasts ⟨2, ![M, N]⟩) :
    mulf (matmul d prec x w (constant ⟨2, ![M, N]⟩ .f32 0x00000000#32)) (broadcastTo ⟨2, ![M, N]⟩ s hs)
      = scaleRows (project x w) s := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      * broadcastTo ⟨2, ![M, N]⟩ s hs (ix2 p q) = (∑ k : Fin K, x (ix2 p k) * w (ix2 k q)) * s (ix2 p (0 : Fin 1))
  rw [Cert.Lib.matmul_plain_zero_apply prec x w p q, Cert.LibKeepdims.broadcastTo_a1_ab_apply s hs p q]

/-- The first stored value, over any loaded blocks: the residual update of the band (widening the own messages to the
    wider format is the identity on extended reals). -/
theorem pay1_eq (x0 : Vec Ideal S2000x192 .f32) (x1 : Vec Ideal S2000x192 .bf16) (x2 : Vec Ideal S2000x1 .f32)
    (x3 : Vec Ideal S1x192 .f32) (x4 : Vec Ideal S2000x192 .f32) :
    k2_pay1 (F := Ideal) x0 x1 x2 x3 x4 = residual x0 x1 x2 x3 x4 := by
  unfold k2_pay1
  simp only [shapeCast_self]
  exact residual_ops (M := 2000) (N := 192) x0 (extf .f32 x1 bitsLt_bf16_f32) x4 x2 x3 broadcasts_S2000x1_S2000x192
    broadcasts_S1x192_S2000x192

/-- The second stored value: the updated band times the next weights, each row scaled by its factor (rounding to a
    narrower format is the identity on extended reals). -/
theorem pay2_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32)
    (x6 : Vec Ideal S2000x1 .f32) :
    k2_pay2 (F := Ideal) x0 x1 x2 x3 x4 x5 x6 = scaleRows (project (residual x0 x1 x2 x3 x4) x5) x6 := by
  unfold k2_pay2
  rw [pay1_eq x0 x1 x2 x3 x4]
  simp only [shapeCast_self]
  exact matmul_scale_eq_scaleRows (M := 2000) (K := 192) (N := 192) dot_S2000x192_S192x192_S2000x192_1_0_0_1_n_n rfl none
    (truncf .bf16 (residual x0 x1 x2 x3 x4 : FVec Ideal S2000x192 .f32) bitsLt_bf16_f32)
    (truncf .bf16 (x5 : FVec Ideal S192x192 .f32) bitsLt_bf16_f32) x6 broadcasts_S2000x1_S2000x192

/-- What the body leaves in the first result's buffer, over any loaded blocks. -/
theorem out6_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32) :
    out2_6 (F := Ideal) x0 x1 x2 x3 x4 x5 = residual x0 x1 x2 x3 x4 := by
  unfold out2_6
  rw [View.canon_unit_zero hz]
  simp only [View.ld_unit_zero (S := S2000x192) hz, View.ld_unit_zero (S := S2000x1) hz, View.ld_unit_zero (S := S1x192) hz]
  exact pay1_eq x0 x1 x2 x3 x4

/-- What the body leaves in the second result's buffer, over any loaded blocks. -/
theorem out7_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32) :
    out2_7 (F := Ideal) x0 x1 x2 x3 x4 x5 = scaleRows (project (residual x0 x1 x2 x3 x4) x5) x2 := by
  unfold out2_7
  rw [View.canon_unit_zero hz]
  simp only [View.ld_unit_zero (S := S2000x192) hz, View.ld_unit_zero (S := S2000x1) hz, View.ld_unit_zero (S := S1x192) hz,
    View.ld_unit_zero (S := S192x192) hz]
  exact pay2_eq x0 x1 x2 x3 x4 x5 x2

/-- The printed index maps over the 25 grid points: the row-wise windows and both results move one band per point, the
    bias row and the weights stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem band_le (t : Fin cfg2.N) : 2000 * t.val + 2000 ≤ 50000 := by
  have h : t.val < cfg2.N := t.isLt
  have hN : cfg2.N = 25 := N_2
  omega

/-- The aggregated-message window's block at point `t` is band `t` of its array. -/
theorem iblk_0 (c : Dev nD) (t : Fin cfg2.N) :
    (iblk2 (F := Ideal) V c 0 t : Vec Ideal S2000x192 .f32)
      = rowsFrom 2000 (2000 * t.val) (band_le t) (V c main_v30 : Arr 50000 192) := by
  obtain ⟨e0, e1, -⟩ := idx_facts t
  funext j
  show V c main_v30 (((cfg2.win 0).blk t).view.emb j) = V c main_v30 _
  refine congrArg (V c main_v30) ?_
  funext a
  apply Fin.ext
  match a with
  | ⟨0, _⟩ => show win2_0.index t (0 : Fin 2) * 2000 + 1 * (j 0).val = 2000 * t.val + (j 0).val; rw [e0]; omega
  | ⟨1, _⟩ => show win2_0.index t (1 : Fin 2) * 192 + 1 * (j 1).val = (j 1).val; rw [e1]; omega

/-- The own-message window's block at point `t` is band `t` of its array. -/
theorem iblk_1 (c : Dev nD) (t : Fin cfg2.N) :
    (iblk2 (F := Ideal) V c 1 t : Vec Ideal S2000x192 .bf16)
      = rowsFrom 2000 (2000 * t.val) (band_le t) (V c main_v19 : Arr 50000 192) := by
  obtain ⟨-, -, e0, e1, -⟩ := idx_facts t
  funext j
  show V c main_v19 (((cfg2.win 1).blk t).view.emb j) = V c main_v19 _
  refine congrArg (V c main_v19) ?_
  funext a
  apply Fin.ext
  match a with
  | ⟨0, _⟩ => show win2_1.index t (0 : Fin 2) * 2000 + 1 * (j 0).val = 2000 * t.val + (j 0).val; rw [e0]; omega
  | ⟨1, _⟩ => show win2_1.index t (1 : Fin 2) * 192 + 1 * (j 1).val = (j 1).val; rw [e1]; omega

/-- The factor window's block at point `t` is band `t` of its array. -/
theorem iblk_2 (c : Dev nD) (t : Fin cfg2.N) :
    (iblk2 (F := Ideal) V c 2 t : Vec Ideal S2000x1 .f32)
      = rowsFrom 2000 (2000 * t.val) (band_le t) (V c main_v14 : Arr 50000 1) := by
  obtain ⟨-, -, -, -, e0, e1, -⟩ := idx_facts t
  funext j
  show V c main_v14 (((cfg2.win 2).blk t).view.emb j) = V c main_v14 _
  refine congrArg (V c main_v14) ?_
  funext a
  apply Fin.ext
  match a with
  | ⟨0, _⟩ => show win2_2.index t (0 : Fin 2) * 2000 + 1 * (j 0).val = 2000 * t.val + (j 0).val; rw [e0]; omega
  | ⟨1, _⟩ => show win2_2.index t (1 : Fin 2) * 1 + 1 * (j 1).val = (j 1).val; rw [e1]; omega

/-- The bias window's block is the whole bias array at every point. -/
theorem iblk_3 (c : Dev nD) (t : Fin cfg2.N) :
    (iblk2 (F := Ideal) V c 3 t : Vec Ideal S1x192 .f32) = (V c main_v35 : Arr 1 192) := by
  obtain ⟨-, -, -, -, -, -, e0, e1, -⟩ := idx_facts t
  funext j
  show V c main_v35 (((cfg2.win 3).blk t).view.emb j) = V c main_v35 j
  refine congrArg (V c main_v35) ?_
  funext a
  apply Fin.ext
  match a with
  | ⟨0, _⟩ => show win2_3.index t (0 : Fin 2) * 1 + 1 * (j 0).val = (j 0).val; rw [e0]; omega
  | ⟨1, _⟩ => show win2_3.index t (1 : Fin 2) * 192 + 1 * (j 1).val = (j 1).val; rw [e1]; omega

/-- The feature window's block at point `t` is band `t` of its array. -/
theorem iblk_4 (c : Dev nD) (t : Fin cfg2.N) :
    (iblk2 (F := Ideal) V c 4 t : Vec Ideal S2000x192 .f32)
      = rowsFrom 2000 (2000 * t.val) (band_le t) (V c main_v16 : Arr 50000 192) := by
  obtain ⟨-, -, -, -, -, -, -, -, e0, e1, -⟩ := idx_facts t
  funext j
  show V c main_v16 (((cfg2.win 4).blk t).view.emb j) = V c main_v16 _
  refine congrArg (V c main_v16) ?_
  funext a
  apply Fin.ext
  match a with
  | ⟨0, _⟩ => show win2_4.index t (0 : Fin 2) * 2000 + 1 * (j 0).val = 2000 * t.val + (j 0).val; rw [e0]; omega
  | ⟨1, _⟩ => show win2_4.index t (1 : Fin 2) * 192 + 1 * (j 1).val = (j 1).val; rw [e1]; omega

/-- The weight window's block is the whole weight array at every point. -/
theorem iblk_5 (c : Dev nD) (t : Fin cfg2.N) :
    (iblk2 (F := Ideal) V c 5 t : Vec Ideal S192x192 .f32) = (V c main_v34 : Arr 192 192) := by
  obtain ⟨-, -, -, -, -, -, -, -, -, -, e0, e1, -⟩ := idx_facts t
  funext j
  show V c main_v34 (((cfg2.win 5).blk t).view.emb j) = V c main_v34 j
  refine congrArg (V c main_v34) ?_
  funext a
  apply Fin.ext
  match a with
  | ⟨0, _⟩ => show win2_5.index t (0 : Fin 2) * 192 + 1 * (j 0).val = (j 0).val; rw [e0]; omega
  | ⟨1, _⟩ => show win2_5.index t (1 : Fin 2) * 192 + 1 * (j 1).val = (j 1).val; rw [e1]; omega

/-- WHAT POINT `t` WRITES BACK to the first result is block `t` of that function of the whole arrays. -/
theorem flushed6_eq (c : Dev nD) (t : Fin cfg2.N) :
    (dat2 (F := Ideal) V c).flushed 6 t
      = ((cfg2.win 6).blk t).view.read (Elt Ideal)
          (residual (V c main_v30 : Arr 50000 192) (V c main_v19 : Arr 50000 192) (V c main_v14 : Arr 50000 1) (V c main_v35 : Arr 1 192) (V c main_v16 : Arr 50000 192)) := by
  show (cfg2.win 6).cut (grid2.coords t) ((dat2 V c).after 6 t) = _
  rw [after2_6, out6_eq (iblk2 V c 0 t) (iblk2 V c 1 t) (iblk2 V c 2 t) (iblk2 V c 3 t) (iblk2 V c 4 t) (iblk2 V c 5 t),
    iblk_0 V c t, iblk_1 V c t, iblk_2 V c t, iblk_3 V c t, iblk_4 V c t,
    residual_rows]
  obtain ⟨-, -, -, -, -, -, -, -, -, -, -, -, e0, e1, -⟩ := idx_facts t
  funext j
  show rowsFrom 2000 (2000 * t.val) (band_le t) (residual (V c main_v30 : Arr 50000 192) (V c main_v19 : Arr 50000 192) (V c main_v14 : Arr 50000 1) (V c main_v35 : Arr 1 192) (V c main_v16 : Arr 50000 192)) j
    = (residual (V c main_v30 : Arr 50000 192) (V c main_v19 : Arr 50000 192) (V c main_v14 : Arr 50000 1) (V c main_v35 : Arr 1 192) (V c main_v16 : Arr 50000 192)) (((cfg2.win 6).blk t).view.emb j)
  unfold rowsFrom
  refine congrArg (residual (V c main_v30 : Arr 50000 192) (V c main_v19 : Arr 50000 192) (V c main_v14 : Arr 50000 1) (V c main_v35 : Arr 1 192) (V c main_v16 : Arr 50000 192)) ?_
  funext a
  apply Fin.ext
  match a with
  | ⟨0, _⟩ => show 2000 * t.val + (j 0).val = win2_6.index t (0 : Fin 2) * 2000 + 1 * (j 0).val; rw [e0]; omega
  | ⟨1, _⟩ => show (j 1).val = win2_6.index t (1 : Fin 2) * 192 + 1 * (j 1).val; rw [e1]; omega

/-- An index of the first result is in point `t`'s block iff each coordinate is in the block's range on its axis. -/
theorem mem_blk6 (t : Fin cfg2.N) (i : S50000x192.Idx) :
    i ∈ ((cfg2.win 6).blk t).view.set ↔ ∀ a : Fin 2, win2_6.index t a * S2000x192.size a ≤ (i a).val
      ∧ (i a).val < win2_6.index t a * S2000x192.size a + S2000x192.size a := by
  show i ∈ ((View.whole main_v36_0).slice (win2_6.rect t)).set ↔ _
  rw [View.set_slice_whole, Rect.mem_set_unit]
  exact Iff.rfl

/-- Row `r` of the first result is written by the point `r / 2000`: the 25 bands tile the array. -/
theorem covered6 (i : S50000x192.Idx) :
    ∃ t : Fin cfg2.N, (cfg2.win 6).flush t = true ∧ i ∈ ((cfg2.win 6).blk t).view.set := by
  have hi0 : (i 0).val < 50000 := (i 0).isLt
  have hi1 : (i 1).val < 192 := (i 1).isLt
  have hN : cfg2.N = 25 := N_2
  have ht : (i 0).val / 2000 < cfg2.N := by rw [hN]; omega
  obtain ⟨-, -, -, -, -, -, -, -, -, -, -, -, e0, e1, -⟩ := idx_facts ⟨(i 0).val / 2000, ht⟩
  refine ⟨⟨(i 0).val / 2000, ht⟩, flush2_6 _, ?_⟩
  rw [mem_blk6]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 192 ≤ (i 1).val
      ∧ (i 1).val < win2_6.index ⟨(i 0).val / 2000, ht⟩ (1 : Fin 2) * 192 + 192
    rw [e1]; omega

/-- WHAT POINT `t` WRITES BACK to the second result is block `t` of that function of the whole arrays. -/
theorem flushed7_eq (c : Dev nD) (t : Fin cfg2.N) :
    (dat2 (F := Ideal) V c).flushed 7 t
      = ((cfg2.win 7).blk t).view.read (Elt Ideal)
          (scaleRows (project (residual (V c main_v30 : Arr 50000 192) (V c main_v19 : Arr 50000 192) (V c main_v14 : Arr 50000 1) (V c main_v35 : Arr 1 192) (V c main_v16 : Arr 50000 192)) (V c main_v34 : Arr 192 192)) (V c main_v14 : Arr 50000 1)) := by
  show (cfg2.win 7).cut (grid2.coords t) ((dat2 V c).after 7 t) = _
  rw [after2_7, out7_eq (iblk2 V c 0 t) (iblk2 V c 1 t) (iblk2 V c 2 t) (iblk2 V c 3 t) (iblk2 V c 4 t) (iblk2 V c 5 t),
    iblk_0 V c t, iblk_1 V c t, iblk_2 V c t, iblk_3 V c t, iblk_4 V c t, iblk_5 V c t,
    residual_rows, project_rows, scaleRows_rows]
  obtain ⟨-, -, -, -, -, -, -, -, -, -, -, -, -, -, e0, e1⟩ := idx_facts t
  funext j
  show rowsFrom 2000 (2000 * t.val) (band_le t) (scaleRows (project (residual (V c main_v30 : Arr 50000 192) (V c main_v19 : Arr 50000 192) (V c main_v14 : Arr 50000 1) (V c main_v35 : Arr 1 192) (V c main_v16 : Arr 50000 192)) (V c main_v34 : Arr 192 192)) (V c main_v14 : Arr 50000 1)) j
    = (scaleRows (project (residual (V c main_v30 : Arr 50000 192) (V c main_v19 : Arr 50000 192) (V c main_v14 : Arr 50000 1) (V c main_v35 : Arr 1 192) (V c main_v16 : Arr 50000 192)) (V c main_v34 : Arr 192 192)) (V c main_v14 : Arr 50000 1)) (((cfg2.win 7).blk t).view.emb j)
  unfold rowsFrom
  refine congrArg (scaleRows (project (residual (V c main_v30 : Arr 50000 192) (V c main_v19 : Arr 50000 192) (V c main_v14 : Arr 50000 1) (V c main_v35 : Arr 1 192) (V c main_v16 : Arr 50000 192)) (V c main_v34 : Arr 192 192)) (V c main_v14 : Arr 50000 1)) ?_
  funext a
  apply Fin.ext
  match a with
  | ⟨0, _⟩ => show 2000 * t.val + (j 0).val = win2_7.index t (0 : Fin 2) * 2000 + 1 * (j 0).val; rw [e0]; omega
  | ⟨1, _⟩ => show (j 1).val = win2_7.index t (1 : Fin 2) * 192 + 1 * (j 1).val; rw [e1]; omega

/-- An index of the second result is in point `t`'s block iff each coordinate is in the block's range on its axis. -/
theorem mem_blk7 (t : Fin cfg2.N) (i : S50000x192.Idx) :
    i ∈ ((cfg2.win 7).blk t).view.set ↔ ∀ a : Fin 2, win2_7.index t a * S2000x192.size a ≤ (i a).val
      ∧ (i a).val < win2_7.index t a * S2000x192.size a + S2000x192.size a := by
  show i ∈ ((View.whole main_v36_1).slice (win2_7.rect t)).set ↔ _
  rw [View.set_slice_whole, Rect.mem_set_unit]
  exact Iff.rfl

/-- Row `r` of the second result is written by the point `r / 2000`: the 25 bands tile the array. -/
theorem covered7 (i : S50000x192.Idx) :
    ∃ t : Fin cfg2.N, (cfg2.win 7).flush t = true ∧ i ∈ ((cfg2.win 7).blk t).view.set := by
  have hi0 : (i 0).val < 50000 := (i 0).isLt
  have hi1 : (i 1).val < 192 := (i 1).isLt
  have hN : cfg2.N = 25 := N_2
  have ht : (i 0).val / 2000 < cfg2.N := by rw [hN]; omega
  obtain ⟨-, -, -, -, -, -, -, -, -, -, -, -, -, -, e0, e1⟩ := idx_facts ⟨(i 0).val / 2000, ht⟩
  refine ⟨⟨(i 0).val / 2000, ht⟩, flush2_7 _, ?_⟩
  rw [mem_blk7]
  intro a
  match a with
  | ⟨0, _⟩ =>
    show win2_7.index ⟨(i 0).val / 2000, ht⟩ (0 : Fin 2) * 2000 ≤ (i 0).val
      ∧ (i 0).val < win2_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, ht⟩ (1 : Fin 2) * 192 ≤ (i 1).val
      ∧ (i 1).val < win2_7.index ⟨(i 0).val / 2000, ht⟩ (1 : Fin 2) * 192 + 192
    rw [e1]; omega

/-- THE FIRST RESULT after the region: the updated features, whatever the array held before. -/
theorem final6 (c : Dev nD) :
    (dat2 (F := Ideal) V c).arrAt 6 cfg2.N
      = residual (V c main_v30 : Arr 50000 192) (V c main_v19 : Arr 50000 192) (V c main_v14 : Arr 50000 1) (V c main_v35 : Arr 1 192) (V c main_v16 : Arr 50000 192) :=
  (dat2 V c).arrAt_eq_of_cover 6 _ (fun t _ => flushed6_eq V c t) covered6

/-- THE SECOND RESULT after the region: the next layer's messages of the updated features, whatever the array held
    before. -/
theorem final7 (c : Dev nD) :
    (dat2 (F := Ideal) V c).arrAt 7 cfg2.N
      = scaleRows (project (residual (V c main_v30 : Arr 50000 192) (V c main_v19 : Arr 50000 192) (V c main_v14 : Arr 50000 1) (V c main_v35 : Arr 1 192) (V c main_v16 : Arr 50000 192)) (V c main_v34 : Arr 192 192)) (V c main_v14 : Arr 50000 1) :=
  (dat2 V c).arrAt_eq_of_cover 7 _ (fun t _ => flushed7_eq V c t) covered7

end Cert.KernelIdeal.Region2

end
-- ==== Proof.Region3.lean ====
/-
  Region 3, the second layer's update fused with the third layer's messages, as two functions of the arrays it finds.

  The region walks the 50000 node rows in 25 bands of 2000.  At band `t` it takes rows `2000 t … 2000 t + 1999` of the
  aggregated neighbour messages, of the nodes' own messages, of the one-column factor array and of the features, and the
  whole bias row and the whole weight matrix of the next layer.  It first forms the updated features
  `h + max ((agg + ms) · d + b) 0` and writes that band to the first result; it then multiplies the updated band by the
  next layer's weights, scales each row by the node's factor and writes that band to the second result.  Each output
  row depends only on the same row of the row-wise operands, so band `t` of the first result is band `t` of
  `residual agg ms d b h`, and band `t` of the second is band `t` of `scaleRows (project (residual agg ms d b h) w) d`;
  the 25 bands tile each result, so each result array ends holding its function.
-/
import proofs.«181823_j62440234549671_2_alg».proof.Proof.Gen.KernelIdeal.Frame
import proofs.«181823_j62440234549671_2_alg».proof.Proof.Spec
import proofs.«181823_j62440234549671_2_alg».proof.Proof.LibPlainDot
import proofs.«181823_j62440234549671_2_alg».proof.Proof.LibKeepdims
import Idealize.ShloMosaic.Lib.ValueLayout
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region3

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- The entrywise operations of one residual update — the two message arrays added, multiplied by a one-column array
    broadcast over the lanes, a bias row broadcast over the rows added, the clamp at a splat zero, the features added —
    are `residual`: entry `(p, q)` is `h (p, q) + max ((a (p, q) + ms (p, q)) · s (p, 0) + b (0, q)) 0`. -/
theorem residual_ops {M N : Nat} (a ms h : FVec Ideal ⟨2, ![M, N]⟩ .f32) (s : FVec Ideal ⟨2, ![M, 1]⟩ .f32)
    (b : FVec Ideal ⟨2, ![1, N]⟩ .f32) (hs : (⟨2, ![M, 1]⟩ : Shape).Broadcasts ⟨2, ![M, N]⟩)
    (hb : (⟨2, ![1, N]⟩ : Shape).Broadcasts ⟨2, ![M, N]⟩) :
    addf h (maximumf (addf (mulf (addf a ms) (broadcastTo ⟨2, ![M, N]⟩ s hs)) (broadcastTo ⟨2, ![M, N]⟩ b hb))
        (broadcast ⟨2, ![M, N]⟩ (Scalar.ofBits (F := Ideal) .f32 0x00000000#32)))
      = residual a ms s b h := by
  funext i
  obtain ⟨p, q, rfl⟩ : ∃ (p : Fin M) (q : Fin N), i = ix2 p q := ⟨i 0, i 1, eq_ix2 i⟩
  show h (ix2 p q) + max ((a (ix2 p q) + ms (ix2 p q)) * broadcastTo ⟨2, ![M, N]⟩ s hs (ix2 p q)
        + broadcastTo ⟨2, ![M, N]⟩ b hb (ix2 p q)) (Ideal.ofBits .f32 0x00000000#32)
      = h (ix2 p q) + max ((a (ix2 p q) + ms (ix2 p q)) * s (ix2 p (0 : Fin 1)) + b (ix2 (0 : Fin 1) q)) 0
  rw [Cert.LibKeepdims.broadcastTo_a1_ab_apply s hs p q, broadcastTo_1b_ab_apply b hb p q, Ideal.ofBits_zero_f32]

/-- A matrix product into the zero accumulator, multiplied entrywise by a one-column array broadcast over the lanes, is
    the projection with each row scaled by that row's factor: entry `(p, q)` is `(∑ k, x (p, k) · w (k, q)) · s (p, 0)`. -/
theorem matmul_scale_eq_scaleRows {M K N : Nat} {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (s : FVec Ideal ⟨2, ![M, 1]⟩ .f32)
    (hs : (⟨2, ![M, 1]⟩ : Shape).Broadcasts ⟨2, ![M, N]⟩) :
    mulf (matmul d prec x w (constant ⟨2, ![M, N]⟩ .f32 0x00000000#32)) (broadcastTo ⟨2, ![M, N]⟩ s hs)
      = scaleRows (project x w) s := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      * broadcastTo ⟨2, ![M, N]⟩ s hs (ix2 p q) = (∑ k : Fin K, x (ix2 p k) * w (ix2 k q)) * s (ix2 p (0 : Fin 1))
  rw [Cert.Lib.matmul_plain_zero_apply prec x w p q, Cert.LibKeepdims.broadcastTo_a1_ab_apply s hs p q]

/-- The first stored value, over any loaded blocks: the residual update of the band (widening the own messages to the
    wider format is the identity on extended reals). -/
theorem pay1_eq (x0 : Vec Ideal S2000x192 .f32) (x1 : Vec Ideal S2000x192 .bf16) (x2 : Vec Ideal S2000x1 .f32)
    (x3 : Vec Ideal S1x192 .f32) (x4 : Vec Ideal S2000x192 .f32) :
    k3_pay1 (F := Ideal) x0 x1 x2 x3 x4 = residual x0 x1 x2 x3 x4 := by
  unfold k3_pay1
  simp only [shapeCast_self]
  exact residual_ops (M := 2000) (N := 192) x0 (extf .f32 x1 bitsLt_bf16_f32) x4 x2 x3 broadcasts_S2000x1_S2000x192
    broadcasts_S1x192_S2000x192

/-- The second stored value: the updated band times the next weights, each row scaled by its factor (rounding to a
    narrower format is the identity on extended reals). -/
theorem pay2_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32)
    (x6 : Vec Ideal S2000x1 .f32) :
    k3_pay2 (F := Ideal) x0 x1 x2 x3 x4 x5 x6 = scaleRows (project (residual x0 x1 x2 x3 x4) x5) x6 := by
  unfold k3_pay2
  rw [pay1_eq x0 x1 x2 x3 x4]
  simp only [shapeCast_self]
  exact matmul_scale_eq_scaleRows (M := 2000) (K := 192) (N := 192) dot_S2000x192_S192x192_S2000x192_1_0_0_1_n_n rfl none
    (truncf .bf16 (residual x0 x1 x2 x3 x4 : FVec Ideal S2000x192 .f32) bitsLt_bf16_f32)
    (truncf .bf16 (x5 : FVec Ideal S192x192 .f32) bitsLt_bf16_f32) x6 broadcasts_S2000x1_S2000x192

/-- What the body leaves in the first result's buffer, over any loaded blocks. -/
theorem out6_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32) :
    out3_6 (F := Ideal) x0 x1 x2 x3 x4 x5 = residual x0 x1 x2 x3 x4 := by
  unfold out3_6
  rw [View.canon_unit_zero hz]
  simp only [View.ld_unit_zero (S := S2000x192) hz, View.ld_unit_zero (S := S2000x1) hz, View.ld_unit_zero (S := S1x192) hz]
  exact pay1_eq x0 x1 x2 x3 x4

/-- What the body leaves in the second result's buffer, over any loaded blocks. -/
theorem out7_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32) :
    out3_7 (F := Ideal) x0 x1 x2 x3 x4 x5 = scaleRows (project (residual x0 x1 x2 x3 x4) x5) x2 := by
  unfold out3_7
  rw [View.canon_unit_zero hz]
  simp only [View.ld_unit_zero (S := S2000x192) hz, View.ld_unit_zero (S := S2000x1) hz, View.ld_unit_zero (S := S1x192) hz,
    View.ld_unit_zero (S := S192x192) hz]
  exact pay2_eq x0 x1 x2 x3 x4 x5 x2

/-- The printed index maps over the 25 grid points: the row-wise windows and both results move one band per point, the
    bias row and the weights stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem band_le (t : Fin cfg3.N) : 2000 * t.val + 2000 ≤ 50000 := by
  have h : t.val < cfg3.N := t.isLt
  have hN : cfg3.N = 25 := N_3
  omega

/-- The aggregated-message window's block at point `t` is band `t` of its array. -/
theorem iblk_0 (c : Dev nD) (t : Fin cfg3.N) :
    (iblk3 (F := Ideal) V c 0 t : Vec Ideal S2000x192 .f32)
      = rowsFrom 2000 (2000 * t.val) (band_le t) (V c main_v47 : Arr 50000 192) := by
  obtain ⟨e0, e1, -⟩ := idx_facts t
  funext j
  show V c main_v47 (((cfg3.win 0).blk t).view.emb j) = V c main_v47 _
  refine congrArg (V c main_v47) ?_
  funext a
  apply Fin.ext
  match a with
  | ⟨0, _⟩ => show win3_0.index t (0 : Fin 2) * 2000 + 1 * (j 0).val = 2000 * t.val + (j 0).val; rw [e0]; omega
  | ⟨1, _⟩ => show win3_0.index t (1 : Fin 2) * 192 + 1 * (j 1).val = (j 1).val; rw [e1]; omega

/-- The own-message window's block at point `t` is band `t` of its array. -/
theorem iblk_1 (c : Dev nD) (t : Fin cfg3.N) :
    (iblk3 (F := Ideal) V c 1 t : Vec Ideal S2000x192 .bf16)
      = rowsFrom 2000 (2000 * t.val) (band_le t) (V c main_v36_1 : Arr 50000 192) := by
  obtain ⟨-, -, e0, e1, -⟩ := idx_facts t
  funext j
  show V c main_v36_1 (((cfg3.win 1).blk t).view.emb j) = V c main_v36_1 _
  refine congrArg (V c main_v36_1) ?_
  funext a
  apply Fin.ext
  match a with
  | ⟨0, _⟩ => show win3_1.index t (0 : Fin 2) * 2000 + 1 * (j 0).val = 2000 * t.val + (j 0).val; rw [e0]; omega
  | ⟨1, _⟩ => show win3_1.index t (1 : Fin 2) * 192 + 1 * (j 1).val = (j 1).val; rw [e1]; omega

/-- The factor window's block at point `t` is band `t` of its array. -/
theorem iblk_2 (c : Dev nD) (t : Fin cfg3.N) :
    (iblk3 (F := Ideal) V c 2 t : Vec Ideal S2000x1 .f32)
      = rowsFrom 2000 (2000 * t.val) (band_le t) (V c main_v14 : Arr 50000 1) := by
  obtain ⟨-, -, -, -, e0, e1, -⟩ := idx_facts t
  funext j
  show V c main_v14 (((cfg3.win 2).blk t).view.emb j) = V c main_v14 _
  refine congrArg (V c main_v14) ?_
  funext a
  apply Fin.ext
  match a with
  | ⟨0, _⟩ => show win3_2.index t (0 : Fin 2) * 2000 + 1 * (j 0).val = 2000 * t.val + (j 0).val; rw [e0]; omega
  | ⟨1, _⟩ => show win3_2.index t (1 : Fin 2) * 1 + 1 * (j 1).val = (j 1).val; rw [e1]; omega

/-- The bias window's block is the whole bias array at every point. -/
theorem iblk_3 (c : Dev nD) (t : Fin cfg3.N) :
    (iblk3 (F := Ideal) V c 3 t : Vec Ideal S1x192 .f32) = (V c main_v52 : Arr 1 192) := by
  obtain ⟨-, -, -, -, -, -, e0, e1, -⟩ := idx_facts t
  funext j
  show V c main_v52 (((cfg3.win 3).blk t).view.emb j) = V c main_v52 j
  refine congrArg (V c main_v52) ?_
  funext a
  apply Fin.ext
  match a with
  | ⟨0, _⟩ => show win3_3.index t (0 : Fin 2) * 1 + 1 * (j 0).val = (j 0).val; rw [e0]; omega
  | ⟨1, _⟩ => show win3_3.index t (1 : Fin 2) * 192 + 1 * (j 1).val = (j 1).val; rw [e1]; omega

/-- The feature window's block at point `t` is band `t` of its array. -/
theorem iblk_4 (c : Dev nD) (t : Fin cfg3.N) :
    (iblk3 (F := Ideal) V c 4 t : Vec Ideal S2000x192 .f32)
      = rowsFrom 2000 (2000 * t.val) (band_le t) (V c main_v36_0 : Arr 50000 192) := by
  obtain ⟨-, -, -, -, -, -, -, -, e0, e1, -⟩ := idx_facts t
  funext j
  show V c main_v36_0 (((cfg3.win 4).blk t).view.emb j) = V c main_v36_0 _
  refine congrArg (V c main_v36_0) ?_
  funext a
  apply Fin.ext
  match a with
  | ⟨0, _⟩ => show win3_4.index t (0 : Fin 2) * 2000 + 1 * (j 0).val = 2000 * t.val + (j 0).val; rw [e0]; omega
  | ⟨1, _⟩ => show win3_4.index t (1 : Fin 2) * 192 + 1 * (j 1).val = (j 1).val; rw [e1]; omega

/-- The weight window's block is the whole weight array at every point. -/
theorem iblk_5 (c : Dev nD) (t : Fin cfg3.N) :
    (iblk3 (F := Ideal) V c 5 t : Vec Ideal S192x192 .f32) = (V c main_v51 : Arr 192 192) := by
  obtain ⟨-, -, -, -, -, -, -, -, -, -, e0, e1, -⟩ := idx_facts t
  funext j
  show V c main_v51 (((cfg3.win 5).blk t).view.emb j) = V c main_v51 j
  refine congrArg (V c main_v51) ?_
  funext a
  apply Fin.ext
  match a with
  | ⟨0, _⟩ => show win3_5.index t (0 : Fin 2) * 192 + 1 * (j 0).val = (j 0).val; rw [e0]; omega
  | ⟨1, _⟩ => show win3_5.index t (1 : Fin 2) * 192 + 1 * (j 1).val = (j 1).val; rw [e1]; omega

/-- WHAT POINT `t` WRITES BACK to the first result is block `t` of that function of the whole arrays. -/
theorem flushed6_eq (c : Dev nD) (t : Fin cfg3.N) :
    (dat3 (F := Ideal) V c).flushed 6 t
      = ((cfg3.win 6).blk t).view.read (Elt Ideal)
          (residual (V c main_v47 : Arr 50000 192) (V c main_v36_1 : Arr 50000 192) (V c main_v14 : Arr 50000 1) (V c main_v52 : Arr 1 192) (V c main_v36_0 : Arr 50000 192)) := by
  show (cfg3.win 6).cut (grid3.coords t) ((dat3 V c).after 6 t) = _
  rw [after3_6, out6_eq (iblk3 V c 0 t) (iblk3 V c 1 t) (iblk3 V c 2 t) (iblk3 V c 3 t) (iblk3 V c 4 t) (iblk3 V c 5 t),
    iblk_0 V c t, iblk_1 V c t, iblk_2 V c t, iblk_3 V c t, iblk_4 V c t,
    residual_rows]
  obtain ⟨-, -, -, -, -, -, -, -, -, -, -, -, e0, e1, -⟩ := idx_facts t
  funext j
  show rowsFrom 2000 (2000 * t.val) (band_le t) (residual (V c main_v47 : Arr 50000 192) (V c main_v36_1 : Arr 50000 192) (V c main_v14 : Arr 50000 1) (V c main_v52 : Arr 1 192) (V c main_v36_0 : Arr 50000 192)) j
    = (residual (V c main_v47 : Arr 50000 192) (V c main_v36_1 : Arr 50000 192) (V c main_v14 : Arr 50000 1) (V c main_v52 : Arr 1 192) (V c main_v36_0 : Arr 50000 192)) (((cfg3.win 6).blk t).view.emb j)
  unfold rowsFrom
  refine congrArg (residual (V c main_v47 : Arr 50000 192) (V c main_v36_1 : Arr 50000 192) (V c main_v14 : Arr 50000 1) (V c main_v52 : Arr 1 192) (V c main_v36_0 : Arr 50000 192)) ?_
  funext a
  apply Fin.ext
  match a with
  | ⟨0, _⟩ => show 2000 * t.val + (j 0).val = win3_6.index t (0 : Fin 2) * 2000 + 1 * (j 0).val; rw [e0]; omega
  | ⟨1, _⟩ => show (j 1).val = win3_6.index t (1 : Fin 2) * 192 + 1 * (j 1).val; rw [e1]; omega

/-- An index of the first result is in point `t`'s block iff each coordinate is in the block's range on its axis. -/
theorem mem_blk6 (t : Fin cfg3.N) (i : S50000x192.Idx) :
    i ∈ ((cfg3.win 6).blk t).view.set ↔ ∀ a : Fin 2, win3_6.index t a * S2000x192.size a ≤ (i a).val
      ∧ (i a).val < win3_6.index t a * S2000x192.size a + S2000x192.size a := by
  show i ∈ ((View.whole main_v53_0).slice (win3_6.rect t)).set ↔ _
  rw [View.set_slice_whole, Rect.mem_set_unit]
  exact Iff.rfl

/-- Row `r` of the first result is written by the point `r / 2000`: the 25 bands tile the array. -/
theorem covered6 (i : S50000x192.Idx) :
    ∃ t : Fin cfg3.N, (cfg3.win 6).flush t = true ∧ i ∈ ((cfg3.win 6).blk t).view.set := by
  have hi0 : (i 0).val < 50000 := (i 0).isLt
  have hi1 : (i 1).val < 192 := (i 1).isLt
  have hN : cfg3.N = 25 := N_3
  have ht : (i 0).val / 2000 < cfg3.N := by rw [hN]; omega
  obtain ⟨-, -, -, -, -, -, -, -, -, -, -, -, e0, e1, -⟩ := idx_facts ⟨(i 0).val / 2000, ht⟩
  refine ⟨⟨(i 0).val / 2000, ht⟩, flush3_6 _, ?_⟩
  rw [mem_blk6]
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, ht⟩ (1 : Fin 2) * 192 ≤ (i 1).val
      ∧ (i 1).val < win3_6.index ⟨(i 0).val / 2000, ht⟩ (1 : Fin 2) * 192 + 192
    rw [e1]; omega

/-- WHAT POINT `t` WRITES BACK to the second result is block `t` of that function of the whole arrays. -/
theorem flushed7_eq (c : Dev nD) (t : Fin cfg3.N) :
    (dat3 (F := Ideal) V c).flushed 7 t
      = ((cfg3.win 7).blk t).view.read (Elt Ideal)
          (scaleRows (project (residual (V c main_v47 : Arr 50000 192) (V c main_v36_1 : Arr 50000 192) (V c main_v14 : Arr 50000 1) (V c main_v52 : Arr 1 192) (V c main_v36_0 : Arr 50000 192)) (V c main_v51 : Arr 192 192)) (V c main_v14 : Arr 50000 1)) := by
  show (cfg3.win 7).cut (grid3.coords t) ((dat3 V c).after 7 t) = _
  rw [after3_7, out7_eq (iblk3 V c 0 t) (iblk3 V c 1 t) (iblk3 V c 2 t) (iblk3 V c 3 t) (iblk3 V c 4 t) (iblk3 V c 5 t),
    iblk_0 V c t, iblk_1 V c t, iblk_2 V c t, iblk_3 V c t, iblk_4 V c t, iblk_5 V c t,
    residual_rows, project_rows, scaleRows_rows]
  obtain ⟨-, -, -, -, -, -, -, -, -, -, -, -, -, -, e0, e1⟩ := idx_facts t
  funext j
  show rowsFrom 2000 (2000 * t.val) (band_le t) (scaleRows (project (residual (V c main_v47 : Arr 50000 192) (V c main_v36_1 : Arr 50000 192) (V c main_v14 : Arr 50000 1) (V c main_v52 : Arr 1 192) (V c main_v36_0 : Arr 50000 192)) (V c main_v51 : Arr 192 192)) (V c main_v14 : Arr 50000 1)) j
    = (scaleRows (project (residual (V c main_v47 : Arr 50000 192) (V c main_v36_1 : Arr 50000 192) (V c main_v14 : Arr 50000 1) (V c main_v52 : Arr 1 192) (V c main_v36_0 : Arr 50000 192)) (V c main_v51 : Arr 192 192)) (V c main_v14 : Arr 50000 1)) (((cfg3.win 7).blk t).view.emb j)
  unfold rowsFrom
  refine congrArg (scaleRows (project (residual (V c main_v47 : Arr 50000 192) (V c main_v36_1 : Arr 50000 192) (V c main_v14 : Arr 50000 1) (V c main_v52 : Arr 1 192) (V c main_v36_0 : Arr 50000 192)) (V c main_v51 : Arr 192 192)) (V c main_v14 : Arr 50000 1)) ?_
  funext a
  apply Fin.ext
  match a with
  | ⟨0, _⟩ => show 2000 * t.val + (j 0).val = win3_7.index t (0 : Fin 2) * 2000 + 1 * (j 0).val; rw [e0]; omega
  | ⟨1, _⟩ => show (j 1).val = win3_7.index t (1 : Fin 2) * 192 + 1 * (j 1).val; rw [e1]; omega

/-- An index of the second result is in point `t`'s block iff each coordinate is in the block's range on its axis. -/
theorem mem_blk7 (t : Fin cfg3.N) (i : S50000x192.Idx) :
    i ∈ ((cfg3.win 7).blk t).view.set ↔ ∀ a : Fin 2, win3_7.index t a * S2000x192.size a ≤ (i a).val
      ∧ (i a).val < win3_7.index t a * S2000x192.size a + S2000x192.size a := by
  show i ∈ ((View.whole main_v53_1).slice (win3_7.rect t)).set ↔ _
  rw [View.set_slice_whole, Rect.mem_set_unit]
  exact Iff.rfl

/-- Row `r` of the second result is written by the point `r / 2000`: the 25 bands tile the array. -/
theorem covered7 (i : S50000x192.Idx) :
    ∃ t : Fin cfg3.N, (cfg3.win 7).flush t = true ∧ i ∈ ((cfg3.win 7).blk t).view.set := by
  have hi0 : (i 0).val < 50000 := (i 0).isLt
  have hi1 : (i 1).val < 192 := (i 1).isLt
  have hN : cfg3.N = 25 := N_3
  have ht : (i 0).val / 2000 < cfg3.N := by rw [hN]; omega
  obtain ⟨-, -, -, -, -, -, -, -, -, -, -, -, -, -, e0, e1⟩ := idx_facts ⟨(i 0).val / 2000, ht⟩
  refine ⟨⟨(i 0).val / 2000, ht⟩, flush3_7 _, ?_⟩
  rw [mem_blk7]
  intro a
  match a with
  | ⟨0, _⟩ =>
    show win3_7.index ⟨(i 0).val / 2000, ht⟩ (0 : Fin 2) * 2000 ≤ (i 0).val
      ∧ (i 0).val < win3_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_7.index ⟨(i 0).val / 2000, ht⟩ (1 : Fin 2) * 192 ≤ (i 1).val
      ∧ (i 1).val < win3_7.index ⟨(i 0).val / 2000, ht⟩ (1 : Fin 2) * 192 + 192
    rw [e1]; omega

/-- THE FIRST RESULT after the region: the updated features, whatever the array held before. -/
theorem final6 (c : Dev nD) :
    (dat3 (F := Ideal) V c).arrAt 6 cfg3.N
      = residual (V c main_v47 : Arr 50000 192) (V c main_v36_1 : Arr 50000 192) (V c main_v14 : Arr 50000 1) (V c main_v52 : Arr 1 192) (V c main_v36_0 : Arr 50000 192) :=
  (dat3 V c).arrAt_eq_of_cover 6 _ (fun t _ => flushed6_eq V c t) covered6

/-- THE SECOND RESULT after the region: the next layer's messages of the updated features, whatever the array held
    before. -/
theorem final7 (c : Dev nD) :
    (dat3 (F := Ideal) V c).arrAt 7 cfg3.N
      = scaleRows (project (residual (V c main_v47 : Arr 50000 192) (V c main_v36_1 : Arr 50000 192) (V c main_v14 : Arr 50000 1) (V c main_v52 : Arr 1 192) (V c main_v36_0 : Arr 50000 192)) (V c main_v51 : Arr 192 192)) (V c main_v14 : Arr 50000 1) :=
  (dat3 V c).arrAt_eq_of_cover 7 _ (fun t _ => flushed7_eq V c t) covered7

end Cert.KernelIdeal.Region3

end
-- ==== Proof.Region4.lean ====
/-
  Region 4, the third layer's update fused with the fourth layer's messages, as two functions of the arrays it finds.

  The region walks the 50000 node rows in 25 bands of 2000.  At band `t` it takes rows `2000 t … 2000 t + 1999` of the
  aggregated neighbour messages, of the nodes' own messages, of the one-column factor array and of the features, and the
  whole bias row and the whole weight matrix of the next layer.  It first forms the updated features
  `h + max ((agg + ms) · d + b) 0` and writes that band to the first result; it then multiplies the updated band by the
  next layer's weights, scales each row by the node's factor and writes that band to the second result.  Each output
  row depends only on the same row of the row-wise operands, so band `t` of the first result is band `t` of
  `residual agg ms d b h`, and band `t` of the second is band `t` of `scaleRows (project (residual agg ms d b h) w) d`;
  the 25 bands tile each result, so each result array ends holding its function.
-/
import proofs.«181823_j62440234549671_2_alg».proof.Proof.Gen.KernelIdeal.Frame
import proofs.«181823_j62440234549671_2_alg».proof.Proof.Spec
import proofs.«181823_j62440234549671_2_alg».proof.Proof.LibPlainDot
import proofs.«181823_j62440234549671_2_alg».proof.Proof.LibKeepdims
import Idealize.ShloMosaic.Lib.ValueLayout
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region4

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- The entrywise operations of one residual update — the two message arrays added, multiplied by a one-column array
    broadcast over the lanes, a bias row broadcast over the rows added, the clamp at a splat zero, the features added —
    are `residual`: entry `(p, q)` is `h (p, q) + max ((a (p, q) + ms (p, q)) · s (p, 0) + b (0, q)) 0`. -/
theorem residual_ops {M N : Nat} (a ms h : FVec Ideal ⟨2, ![M, N]⟩ .f32) (s : FVec Ideal ⟨2, ![M, 1]⟩ .f32)
    (b : FVec Ideal ⟨2, ![1, N]⟩ .f32) (hs : (⟨2, ![M, 1]⟩ : Shape).Broadcasts ⟨2, ![M, N]⟩)
    (hb : (⟨2, ![1, N]⟩ : Shape).Broadcasts ⟨2, ![M, N]⟩) :
    addf h (maximumf (addf (mulf (addf a ms) (broadcastTo ⟨2, ![M, N]⟩ s hs)) (broadcastTo ⟨2, ![M, N]⟩ b hb))
        (broadcast ⟨2, ![M, N]⟩ (Scalar.ofBits (F := Ideal) .f32 0x00000000#32)))
      = residual a ms s b h := by
  funext i
  obtain ⟨p, q, rfl⟩ : ∃ (p : Fin M) (q : Fin N), i = ix2 p q := ⟨i 0, i 1, eq_ix2 i⟩
  show h (ix2 p q) + max ((a (ix2 p q) + ms (ix2 p q)) * broadcastTo ⟨2, ![M, N]⟩ s hs (ix2 p q)
        + broadcastTo ⟨2, ![M, N]⟩ b hb (ix2 p q)) (Ideal.ofBits .f32 0x00000000#32)
      = h (ix2 p q) + max ((a (ix2 p q) + ms (ix2 p q)) * s (ix2 p (0 : Fin 1)) + b (ix2 (0 : Fin 1) q)) 0
  rw [Cert.LibKeepdims.broadcastTo_a1_ab_apply s hs p q, broadcastTo_1b_ab_apply b hb p q, Ideal.ofBits_zero_f32]

/-- A matrix product into the zero accumulator, multiplied entrywise by a one-column array broadcast over the lanes, is
    the projection with each row scaled by that row's factor: entry `(p, q)` is `(∑ k, x (p, k) · w (k, q)) · s (p, 0)`. -/
theorem matmul_scale_eq_scaleRows {M K N : Nat} {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (s : FVec Ideal ⟨2, ![M, 1]⟩ .f32)
    (hs : (⟨2, ![M, 1]⟩ : Shape).Broadcasts ⟨2, ![M, N]⟩) :
    mulf (matmul d prec x w (constant ⟨2, ![M, N]⟩ .f32 0x00000000#32)) (broadcastTo ⟨2, ![M, N]⟩ s hs)
      = scaleRows (project x w) s := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      * broadcastTo ⟨2, ![M, N]⟩ s hs (ix2 p q) = (∑ k : Fin K, x (ix2 p k) * w (ix2 k q)) * s (ix2 p (0 : Fin 1))
  rw [Cert.Lib.matmul_plain_zero_apply prec x w p q, Cert.LibKeepdims.broadcastTo_a1_ab_apply s hs p q]

/-- The first stored value, over any loaded blocks: the residual update of the band (widening the own messages to the
    wider format is the identity on extended reals). -/
theorem pay1_eq (x0 : Vec Ideal S2000x192 .f32) (x1 : Vec Ideal S2000x192 .bf16) (x2 : Vec Ideal S2000x1 .f32)
    (x3 : Vec Ideal S1x192 .f32) (x4 : Vec Ideal S2000x192 .f32) :
    k4_pay1 (F := Ideal) x0 x1 x2 x3 x4 = residual x0 x1 x2 x3 x4 := by
  unfold k4_pay1
  simp only [shapeCast_self]
  exact residual_ops (M := 2000) (N := 192) x0 (extf .f32 x1 bitsLt_bf16_f32) x4 x2 x3 broadcasts_S2000x1_S2000x192
    broadcasts_S1x192_S2000x192

/-- The second stored value: the updated band times the next weights, each row scaled by its factor (rounding to a
    narrower format is the identity on extended reals). -/
theorem pay2_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32)
    (x6 : Vec Ideal S2000x1 .f32) :
    k4_pay2 (F := Ideal) x0 x1 x2 x3 x4 x5 x6 = scaleRows (project (residual x0 x1 x2 x3 x4) x5) x6 := by
  unfold k4_pay2
  rw [pay1_eq x0 x1 x2 x3 x4]
  simp only [shapeCast_self]
  exact matmul_scale_eq_scaleRows (M := 2000) (K := 192) (N := 192) dot_S2000x192_S192x192_S2000x192_1_0_0_1_n_n rfl none
    (truncf .bf16 (residual x0 x1 x2 x3 x4 : FVec Ideal S2000x192 .f32) bitsLt_bf16_f32)
    (truncf .bf16 (x5 : FVec Ideal S192x192 .f32) bitsLt_bf16_f32) x6 broadcasts_S2000x1_S2000x192

/-- What the body leaves in the first result's buffer, over any loaded blocks. -/
theorem out6_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32) :
    out4_6 (F := Ideal) x0 x1 x2 x3 x4 x5 = residual x0 x1 x2 x3 x4 := by
  unfold out4_6
  rw [View.canon_unit_zero hz]
  simp only [View.ld_unit_zero (S := S2000x192) hz, View.ld_unit_zero (S := S2000x1) hz, View.ld_unit_zero (S := S1x192) hz]
  exact pay1_eq x0 x1 x2 x3 x4

/-- What the body leaves in the second result's buffer, over any loaded blocks. -/
theorem out7_eq (x0 : Vec Ideal S2000x192 .f32) (x1 : Vec Ideal S2000x192 .bf16) (x2 : Vec Ideal S2000x1 .f32)
    (x3 : Vec Ideal S1x192 .f32) (x4 : Vec Ideal S2000x192 .f32) (x5 : Vec Ideal S192x192 .f32) :
    out4_7 (F := Ideal) x0 x1 x2 x3 x4 x5 = scaleRows (project (residual x0 x1 x2 x3 x4) x5) x2 := by
  unfold out4_7
  rw [View.canon_unit_zero hz]
  simp only [View.ld_unit_zero (S := S2000x192) hz, View.ld_unit_zero (S := S2000x1) hz, View.ld_unit_zero (S := S1x192) hz,
    View.ld_unit_zero (S := S192x192) hz]
  exact pay2_eq x0 x1 x2 x3 x4 x5 x2

/-- The printed index maps over the 25 grid points: the row-wise windows and both results move one band per point, the
    bias row and the weights stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem band_le (t : Fin cfg4.N) : 2000 * t.val + 2000 ≤ 50000 := by
  have h : t.val < cfg4.N := t.isLt
  have hN : cfg4.N = 25 := N_4
  omega

/-- The aggregated-message window's block at point `t` is band `t` of its array. -/
theorem iblk_0 (c : Dev nD) (t : Fin cfg4.N) :
    (iblk4 (F := Ideal) V c 0 t : Vec Ideal S2000x192 .f32)
      = rowsFrom 2000 (2000 * t.val) (band_le t) (V c main_v64 : Arr 50000 192) := by
  obtain ⟨e0, e1, -⟩ := idx_facts t
  funext j
  show V c main_v64 (((cfg4.win 0).blk t).view.emb j) = V c main_v64 _
  refine congrArg (V c main_v64) ?_
  funext a
  apply Fin.ext
  match a with
  | ⟨0, _⟩ => show win4_0.index t (0 : Fin 2) * 2000 + 1 * (j 0).val = 2000 * t.val + (j 0).val; rw [e0]; omega
  | ⟨1, _⟩ => show win4_0.index t (1 : Fin 2) * 192 + 1 * (j 1).val = (j 1).val; rw [e1]; omega

/-- The own-message window's block at point `t` is band `t` of its array. -/
theorem iblk_1 (c : Dev nD) (t : Fin cfg4.N) :
    (iblk4 (F := Ideal) V c 1 t : Vec Ideal S2000x192 .bf16)
      = rowsFrom 2000 (2000 * t.val) (band_le t) (V c main_v53_1 : Arr 50000 192) := by
  obtain ⟨-, -, e0, e1, -⟩ := idx_facts t
  funext j
  show V c main_v53_1 (((cfg4.win 1).blk t).view.emb j) = V c main_v53_1 _
  refine congrArg (V c main_v53_1) ?_
  funext a
  apply Fin.ext
  match a with
  | ⟨0, _⟩ => show win4_1.index t (0 : Fin 2) * 2000 + 1 * (j 0).val = 2000 * t.val + (j 0).val; rw [e0]; omega
  | ⟨1, _⟩ => show win4_1.index t (1 : Fin 2) * 192 + 1 * (j 1).val = (j 1).val; rw [e1]; omega

/-- The factor window's block at point `t` is band `t` of its array. -/
theorem iblk_2 (c : Dev nD) (t : Fin cfg4.N) :
    (iblk4 (F := Ideal) V c 2 t : Vec Ideal S2000x1 .f32)
      = rowsFrom 2000 (2000 * t.val) (band_le t) (V c main_v14 : Arr 50000 1) := by
  obtain ⟨-, -, -, -, e0, e1, -⟩ := idx_facts t
  funext j
  show V c main_v14 (((cfg4.win 2).blk t).view.emb j) = V c main_v14 _
  refine congrArg (V c main_v14) ?_
  funext a
  apply Fin.ext
  match a with
  | ⟨0, _⟩ => show win4_2.index t (0 : Fin 2) * 2000 + 1 * (j 0).val = 2000 * t.val + (j 0).val; rw [e0]; omega
  | ⟨1, _⟩ => show win4_2.index t (1 : Fin 2) * 1 + 1 * (j 1).val = (j 1).val; rw [e1]; omega

/-- The bias window's block is the whole bias array at every point. -/
theorem iblk_3 (c : Dev nD) (t : Fin cfg4.N) :
    (iblk4 (F := Ideal) V c 3 t : Vec Ideal S1x192 .f32) = (V c main_v69 : Arr 1 192) := by
  obtain ⟨-, -, -, -, -, -, e0, e1, -⟩ := idx_facts t
  funext j
  show V c main_v69 (((cfg4.win 3).blk t).view.emb j) = V c main_v69 j
  refine congrArg (V c main_v69) ?_
  funext a
  apply Fin.ext
  match a with
  | ⟨0, _⟩ => show win4_3.index t (0 : Fin 2) * 1 + 1 * (j 0).val = (j 0).val; rw [e0]; omega
  | ⟨1, _⟩ => show win4_3.index t (1 : Fin 2) * 192 + 1 * (j 1).val = (j 1).val; rw [e1]; omega

/-- The feature window's block at point `t` is band `t` of its array. -/
theorem iblk_4 (c : Dev nD) (t : Fin cfg4.N) :
    (iblk4 (F := Ideal) V c 4 t : Vec Ideal S2000x192 .f32)
      = rowsFrom 2000 (2000 * t.val) (band_le t) (V c main_v53_0 : Arr 50000 192) := by
  obtain ⟨-, -, -, -, -, -, -, -, e0, e1, -⟩ := idx_facts t
  funext j
  show V c main_v53_0 (((cfg4.win 4).blk t).view.emb j) = V c main_v53_0 _
  refine congrArg (V c main_v53_0) ?_
  funext a
  apply Fin.ext
  match a with
  | ⟨0, _⟩ => show win4_4.index t (0 : Fin 2) * 2000 + 1 * (j 0).val = 2000 * t.val + (j 0).val; rw [e0]; omega
  | ⟨1, _⟩ => show win4_4.index t (1 : Fin 2) * 192 + 1 * (j 1).val = (j 1).val; rw [e1]; omega

/-- The weight window's block is the whole weight array at every point. -/
theorem iblk_5 (c : Dev nD) (t : Fin cfg4.N) :
    (iblk4 (F := Ideal) V c 5 t : Vec Ideal S192x192 .f32) = (V c main_v68 : Arr 192 192) := by
  obtain ⟨-, -, -, -, -, -, -, -, -, -, e0, e1, -⟩ := idx_facts t
  funext j
  show V c main_v68 (((cfg4.win 5).blk t).view.emb j) = V c main_v68 j
  refine congrArg (V c main_v68) ?_
  funext a
  apply Fin.ext
  match a with
  | ⟨0, _⟩ => show win4_5.index t (0 : Fin 2) * 192 + 1 * (j 0).val = (j 0).val; rw [e0]; omega
  | ⟨1, _⟩ => show win4_5.index t (1 : Fin 2) * 192 + 1 * (j 1).val = (j 1).val; rw [e1]; omega

/-- WHAT POINT `t` WRITES BACK to the first result is block `t` of that function of the whole arrays. -/
theorem flushed6_eq (c : Dev nD) (t : Fin cfg4.N) :
    (dat4 (F := Ideal) V c).flushed 6 t
      = ((cfg4.win 6).blk t).view.read (Elt Ideal)
          (residual (V c main_v64 : Arr 50000 192) (V c main_v53_1 : Arr 50000 192) (V c main_v14 : Arr 50000 1) (V c main_v69 : Arr 1 192) (V c main_v53_0 : Arr 50000 192)) := by
  show (cfg4.win 6).cut (grid4.coords t) ((dat4 V c).after 6 t) = _
  rw [after4_6, out6_eq (iblk4 V c 0 t) (iblk4 V c 1 t) (iblk4 V c 2 t) (iblk4 V c 3 t) (iblk4 V c 4 t) (iblk4 V c 5 t),
    iblk_0 V c t, iblk_1 V c t, iblk_2 V c t, iblk_3 V c t, iblk_4 V c t,
    residual_rows]
  obtain ⟨-, -, -, -, -, -, -, -, -, -, -, -, e0, e1, -⟩ := idx_facts t
  funext j
  show rowsFrom 2000 (2000 * t.val) (band_le t) (residual (V c main_v64 : Arr 50000 192) (V c main_v53_1 : Arr 50000 192) (V c main_v14 : Arr 50000 1) (V c main_v69 : Arr 1 192) (V c main_v53_0 : Arr 50000 192)) j
    = (residual (V c main_v64 : Arr 50000 192) (V c main_v53_1 : Arr 50000 192) (V c main_v14 : Arr 50000 1) (V c main_v69 : Arr 1 192) (V c main_v53_0 : Arr 50000 192)) (((cfg4.win 6).blk t).view.emb j)
  unfold rowsFrom
  refine congrArg (residual (V c main_v64 : Arr 50000 192) (V c main_v53_1 : Arr 50000 192) (V c main_v14 : Arr 50000 1) (V c main_v69 : Arr 1 192) (V c main_v53_0 : Arr 50000 192)) ?_
  funext a
  apply Fin.ext
  match a with
  | ⟨0, _⟩ => show 2000 * t.val + (j 0).val = win4_6.index t (0 : Fin 2) * 2000 + 1 * (j 0).val; rw [e0]; omega
  | ⟨1, _⟩ => show (j 1).val = win4_6.index t (1 : Fin 2) * 192 + 1 * (j 1).val; rw [e1]; omega

/-- An index of the first result is in point `t`'s block iff each coordinate is in the block's range on its axis. -/
theorem mem_blk6 (t : Fin cfg4.N) (i : S50000x192.Idx) :
    i ∈ ((cfg4.win 6).blk t).view.set ↔ ∀ a : Fin 2, win4_6.index t a * S2000x192.size a ≤ (i a).val
      ∧ (i a).val < win4_6.index t a * S2000x192.size a + S2000x192.size a := by
  show i ∈ ((View.whole main_v70_0).slice (win4_6.rect t)).set ↔ _
  rw [View.set_slice_whole, Rect.mem_set_unit]
  exact Iff.rfl

/-- Row `r` of the first result is written by the point `r / 2000`: the 25 bands tile the array. -/
theorem covered6 (i : S50000x192.Idx) :
    ∃ t : Fin cfg4.N, (cfg4.win 6).flush t = true ∧ i ∈ ((cfg4.win 6).blk t).view.set := by
  have hi0 : (i 0).val < 50000 := (i 0).isLt
  have hi1 : (i 1).val < 192 := (i 1).isLt
  have hN : cfg4.N = 25 := N_4
  have ht : (i 0).val / 2000 < cfg4.N := by rw [hN]; omega
  obtain ⟨-, -, -, -, -, -, -, -, -, -, -, -, e0, e1, -⟩ := idx_facts ⟨(i 0).val / 2000, ht⟩
  refine ⟨⟨(i 0).val / 2000, ht⟩, flush4_6 _, ?_⟩
  rw [mem_blk6]
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_6.index ⟨(i 0).val / 2000, ht⟩ (1 : Fin 2) * 192 ≤ (i 1).val
      ∧ (i 1).val < win4_6.index ⟨(i 0).val / 2000, ht⟩ (1 : Fin 2) * 192 + 192
    rw [e1]; omega

/-- WHAT POINT `t` WRITES BACK to the second result is block `t` of that function of the whole arrays. -/
theorem flushed7_eq (c : Dev nD) (t : Fin cfg4.N) :
    (dat4 (F := Ideal) V c).flushed 7 t
      = ((cfg4.win 7).blk t).view.read (Elt Ideal)
          (scaleRows (project (residual (V c main_v64 : Arr 50000 192) (V c main_v53_1 : Arr 50000 192) (V c main_v14 : Arr 50000 1) (V c main_v69 : Arr 1 192) (V c main_v53_0 : Arr 50000 192)) (V c main_v68 : Arr 192 192)) (V c main_v14 : Arr 50000 1)) := by
  show (cfg4.win 7).cut (grid4.coords t) ((dat4 V c).after 7 t) = _
  rw [after4_7, out7_eq (iblk4 V c 0 t) (iblk4 V c 1 t) (iblk4 V c 2 t) (iblk4 V c 3 t) (iblk4 V c 4 t) (iblk4 V c 5 t),
    iblk_0 V c t, iblk_1 V c t, iblk_2 V c t, iblk_3 V c t, iblk_4 V c t, iblk_5 V c t,
    residual_rows, project_rows, scaleRows_rows]
  obtain ⟨-, -, -, -, -, -, -, -, -, -, -, -, -, -, e0, e1⟩ := idx_facts t
  funext j
  show rowsFrom 2000 (2000 * t.val) (band_le t) (scaleRows (project (residual (V c main_v64 : Arr 50000 192) (V c main_v53_1 : Arr 50000 192) (V c main_v14 : Arr 50000 1) (V c main_v69 : Arr 1 192) (V c main_v53_0 : Arr 50000 192)) (V c main_v68 : Arr 192 192)) (V c main_v14 : Arr 50000 1)) j
    = (scaleRows (project (residual (V c main_v64 : Arr 50000 192) (V c main_v53_1 : Arr 50000 192) (V c main_v14 : Arr 50000 1) (V c main_v69 : Arr 1 192) (V c main_v53_0 : Arr 50000 192)) (V c main_v68 : Arr 192 192)) (V c main_v14 : Arr 50000 1)) (((cfg4.win 7).blk t).view.emb j)
  unfold rowsFrom
  refine congrArg (scaleRows (project (residual (V c main_v64 : Arr 50000 192) (V c main_v53_1 : Arr 50000 192) (V c main_v14 : Arr 50000 1) (V c main_v69 : Arr 1 192) (V c main_v53_0 : Arr 50000 192)) (V c main_v68 : Arr 192 192)) (V c main_v14 : Arr 50000 1)) ?_
  funext a
  apply Fin.ext
  match a with
  | ⟨0, _⟩ => show 2000 * t.val + (j 0).val = win4_7.index t (0 : Fin 2) * 2000 + 1 * (j 0).val; rw [e0]; omega
  | ⟨1, _⟩ => show (j 1).val = win4_7.index t (1 : Fin 2) * 192 + 1 * (j 1).val; rw [e1]; omega

/-- An index of the second result is in point `t`'s block iff each coordinate is in the block's range on its axis. -/
theorem mem_blk7 (t : Fin cfg4.N) (i : S50000x192.Idx) :
    i ∈ ((cfg4.win 7).blk t).view.set ↔ ∀ a : Fin 2, win4_7.index t a * S2000x192.size a ≤ (i a).val
      ∧ (i a).val < win4_7.index t a * S2000x192.size a + S2000x192.size a := by
  show i ∈ ((View.whole main_v70_1).slice (win4_7.rect t)).set ↔ _
  rw [View.set_slice_whole, Rect.mem_set_unit]
  exact Iff.rfl

/-- Row `r` of the second result is written by the point `r / 2000`: the 25 bands tile the array. -/
theorem covered7 (i : S50000x192.Idx) :
    ∃ t : Fin cfg4.N, (cfg4.win 7).flush t = true ∧ i ∈ ((cfg4.win 7).blk t).view.set := by
  have hi0 : (i 0).val < 50000 := (i 0).isLt
  have hi1 : (i 1).val < 192 := (i 1).isLt
  have hN : cfg4.N = 25 := N_4
  have ht : (i 0).val / 2000 < cfg4.N := by rw [hN]; omega
  obtain ⟨-, -, -, -, -, -, -, -, -, -, -, -, -, -, e0, e1⟩ := idx_facts ⟨(i 0).val / 2000, ht⟩
  refine ⟨⟨(i 0).val / 2000, ht⟩, flush4_7 _, ?_⟩
  rw [mem_blk7]
  intro a
  match a with
  | ⟨0, _⟩ =>
    show win4_7.index ⟨(i 0).val / 2000, ht⟩ (0 : Fin 2) * 2000 ≤ (i 0).val
      ∧ (i 0).val < win4_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_7.index ⟨(i 0).val / 2000, ht⟩ (1 : Fin 2) * 192 ≤ (i 1).val
      ∧ (i 1).val < win4_7.index ⟨(i 0).val / 2000, ht⟩ (1 : Fin 2) * 192 + 192
    rw [e1]; omega

/-- THE FIRST RESULT after the region: the updated features, whatever the array held before. -/
theorem final6 (c : Dev nD) :
    (dat4 (F := Ideal) V c).arrAt 6 cfg4.N
      = residual (V c main_v64 : Arr 50000 192) (V c main_v53_1 : Arr 50000 192) (V c main_v14 : Arr 50000 1) (V c main_v69 : Arr 1 192) (V c main_v53_0 : Arr 50000 192) :=
  (dat4 V c).arrAt_eq_of_cover 6 _ (fun t _ => flushed6_eq V c t) covered6

/-- THE SECOND RESULT after the region: the next layer's messages of the updated features, whatever the array held
    before. -/
theorem final7 (c : Dev nD) :
    (dat4 (F := Ideal) V c).arrAt 7 cfg4.N
      = scaleRows (project (residual (V c main_v64 : Arr 50000 192) (V c main_v53_1 : Arr 50000 192) (V c main_v14 : Arr 50000 1) (V c main_v69 : Arr 1 192) (V c main_v53_0 : Arr 50000 192)) (V c main_v68 : Arr 192 192)) (V c main_v14 : Arr 50000 1) :=
  (dat4 V c).arrAt_eq_of_cover 7 _ (fun t _ => flushed7_eq V c t) covered7

end Cert.KernelIdeal.Region4

end
-- ==== Proof.Region5.lean ====
/-
  Region 5, the last layer's update, as one function of the arrays it finds.

  The region walks the 50000 node rows in 25 bands of 2000.  At band `t` it takes rows `2000 t … 2000 t + 1999` of the
  aggregated neighbour messages, of the nodes' own messages, of the one-column factor array and of the features, and the
  whole bias row, forms `h + max ((agg + ms) · d + b) 0` and writes that band to the result.  Each output row depends only
  on the same row of the row-wise operands, so band `t` of the result is band `t` of `residual agg ms d b h`; the 25
  bands tile the result, so the result array ends holding that function.
-/
import proofs.«181823_j62440234549671_2_alg».proof.Proof.Gen.KernelIdeal.Frame
import proofs.«181823_j62440234549671_2_alg».proof.Proof.Spec
import proofs.«181823_j62440234549671_2_alg».proof.Proof.LibKeepdims
import Idealize.ShloMosaic.Lib.ValueLayout
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region5

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- The entrywise operations of one residual update — the two message arrays added, multiplied by a one-column array
    broadcast over the lanes, a bias row broadcast over the rows added, the clamp at a splat zero, the features added —
    are `residual`: entry `(p, q)` is `h (p, q) + max ((a (p, q) + ms (p, q)) · s (p, 0) + b (0, q)) 0`. -/
theorem residual_ops {M N : Nat} (a ms h : FVec Ideal ⟨2, ![M, N]⟩ .f32) (s : FVec Ideal ⟨2, ![M, 1]⟩ .f32)
    (b : FVec Ideal ⟨2, ![1, N]⟩ .f32) (hs : (⟨2, ![M, 1]⟩ : Shape).Broadcasts ⟨2, ![M, N]⟩)
    (hb : (⟨2, ![1, N]⟩ : Shape).Broadcasts ⟨2, ![M, N]⟩) :
    addf h (maximumf (addf (mulf (addf a ms) (broadcastTo ⟨2, ![M, N]⟩ s hs)) (broadcastTo ⟨2, ![M, N]⟩ b hb))
        (broadcast ⟨2, ![M, N]⟩ (Scalar.ofBits (F := Ideal) .f32 0x00000000#32)))
      = residual a ms s b h := by
  funext i
  obtain ⟨p, q, rfl⟩ : ∃ (p : Fin M) (q : Fin N), i = ix2 p q := ⟨i 0, i 1, eq_ix2 i⟩
  show h (ix2 p q) + max ((a (ix2 p q) + ms (ix2 p q)) * broadcastTo ⟨2, ![M, N]⟩ s hs (ix2 p q)
        + broadcastTo ⟨2, ![M, N]⟩ b hb (ix2 p q)) (Ideal.ofBits .f32 0x00000000#32)
      = h (ix2 p q) + max ((a (ix2 p q) + ms (ix2 p q)) * s (ix2 p (0 : Fin 1)) + b (ix2 (0 : Fin 1) q)) 0
  rw [Cert.LibKeepdims.broadcastTo_a1_ab_apply s hs p q, broadcastTo_1b_ab_apply b hb p q, Ideal.ofBits_zero_f32]

/-- The stored value, over any loaded blocks: the residual update of the band (widening the own messages to the wider
    format is the identity on extended reals). -/
theorem pay1_eq (x0 : Vec Ideal S2000x192 .f32) (x1 : Vec Ideal S2000x192 .bf16) (x2 : Vec Ideal S2000x1 .f32)
    (x3 : Vec Ideal S1x192 .f32) (x4 : Vec Ideal S2000x192 .f32) :
    k5_pay1 (F := Ideal) x0 x1 x2 x3 x4 = residual x0 x1 x2 x3 x4 := by
  unfold k5_pay1
  simp only [shapeCast_self]
  exact residual_ops (M := 2000) (N := 192) x0 (extf .f32 x1 bitsLt_bf16_f32) x4 x2 x3 broadcasts_S2000x1_S2000x192
    broadcasts_S1x192_S2000x192

/-- What the body leaves in the result's buffer, over any loaded blocks. -/
theorem out_eq (x0 : Vec Ideal S2000x192 .f32) (x1 : Vec Ideal S2000x192 .bf16) (x2 : Vec Ideal S2000x1 .f32)
    (x3 : Vec Ideal S1x192 .f32) (x4 : Vec Ideal S2000x192 .f32) :
    out5_5 (F := Ideal) x0 x1 x2 x3 x4 = residual x0 x1 x2 x3 x4 := by
  unfold out5_5
  rw [View.canon_unit_zero hz]
  simp only [View.ld_unit_zero (S := S2000x192) hz, View.ld_unit_zero (S := S2000x1) hz, View.ld_unit_zero (S := S1x192) hz]
  exact pay1_eq x0 x1 x2 x3 x4

/-- The printed index maps over the 25 grid points: the row-wise windows and the result move one band per point, the
    bias row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem band_le (t : Fin cfg5.N) : 2000 * t.val + 2000 ≤ 50000 := by
  have h : t.val < cfg5.N := t.isLt
  have hN : cfg5.N = 25 := N_5
  omega

/-- The aggregated-message window's block at point `t` is band `t` of its array. -/
theorem iblk_0 (c : Dev nD) (t : Fin cfg5.N) :
    (iblk5 (F := Ideal) V c 0 t : Vec Ideal S2000x192 .f32)
      = rowsFrom 2000 (2000 * t.val) (band_le t) (V c main_v81 : Arr 50000 192) := by
  obtain ⟨e0, e1, -⟩ := idx_facts t
  funext j
  show V c main_v81 (((cfg5.win 0).blk t).view.emb j) = V c main_v81 _
  refine congrArg (V c main_v81) ?_
  funext a
  apply Fin.ext
  match a with
  | ⟨0, _⟩ => show win5_0.index t (0 : Fin 2) * 2000 + 1 * (j 0).val = 2000 * t.val + (j 0).val; rw [e0]; omega
  | ⟨1, _⟩ => show win5_0.index t (1 : Fin 2) * 192 + 1 * (j 1).val = (j 1).val; rw [e1]; omega

/-- The own-message window's block at point `t` is band `t` of its array. -/
theorem iblk_1 (c : Dev nD) (t : Fin cfg5.N) :
    (iblk5 (F := Ideal) V c 1 t : Vec Ideal S2000x192 .bf16)
      = rowsFrom 2000 (2000 * t.val) (band_le t) (V c main_v70_1 : Arr 50000 192) := by
  obtain ⟨-, -, e0, e1, -⟩ := idx_facts t
  funext j
  show V c main_v70_1 (((cfg5.win 1).blk t).view.emb j) = V c main_v70_1 _
  refine congrArg (V c main_v70_1) ?_
  funext a
  apply Fin.ext
  match a with
  | ⟨0, _⟩ => show win5_1.index t (0 : Fin 2) * 2000 + 1 * (j 0).val = 2000 * t.val + (j 0).val; rw [e0]; omega
  | ⟨1, _⟩ => show win5_1.index t (1 : Fin 2) * 192 + 1 * (j 1).val = (j 1).val; rw [e1]; omega

/-- The factor window's block at point `t` is band `t` of its array. -/
theorem iblk_2 (c : Dev nD) (t : Fin cfg5.N) :
    (iblk5 (F := Ideal) V c 2 t : Vec Ideal S2000x1 .f32)
      = rowsFrom 2000 (2000 * t.val) (band_le t) (V c main_v14 : Arr 50000 1) := by
  obtain ⟨-, -, -, -, e0, e1, -⟩ := idx_facts t
  funext j
  show V c main_v14 (((cfg5.win 2).blk t).view.emb j) = V c main_v14 _
  refine congrArg (V c main_v14) ?_
  funext a
  apply Fin.ext
  match a with
  | ⟨0, _⟩ => show win5_2.index t (0 : Fin 2) * 2000 + 1 * (j 0).val = 2000 * t.val + (j 0).val; rw [e0]; omega
  | ⟨1, _⟩ => show win5_2.index t (1 : Fin 2) * 1 + 1 * (j 1).val = (j 1).val; rw [e1]; omega

/-- The bias window's block is the whole bias array at every point. -/
theorem iblk_3 (c : Dev nD) (t : Fin cfg5.N) :
    (iblk5 (F := Ideal) V c 3 t : Vec Ideal S1x192 .f32) = (V c main_v84 : Arr 1 192) := by
  obtain ⟨-, -, -, -, -, -, e0, e1, -⟩ := idx_facts t
  funext j
  show V c main_v84 (((cfg5.win 3).blk t).view.emb j) = V c main_v84 j
  refine congrArg (V c main_v84) ?_
  funext a
  apply Fin.ext
  match a with
  | ⟨0, _⟩ => show win5_3.index t (0 : Fin 2) * 1 + 1 * (j 0).val = (j 0).val; rw [e0]; omega
  | ⟨1, _⟩ => show win5_3.index t (1 : Fin 2) * 192 + 1 * (j 1).val = (j 1).val; rw [e1]; omega

/-- The feature window's block at point `t` is band `t` of its array. -/
theorem iblk_4 (c : Dev nD) (t : Fin cfg5.N) :
    (iblk5 (F := Ideal) V c 4 t : Vec Ideal S2000x192 .f32)
      = rowsFrom 2000 (2000 * t.val) (band_le t) (V c main_v70_0 : Arr 50000 192) := by
  obtain ⟨-, -, -, -, -, -, -, -, e0, e1, -⟩ := idx_facts t
  funext j
  show V c main_v70_0 (((cfg5.win 4).blk t).view.emb j) = V c main_v70_0 _
  refine congrArg (V c main_v70_0) ?_
  funext a
  apply Fin.ext
  match a with
  | ⟨0, _⟩ => show win5_4.index t (0 : Fin 2) * 2000 + 1 * (j 0).val = 2000 * t.val + (j 0).val; rw [e0]; omega
  | ⟨1, _⟩ => show win5_4.index t (1 : Fin 2) * 192 + 1 * (j 1).val = (j 1).val; rw [e1]; omega

/-- WHAT POINT `t` WRITES BACK is block `t` of the residual update of the whole arrays. -/
theorem flushed_eq (c : Dev nD) (t : Fin cfg5.N) :
    (dat5 (F := Ideal) V c).flushed 5 t
      = ((cfg5.win 5).blk t).view.read (Elt Ideal)
          (residual (V c main_v81 : Arr 50000 192) (V c main_v70_1 : Arr 50000 192) (V c main_v14 : Arr 50000 1) (V c main_v84 : Arr 1 192) (V c main_v70_0 : Arr 50000 192)) := by
  show (cfg5.win 5).cut (grid5.coords t) ((dat5 V c).after 5 t) = _
  rw [after5_5, out_eq (iblk5 V c 0 t) (iblk5 V c 1 t) (iblk5 V c 2 t) (iblk5 V c 3 t) (iblk5 V c 4 t),
    iblk_0 V c t, iblk_1 V c t, iblk_2 V c t, iblk_3 V c t, iblk_4 V c t,
    residual_rows]
  obtain ⟨-, -, -, -, -, -, -, -, -, -, e0, e1⟩ := idx_facts t
  funext j
  show rowsFrom 2000 (2000 * t.val) (band_le t) (residual (V c main_v81 : Arr 50000 192) (V c main_v70_1 : Arr 50000 192) (V c main_v14 : Arr 50000 1) (V c main_v84 : Arr 1 192) (V c main_v70_0 : Arr 50000 192)) j
    = (residual (V c main_v81 : Arr 50000 192) (V c main_v70_1 : Arr 50000 192) (V c main_v14 : Arr 50000 1) (V c main_v84 : Arr 1 192) (V c main_v70_0 : Arr 50000 192)) (((cfg5.win 5).blk t).view.emb j)
  unfold rowsFrom
  refine congrArg (residual (V c main_v81 : Arr 50000 192) (V c main_v70_1 : Arr 50000 192) (V c main_v14 : Arr 50000 1) (V c main_v84 : Arr 1 192) (V c main_v70_0 : Arr 50000 192)) ?_
  funext a
  apply Fin.ext
  match a with
  | ⟨0, _⟩ => show 2000 * t.val + (j 0).val = win5_5.index t (0 : Fin 2) * 2000 + 1 * (j 0).val; rw [e0]; omega
  | ⟨1, _⟩ => show (j 1).val = win5_5.index t (1 : Fin 2) * 192 + 1 * (j 1).val; rw [e1]; omega

/-- An index of the result array is in point `t`'s block iff each coordinate is in the block's range on its axis. -/
theorem mem_blk (t : Fin cfg5.N) (i : S50000x192.Idx) :
    i ∈ ((cfg5.win 5).blk t).view.set ↔ ∀ a : Fin 2, win5_5.index t a * S2000x192.size a ≤ (i a).val
      ∧ (i a).val < win5_5.index t a * S2000x192.size a + S2000x192.size a := by
  show i ∈ ((View.whole main_v85).slice (win5_5.rect t)).set ↔ _
  rw [View.set_slice_whole, Rect.mem_set_unit]
  exact Iff.rfl

/-- Row `r` of the result is written by the point `r / 2000`: the 25 bands tile the array. -/
theorem covered (i : S50000x192.Idx) :
    ∃ t : Fin cfg5.N, (cfg5.win 5).flush t = true ∧ i ∈ ((cfg5.win 5).blk t).view.set := by
  have hi0 : (i 0).val < 50000 := (i 0).isLt
  have hi1 : (i 1).val < 192 := (i 1).isLt
  have hN : cfg5.N = 25 := N_5
  have ht : (i 0).val / 2000 < cfg5.N := by rw [hN]; omega
  obtain ⟨-, -, -, -, -, -, -, -, -, -, e0, e1⟩ := idx_facts ⟨(i 0).val / 2000, ht⟩
  refine ⟨⟨(i 0).val / 2000, ht⟩, flush5_5 _, ?_⟩
  rw [mem_blk]
  intro a
  match a with
  | ⟨0, _⟩ =>
    show win5_5.index ⟨(i 0).val / 2000, ht⟩ (0 : Fin 2) * 2000 ≤ (i 0).val
      ∧ (i 0).val < win5_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ (1 : Fin 2) * 192 ≤ (i 1).val
      ∧ (i 1).val < win5_5.index ⟨(i 0).val / 2000, ht⟩ (1 : Fin 2) * 192 + 192
    rw [e1]; omega

/-- THE RESULT ARRAY after the region: the updated features, whatever the array held before. -/
theorem final5 (c : Dev nD) :
    (dat5 (F := Ideal) V c).arrAt 5 cfg5.N
      = residual (V c main_v81 : Arr 50000 192) (V c main_v70_1 : Arr 50000 192) (V c main_v14 : Arr 50000 1) (V c main_v84 : Arr 1 192) (V c main_v70_0 : Arr 50000 192) :=
  (dat5 V c).arrAt_eq_of_cover 5 _ (fun t _ => flushed_eq V c t) covered

end Cert.KernelIdeal.Region5

end
-- ==== Proof.Region6Pay.lean ====
/-
  What the read-out region's body computes from the blocks it loads, as the specification's functions.

  The body has three strands.  The position head is three dense layers `192 → 192 → 96 → 2`, the first two clamped at
  zero.  The radius head is a clamped dense layer `192 → 96`, a plain one `96 → 1` and the logistic function.  The
  last strand divides each position by `sqrt (x² + y² + ε)` of its own row and multiplies it by the row's radius: the
  two squares are summed over the lane axis, the sum is laid out as a column, `ε` is added, the root is taken, and the
  column is spread back over the two lanes; the radius column is spread the same way.

  Every dense layer is a matrix product into a zero accumulator plus a bias row spread over the rows, so it is
  `addRow (project · w) b`, clamped or not.  Rounding an operand to a narrower format is the identity on extended
  reals, and a cast to the same shape is the identity.  The constant `ε` is the same word on both sides and is never
  evaluated.
-/
import proofs.«181823_j62440234549671_2_alg».proof.Proof.Gen.KernelIdeal.Skeleton
import proofs.«181823_j62440234549671_2_alg».proof.Proof.Spec
import proofs.«181823_j62440234549671_2_alg».proof.Proof.LibKernelDense
import proofs.«181823_j62440234549671_2_alg».proof.Proof.LibKeepdims
import Idealize.ShloMosaic.Lib.Pipeline.Value

set_option maxRecDepth 16384

noncomputable section

open Idealize.ShloMosaic Idealize.ShloMosaic.ValueIdx Idealize.SL.Sem

namespace Cert.KernelIdeal.Region6

open Cert.KernelIdeal Cert.KernelIdeal.Gen Cert.Spec Cert.Layers

/-! ## Small general facts -/

/-- A bias row spread over the rows and added, then the clamp at a splat zero, is `addRowClamp`. -/
theorem bias_clamp_eq {M N : Nat} (a : FVec Ideal ⟨2, ![M, N]⟩ .f32) (b : FVec Ideal ⟨2, ![1, N]⟩ .f32)
    (hb : (⟨2, ![1, N]⟩ : Shape).Broadcasts ⟨2, ![M, N]⟩) :
    maximumf (addf a (broadcastTo ⟨2, ![M, N]⟩ b hb)) (broadcast ⟨2, ![M, N]⟩ (Scalar.ofBits (F := Ideal) .f32 0x00000000#32))
      = addRowClamp a b := by
  funext i
  obtain ⟨p, q, rfl⟩ : ∃ (p : Fin M) (q : Fin N), i = ix2 p q := ⟨i 0, i 1, eq_ix2 i⟩
  show max (a (ix2 p q) + broadcastTo ⟨2, ![M, N]⟩ b hb (ix2 p q)) (Ideal.ofBits .f32 0x00000000#32)
    = max (a (ix2 p q) + b (ix2 (0 : Fin 1) q)) 0
  rw [broadcastTo_1b_ab_apply b hb p q, Ideal.ofBits_zero_f32]

/-- The sum of a two-lane row over its lane axis, read at row `p`: the two entries of that row added. -/
theorem laneSum_apply (v : FVec Ideal S2000x2 .f32) (h : S2000x2.Reduces [1] S2000) (hφ : FKind.Formats .f32)
    (hacc : (0x00000000#32 : BitVec 32) = FKind.add.neutral .f32 hφ) (p : Fin 2000) :
    multiReduction (F := Ideal) .add [1] S2000 v 0x00000000#32 h hφ hacc (ix1 p) = ∑ k : Fin 2, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-! ## The position head -/

/-- The features enter the first layers unchanged: a cast to the same shape and a rounding. -/
theorem feat_eq (v0 : Vec Ideal S2000x192 .f32) : (k6_pay2 (F := Ideal) v0 : Arr 2000 192) = v0 := by
  unfold k6_pay2
  rw [shapeCast_self]
  rfl

/-- Three dense layers, the first two clamped at zero. -/
theorem position_eq (v0 : Vec Ideal S2000x192 .f32) (v3 : Vec Ideal S192x192 .f32) (v6 : Vec Ideal S1x192 .f32)
    (v13 : Vec Ideal S192x96 .f32) (v16 : Vec Ideal S1x96 .f32) (v23 : Vec Ideal S96x2 .f32) (v26 : Vec Ideal S1x2 .f32) :
    k6_pay3 (F := Ideal) v0 v3 v6 v13 v16 v23 v26 = position v0 v3 v6 v13 v16 v23 v26 := by
  unfold k6_pay3 position
  simp only [shapeCast_self]
  refine (Cert.Lib.matmul_bias_eq_addRow (M := 2000) (K := 96) (N := 2) (φ₁ := .bf16) (φ₂ := .bf16)
    dot_S2000x96_S96x2_S2000x2_1_0_0_1_n_n rfl none _ _ v26 broadcasts_S1x2_S2000x2).trans ?_
  refine congrArg (fun a : Arr 2000 96 => addRow (project a v23) v26) ?_
  refine (Cert.Lib.matmul_bias_clamp_eq_addRowClamp (M := 2000) (K := 192) (N := 96) (φ₁ := .bf16) (φ₂ := .bf16)
    dot_S2000x192_S192x96_S2000x96_1_0_0_1_n_n rfl none _ _ v16 broadcasts_S1x96_S2000x96).trans ?_
  refine congrArg (fun a : Arr 2000 192 => addRowClamp (project a v13) v16) ?_
  refine (Cert.Lib.matmul_bias_clamp_eq_addRowClamp (M := 2000) (K := 192) (N := 192) (φ₁ := .bf16) (φ₂ := .bf16)
    dot_S2000x192_S192x192_S2000x192_1_0_0_1_n_n rfl none _ _ v6 broadcasts_S1x192_S2000x192).trans ?_
  exact congrArg (fun a : Arr 2000 192 => addRowClamp (project a v3) v6) (feat_eq v0)

/-! ## The radius head -/

/-- Its first product, before the bias: the features times the first weights. -/
theorem radiusProduct_eq (v0 : Vec Ideal S2000x192 .f32) (v30 : Vec Ideal S192x96 .f32) :
    k6_pay4 (F := Ideal) v0 v30 = project v0 v30 := by
  unfold k6_pay4 k6_pay2
  simp only [shapeCast_self]
  funext i
  obtain ⟨p, q, rfl⟩ : ∃ (p : Fin 2000) (q : Fin 96), i = ix2 p q := ⟨i 0, i 1, eq_ix2 i⟩
  exact Cert.Lib.matmul_plain_zero_apply (M := 2000) (K := 192) (N := 96) (φ₁ := .bf16) (φ₂ := .bf16) none
    (truncf .bf16 v0 bitsLt_bf16_f32) (truncf .bf16 v30 bitsLt_bf16_f32) p q

/-- Its first bias row enters unchanged. -/
theorem radiusBias_eq (v33 : Vec Ideal S1x96 .f32) : k6_pay5 (F := Ideal) v33 = v33 := by
  unfold k6_pay5
  exact shapeCast_self _ _

/-- The radius head before the logistic function, as the body computes it from the first product `u`: the bias row
    and the clamp, then the second dense layer. -/
def radiusPre (u : FVec Ideal S2000x96 .f32) (b1 : FVec Ideal S1x96 .f32) (w2 : Vec Ideal S96x1 .f32) (b2 : Vec Ideal S1x1 .f32) :
    FVec Ideal S2000x1 .f32 :=
  addf (matmul dot_S2000x96_S96x1_S2000x1_1_0_0_1_n_n none
      (truncf .bf16 (maximumf (addf u (broadcastTo S2000x96 b1 broadcasts_S1x96_S2000x96))
        (broadcast S2000x96 (Scalar.ofBits (F := Ideal) .f32 0x00000000#32))) bitsLt_bf16_f32)
      (truncf .bf16 w2 bitsLt_bf16_f32) (constant (F := Ideal) S2000x1 .f32 0x00000000#32))
    (broadcastTo S2000x1 (shapeCast S1x1 b2 shapeCasts_S1x1_S1x1) broadcasts_S1x1_S2000x1)

theorem radiusPre_eq (u : FVec Ideal S2000x96 .f32) (b1 : FVec Ideal S1x96 .f32) (w2 : Vec Ideal S96x1 .f32) (b2 : Vec Ideal S1x1 .f32) :
    radiusPre u b1 w2 b2 = addRow (project (addRowClamp u b1) w2) b2 := by
  unfold radiusPre
  rw [shapeCast_self]
  refine (Cert.Lib.matmul_bias_eq_addRow (M := 2000) (K := 96) (N := 1) (φ₁ := .bf16) (φ₂ := .bf16)
    dot_S2000x96_S96x1_S2000x1_1_0_0_1_n_n rfl none _ _ b2 broadcasts_S1x1_S2000x1).trans ?_
  exact congrArg (fun a : Arr 2000 96 => addRow (project a w2) b2) (bias_clamp_eq u b1 broadcasts_S1x96_S2000x96)

/-! ## The normalisation -/

/-- The column `sqrt (x² + y² + ε)` as the body computes it: the squares summed over the lane axis, the sums laid out
    as a column, the constant added, the root taken. -/
def rowNorm (pos : FVec Ideal S2000x2 .f32) : FVec Ideal S2000x1 .f32 :=
  sqrt (addf (shapeCast S2000x1 (multiReduction .add [1] S2000 (mulf pos pos) 0x00000000#32 reduces_S2000x2_S2000 (.inl rfl) rfl)
      shapeCasts_S2000_S2000x1)
    (broadcast S2000x1 (Scalar.ofBits (F := Ideal) .f32 0x322BCC77#32)))

theorem rowNorm_apply (pos : FVec Ideal S2000x2 .f32) (p : Fin 2000) (u : Fin 1) :
    rowNorm pos (ix2 p u) = Ideal.sqrt ((∑ q : Fin 2, pos (ix2 p q) * pos (ix2 p q)) + eps) := by
  show Ideal.sqrt (shapeCast S2000x1 (multiReduction (F := Ideal) .add [1] S2000 (mulf pos pos) 0x00000000#32
      reduces_S2000x2_S2000 (.inl rfl) rfl) shapeCasts_S2000_S2000x1 (ix2 p u) + Ideal.ofBits .f32 0x322BCC77#32)
    = Ideal.sqrt ((∑ q : Fin 2, pos (ix2 p q) * pos (ix2 p q)) + eps)
  refine congrArg (fun s : EReal => Ideal.sqrt (s + Ideal.ofBits .f32 0x322BCC77#32)) ?_
  refine (Cert.LibKeepdims.shapeCast_a_a1_apply _ shapeCasts_S2000_S2000x1 p u).trans ?_
  exact laneSum_apply (mulf pos pos) reduces_S2000x2_S2000 (.inl rfl) rfl p

/-- A quotient by one column spread over the lanes, times another spread column, read at `(p, q)`: both columns are
    read at row `p`. -/
theorem quot_mul_apply (pos : FVec Ideal S2000x2 .f32) (n r : FVec Ideal S2000x1 .f32) (p : Fin 2000) (q : Fin 2) :
    mulf (divf pos (broadcastTo S2000x2 n broadcasts_S2000x1_S2000x2)) (broadcastTo S2000x2 r broadcasts_S2000x1_S2000x2) (ix2 p q)
      = Ideal.div (pos (ix2 p q)) (n (ix2 p (0 : Fin 1))) * r (ix2 p (0 : Fin 1)) := by
  show Ideal.div (pos (ix2 p q)) (broadcastTo S2000x2 n broadcasts_S2000x1_S2000x2 (ix2 p q))
      * broadcastTo S2000x2 r broadcasts_S2000x1_S2000x2 (ix2 p q) = _
  rw [Cert.LibKeepdims.broadcastTo_a1_ab_apply n broadcasts_S2000x1_S2000x2 p q,
    Cert.LibKeepdims.broadcastTo_a1_ab_apply r broadcasts_S2000x1_S2000x2 p q]

/-- The body's last value is the quotient by the spread norm column times the spread logistic column. -/
theorem pay1_split (v29 : FVec Ideal S2000x2 .f32) (v32 : FVec Ideal S2000x96 .f32) (v34 : FVec Ideal S1x96 .f32)
    (v40 : Vec Ideal S96x1 .f32) (v43 : Vec Ideal S1x1 .f32) :
    k6_pay1 (F := Ideal) v29 v32 v34 v40 v43
      = mulf (divf v29 (broadcastTo S2000x2 (rowNorm v29) broadcasts_S2000x1_S2000x2))
          (broadcastTo S2000x2 (logistic (radiusPre v32 v34 v40 v43)) broadcasts_S2000x1_S2000x2) := rfl

/-- So it is the normalisation of the positions by the radius head's column. -/
theorem circle_eq (v29 : FVec Ideal S2000x2 .f32) (v32 : FVec Ideal S2000x96 .f32) (v34 : FVec Ideal S1x96 .f32)
    (v40 : Vec Ideal S96x1 .f32) (v43 : Vec Ideal S1x1 .f32) :
    k6_pay1 (F := Ideal) v29 v32 v34 v40 v43
      = onCircle v29 (fun i => Ideal.logistic (addRow (project (addRowClamp v32 v34) v40) v43 i)) eps := by
  rw [pay1_split, radiusPre_eq]
  funext i
  obtain ⟨p, q, rfl⟩ : ∃ (p : Fin 2000) (q : Fin 2), i = ix2 p q := ⟨i 0, i 1, eq_ix2 i⟩
  refine (quot_mul_apply v29 (rowNorm v29) _ p q).trans ?_
  rw [rowNorm_apply]
  rfl

/-! ## The whole body -/

/-- The value the body stores, over any eleven loaded blocks, is the read-out of those blocks. -/
theorem body_eq (x0 : Vec Ideal S2000x192 .f32) (x1 : Vec Ideal S192x192 .f32) (x2 : Vec Ideal S1x192 .f32)
    (x3 : Vec Ideal S192x96 .f32) (x4 : Vec Ideal S1x96 .f32) (x5 : Vec Ideal S96x2 .f32) (x6 : Vec Ideal S1x2 .f32)
    (x7 : Vec Ideal S192x96 .f32) (x8 : Vec Ideal S1x96 .f32) (x9 : Vec Ideal S96x1 .f32) (x10 : Vec Ideal S1x1 .f32) :
    k6_pay1 (F := Ideal) (k6_pay3 x0 x1 x2 x3 x4 x5 x6) (k6_pay4 x0 x7) (k6_pay5 x8) x9 x10
      = readout x0 x1 x2 x3 x4 x5 x6 x7 x8 x9 x10 eps := by
  rw [circle_eq, position_eq, radiusProduct_eq, radiusBias_eq]
  rfl

end Cert.KernelIdeal.Region6

end
-- ==== Proof.Region6.lean ====
/-
  Region 6, the two read-out heads and the normalisation, as one function of the arrays it finds.

  The region walks the 50000 node rows in 25 bands of 2000.  At band `t` it loads rows `2000 t … 2000 t + 1999` of the
  node features and the whole of the ten weight and bias arrays, computes both heads and the normalisation for those
  rows, and writes the band back to the same rows of the result.  Row `r` of the read-out depends only on row `r` of the
  features (and on all the weights), so the read-out of a band of rows is the band of the read-out; the 25 bands tile the
  result, so the result array ends holding the read-out of the whole feature array.
-/
import proofs.«181823_j62440234549671_2_alg».proof.Proof.Gen.KernelIdeal.Frame
import proofs.«181823_j62440234549671_2_alg».proof.Proof.Spec
import proofs.«181823_j62440234549671_2_alg».proof.Proof.Region6Pay
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region6

open Cert.KernelIdeal Cert.KernelIdeal.Gen Cert.Spec Cert.Layers

variable (V : (c : Dev nD) → (b : Ref sig .tc) → Buf (Elt Ideal) ((c : Thread nD τ).loc b))

theorem hz : (![0, 0] : Fin 2 → Nat) = fun _ => 0 := funext fun a => by fin_cases a <;> rfl

/-- What the body stores, over any eleven loaded blocks: the read-out of those blocks (each whole block is loaded
    once and the one store covers the whole output block). -/
theorem out_eq (x0 : Vec Ideal S2000x192 .f32) (x1 : Vec Ideal S192x192 .f32) (x2 : Vec Ideal S1x192 .f32)
    (x3 : Vec Ideal S192x96 .f32) (x4 : Vec Ideal S1x96 .f32) (x5 : Vec Ideal S96x2 .f32) (x6 : Vec Ideal S1x2 .f32)
    (x7 : Vec Ideal S192x96 .f32) (x8 : Vec Ideal S1x96 .f32) (x9 : Vec Ideal S96x1 .f32) (x10 : Vec Ideal S1x1 .f32) :
    out6_11 (F := Ideal) x0 x1 x2 x3 x4 x5 x6 x7 x8 x9 x10 = readout x0 x1 x2 x3 x4 x5 x6 x7 x8 x9 x10 eps := by
  unfold out6_11
  rw [View.canon_unit_zero hz]
  simp only [View.ld_unit_zero (S := S2000x192) hz, View.ld_unit_zero (S := S192x192) hz, View.ld_unit_zero (S := S1x192) hz,
    View.ld_unit_zero (S := S192x96) hz, View.ld_unit_zero (S := S1x96) hz, View.ld_unit_zero (S := S96x2) hz,
    View.ld_unit_zero (S := S1x2) hz, View.ld_unit_zero (S := S96x1) hz, View.ld_unit_zero (S := S1x1) hz]
  exact body_eq x0 x1 x2 x3 x4 x5 x6 x7 x8 x9 x10

/-! ## The printed index maps over the 25 grid points

The feature and result windows move one band per point; the ten weight and bias windows stay. -/

theorem idx_0 : ∀ t : Fin cfg6.N, win6_0.index t (0 : Fin 2) = t.val ∧ win6_0.index t (1 : Fin 2) = 0 :=
  (by decide +kernel : ∀ t : Fin grid6.N, _)
theorem idx_1 : ∀ t : Fin cfg6.N, win6_1.index t (0 : Fin 2) = 0 ∧ win6_1.index t (1 : Fin 2) = 0 :=
  (by decide +kernel : ∀ t : Fin grid6.N, _)
theorem idx_2 : ∀ t : Fin cfg6.N, win6_2.index t (0 : Fin 2) = 0 ∧ win6_2.index t (1 : Fin 2) = 0 :=
  (by decide +kernel : ∀ t : Fin grid6.N, _)
theorem idx_3 : ∀ t : Fin cfg6.N, win6_3.index t (0 : Fin 2) = 0 ∧ win6_3.index t (1 : Fin 2) = 0 :=
  (by decide +kernel : ∀ t : Fin grid6.N, _)
theorem idx_4 : ∀ t : Fin cfg6.N, win6_4.index t (0 : Fin 2) = 0 ∧ win6_4.index t (1 : Fin 2) = 0 :=
  (by decide +kernel : ∀ t : Fin grid6.N, _)
theorem idx_5 : ∀ t : Fin cfg6.N, win6_5.index t (0 : Fin 2) = 0 ∧ win6_5.index t (1 : Fin 2) = 0 :=
  (by decide +kernel : ∀ t : Fin grid6.N, _)
theorem idx_6 : ∀ t : Fin cfg6.N, win6_6.index t (0 : Fin 2) = 0 ∧ win6_6.index t (1 : Fin 2) = 0 :=
  (by decide +kernel : ∀ t : Fin grid6.N, _)
theorem idx_7 : ∀ t : Fin cfg6.N, win6_7.index t (0 : Fin 2) = 0 ∧ win6_7.index t (1 : Fin 2) = 0 :=
  (by decide +kernel : ∀ t : Fin grid6.N, _)
theorem idx_8 : ∀ t : Fin cfg6.N, win6_8.index t (0 : Fin 2) = 0 ∧ win6_8.index t (1 : Fin 2) = 0 :=
  (by decide +kernel : ∀ t : Fin grid6.N, _)
theorem idx_9 : ∀ t : Fin cfg6.N, win6_9.index t (0 : Fin 2) = 0 ∧ win6_9.index t (1 : Fin 2) = 0 :=
  (by decide +kernel : ∀ t : Fin grid6.N, _)
theorem idx_10 : ∀ t : Fin cfg6.N, win6_10.index t (0 : Fin 2) = 0 ∧ win6_10.index t (1 : Fin 2) = 0 :=
  (by decide +kernel : ∀ t : Fin grid6.N, _)
theorem idx_11 : ∀ t : Fin cfg6.N, win6_11.index t (0 : Fin 2) = t.val ∧ win6_11.index t (1 : Fin 2) = 0 :=
  (by decide +kernel : ∀ t : Fin grid6.N, _)

theorem band_le (t : Fin cfg6.N) : 2000 * t.val + 2000 ≤ 50000 := by
  have h : t.val < cfg6.N := t.isLt
  have hN : cfg6.N = 25 := N_6
  omega

/-! ## Each window's block at a point -/

/-- The feature window's block at point `t` is band `t` of the feature array. -/
theorem iblk_0 (c : Dev nD) (t : Fin cfg6.N) :
    (iblk6 (F := Ideal) V c 0 t : Vec Ideal S2000x192 .f32)
      = rowsFrom 2000 (2000 * t.val) (band_le t) (V c main_v85 : Arr 50000 192) := by
  obtain ⟨e0, e1⟩ := idx_0 t
  funext j
  show V c main_v85 (((cfg6.win 0).blk t).view.emb j) = V c main_v85 _
  refine congrArg (V c main_v85) ?_
  funext a
  apply Fin.ext
  match a with
  | ⟨0, _⟩ => show win6_0.index t (0 : Fin 2) * 2000 + 1 * (j 0).val = 2000 * t.val + (j 0).val; rw [e0]; omega
  | ⟨1, _⟩ => show win6_0.index t (1 : Fin 2) * 192 + 1 * (j 1).val = (j 1).val; rw [e1]; omega

/-- The first position weights: the window's block is its whole array at every point. -/
theorem iblk_1 (c : Dev nD) (t : Fin cfg6.N) :
    (iblk6 (F := Ideal) V c 1 t : Vec Ideal S192x192 .f32) = (V c main_arg6 : Arr 192 192) := by
  obtain ⟨e0, e1⟩ := idx_1 t
  funext j
  show V c main_arg6 (((cfg6.win 1).blk t).view.emb j) = V c main_arg6 j
  refine congrArg (V c main_arg6) ?_
  funext a
  apply Fin.ext
  match a with
  | ⟨0, _⟩ => show win6_1.index t (0 : Fin 2) * 192 + 1 * (j 0).val = (j 0).val; rw [e0]; omega
  | ⟨1, _⟩ => show win6_1.index t (1 : Fin 2) * 192 + 1 * (j 1).val = (j 1).val; rw [e1]; omega

/-- The first position bias row: the window's block is its whole array at every point. -/
theorem iblk_2 (c : Dev nD) (t : Fin cfg6.N) :
    (iblk6 (F := Ideal) V c 2 t : Vec Ideal S1x192 .f32) = (V c main_v86 : Arr 1 192) := by
  obtain ⟨e0, e1⟩ := idx_2 t
  funext j
  show V c main_v86 (((cfg6.win 2).blk t).view.emb j) = V c main_v86 j
  refine congrArg (V c main_v86) ?_
  funext a
  apply Fin.ext
  match a with
  | ⟨0, _⟩ => show win6_2.index t (0 : Fin 2) * 1 + 1 * (j 0).val = (j 0).val; rw [e0]; omega
  | ⟨1, _⟩ => show win6_2.index t (1 : Fin 2) * 192 + 1 * (j 1).val = (j 1).val; rw [e1]; omega

/-- The second position weights: the window's block is its whole array at every point. -/
theorem iblk_3 (c : Dev nD) (t : Fin cfg6.N) :
    (iblk6 (F := Ideal) V c 3 t : Vec Ideal S192x96 .f32) = (V c main_arg8 : Arr 192 96) := by
  obtain ⟨e0, e1⟩ := idx_3 t
  funext j
  show V c main_arg8 (((cfg6.win 3).blk t).view.emb j) = V c main_arg8 j
  refine congrArg (V c main_arg8) ?_
  funext a
  apply Fin.ext
  match a with
  | ⟨0, _⟩ => show win6_3.index t (0 : Fin 2) * 192 + 1 * (j 0).val = (j 0).val; rw [e0]; omega
  | ⟨1, _⟩ => show win6_3.index t (1 : Fin 2) * 96 + 1 * (j 1).val = (j 1).val; rw [e1]; omega

/-- The second position bias row: the window's block is its whole array at every point. -/
theorem iblk_4 (c : Dev nD) (t : Fin cfg6.N) :
    (iblk6 (F := Ideal) V c 4 t : Vec Ideal S1x96 .f32) = (V c main_v87 : Arr 1 96) := by
  obtain ⟨e0, e1⟩ := idx_4 t
  funext j
  show V c main_v87 (((cfg6.win 4).blk t).view.emb j) = V c main_v87 j
  refine congrArg (V c main_v87) ?_
  funext a
  apply Fin.ext
  match a with
  | ⟨0, _⟩ => show win6_4.index t (0 : Fin 2) * 1 + 1 * (j 0).val = (j 0).val; rw [e0]; omega
  | ⟨1, _⟩ => show win6_4.index t (1 : Fin 2) * 96 + 1 * (j 1).val = (j 1).val; rw [e1]; omega

/-- The third position weights: the window's block is its whole array at every point. -/
theorem iblk_5 (c : Dev nD) (t : Fin cfg6.N) :
    (iblk6 (F := Ideal) V c 5 t : Vec Ideal S96x2 .f32) = (V c main_arg10 : Arr 96 2) := by
  obtain ⟨e0, e1⟩ := idx_5 t
  funext j
  show V c main_arg10 (((cfg6.win 5).blk t).view.emb j) = V c main_arg10 j
  refine congrArg (V c main_arg10) ?_
  funext a
  apply Fin.ext
  match a with
  | ⟨0, _⟩ => show win6_5.index t (0 : Fin 2) * 96 + 1 * (j 0).val = (j 0).val; rw [e0]; omega
  | ⟨1, _⟩ => show win6_5.index t (1 : Fin 2) * 2 + 1 * (j 1).val = (j 1).val; rw [e1]; omega

/-- The third position bias row: the window's block is its whole array at every point. -/
theorem iblk_6 (c : Dev nD) (t : Fin cfg6.N) :
    (iblk6 (F := Ideal) V c 6 t : Vec Ideal S1x2 .f32) = (V c main_v88 : Arr 1 2) := by
  obtain ⟨e0, e1⟩ := idx_6 t
  funext j
  show V c main_v88 (((cfg6.win 6).blk t).view.emb j) = V c main_v88 j
  refine congrArg (V c main_v88) ?_
  funext a
  apply Fin.ext
  match a with
  | ⟨0, _⟩ => show win6_6.index t (0 : Fin 2) * 1 + 1 * (j 0).val = (j 0).val; rw [e0]; omega
  | ⟨1, _⟩ => show win6_6.index t (1 : Fin 2) * 2 + 1 * (j 1).val = (j 1).val; rw [e1]; omega

/-- The first radius weights: the window's block is its whole array at every point. -/
theorem iblk_7 (c : Dev nD) (t : Fin cfg6.N) :
    (iblk6 (F := Ideal) V c 7 t : Vec Ideal S192x96 .f32) = (V c main_arg12 : Arr 192 96) := by
  obtain ⟨e0, e1⟩ := idx_7 t
  funext j
  show V c main_arg12 (((cfg6.win 7).blk t).view.emb j) = V c main_arg12 j
  refine congrArg (V c main_arg12) ?_
  funext a
  apply Fin.ext
  match a with
  | ⟨0, _⟩ => show win6_7.index t (0 : Fin 2) * 192 + 1 * (j 0).val = (j 0).val; rw [e0]; omega
  | ⟨1, _⟩ => show win6_7.index t (1 : Fin 2) * 96 + 1 * (j 1).val = (j 1).val; rw [e1]; omega

/-- The first radius bias row: the window's block is its whole array at every point. -/
theorem iblk_8 (c : Dev nD) (t : Fin cfg6.N) :
    (iblk6 (F := Ideal) V c 8 t : Vec Ideal S1x96 .f32) = (V c main_v89 : Arr 1 96) := by
  obtain ⟨e0, e1⟩ := idx_8 t
  funext j
  show V c main_v89 (((cfg6.win 8).blk t).view.emb j) = V c main_v89 j
  refine congrArg (V c main_v89) ?_
  funext a
  apply Fin.ext
  match a with
  | ⟨0, _⟩ => show win6_8.index t (0 : Fin 2) * 1 + 1 * (j 0).val = (j 0).val; rw [e0]; omega
  | ⟨1, _⟩ => show win6_8.index t (1 : Fin 2) * 96 + 1 * (j 1).val = (j 1).val; rw [e1]; omega

/-- The second radius weights: the window's block is its whole array at every point. -/
theorem iblk_9 (c : Dev nD) (t : Fin cfg6.N) :
    (iblk6 (F := Ideal) V c 9 t : Vec Ideal S96x1 .f32) = (V c main_arg14 : Arr 96 1) := by
  obtain ⟨e0, e1⟩ := idx_9 t
  funext j
  show V c main_arg14 (((cfg6.win 9).blk t).view.emb j) = V c main_arg14 j
  refine congrArg (V c main_arg14) ?_
  funext a
  apply Fin.ext
  match a with
  | ⟨0, _⟩ => show win6_9.index t (0 : Fin 2) * 96 + 1 * (j 0).val = (j 0).val; rw [e0]; omega
  | ⟨1, _⟩ => show win6_9.index t (1 : Fin 2) * 1 + 1 * (j 1).val = (j 1).val; rw [e1]; omega

/-- The second radius bias: the window's block is its whole array at every point. -/
theorem iblk_10 (c : Dev nD) (t : Fin cfg6.N) :
    (iblk6 (F := Ideal) V c 10 t : Vec Ideal S1x1 .f32) = (V c main_v90 : Arr 1 1) := by
  obtain ⟨e0, e1⟩ := idx_10 t
  funext j
  show V c main_v90 (((cfg6.win 10).blk t).view.emb j) = V c main_v90 j
  refine congrArg (V c main_v90) ?_
  funext a
  apply Fin.ext
  match a with
  | ⟨0, _⟩ => show win6_10.index t (0 : Fin 2) * 1 + 1 * (j 0).val = (j 0).val; rw [e0]; omega
  | ⟨1, _⟩ => show win6_10.index t (1 : Fin 2) * 1 + 1 * (j 1).val = (j 1).val; rw [e1]; omega

/-! ## From the bands to the array -/

/-- The read-out of the whole arrays the region finds. -/
abbrev whole (c : Dev nD) : Arr 50000 2 :=
  readout (V c main_v85 : Arr 50000 192) (V c main_arg6 : Arr 192 192) (V c main_v86 : Arr 1 192) (V c main_arg8 : Arr 192 96)
    (V c main_v87 : Arr 1 96) (V c main_arg10 : Arr 96 2) (V c main_v88 : Arr 1 2) (V c main_arg12 : Arr 192 96)
    (V c main_v89 : Arr 1 96) (V c main_arg14 : Arr 96 1) (V c main_v90 : Arr 1 1) eps

/-- WHAT POINT `t` WRITES BACK is block `t` of the read-out of the whole arrays: the read-out of a band of rows is the
    band of the read-out, and the result window's block at `t` is the same band. -/
theorem flushed_eq (c : Dev nD) (t : Fin cfg6.N) :
    (dat6 (F := Ideal) V c).flushed 11 t = ((cfg6.win 11).blk t).view.read (Elt Ideal) (whole V c) := by
  show (cfg6.win 11).cut (grid6.coords t) ((dat6 V c).after 11 t) = _
  rw [after6_11, out_eq (iblk6 V c 0 t) (iblk6 V c 1 t) (iblk6 V c 2 t) (iblk6 V c 3 t) (iblk6 V c 4 t) (iblk6 V c 5 t)
      (iblk6 V c 6 t) (iblk6 V c 7 t) (iblk6 V c 8 t) (iblk6 V c 9 t) (iblk6 V c 10 t),
    iblk_0 V c t, iblk_1 V c t, iblk_2 V c t, iblk_3 V c t, iblk_4 V c t, iblk_5 V c t, iblk_6 V c t, iblk_7 V c t,
    iblk_8 V c t, iblk_9 V c t, iblk_10 V c t, readout_rows]
  obtain ⟨e0, e1⟩ := idx_11 t
  funext j
  show rowsFrom 2000 (2000 * t.val) (band_le t) (whole V c) j = (whole V c) (((cfg6.win 11).blk t).view.emb j)
  unfold rowsFrom
  refine congrArg (whole V c) ?_
  funext a
  apply Fin.ext
  match a with
  | ⟨0, _⟩ => show 2000 * t.val + (j 0).val = win6_11.index t (0 : Fin 2) * 2000 + 1 * (j 0).val; rw [e0]; omega
  | ⟨1, _⟩ => show (j 1).val = win6_11.index t (1 : Fin 2) * 2 + 1 * (j 1).val; rw [e1]; omega

/-- An index of the result array is in point `t`'s block iff each coordinate is in the block's range on its axis. -/
theorem mem_blk (t : Fin cfg6.N) (i : S50000x2.Idx) :
    i ∈ ((cfg6.win 11).blk t).view.set ↔ ∀ a : Fin 2, win6_11.index t a * S2000x2.size a ≤ (i a).val
      ∧ (i a).val < win6_11.index t a * S2000x2.size a + S2000x2.size a := by
  show i ∈ ((View.whole main_v91).slice (win6_11.rect t)).set ↔ _
  rw [View.set_slice_whole, Rect.mem_set_unit]
  exact Iff.rfl

/-- Row `r` of the result is written by the point `r / 2000`: the 25 bands tile the array. -/
theorem covered (i : S50000x2.Idx) :
    ∃ t : Fin cfg6.N, (cfg6.win 11).flush t = true ∧ i ∈ ((cfg6.win 11).blk t).view.set := by
  have hi0 : (i 0).val < 50000 := (i 0).isLt
  have hi1 : (i 1).val < 2 := (i 1).isLt
  have hN : cfg6.N = 25 := N_6
  have ht : (i 0).val / 2000 < cfg6.N := by rw [hN]; omega
  obtain ⟨e0, e1⟩ := idx_11 ⟨(i 0).val / 2000, ht⟩
  refine ⟨⟨(i 0).val / 2000, ht⟩, flush6_11 _, ?_⟩
  rw [mem_blk]
  intro a
  match a with
  | ⟨0, _⟩ =>
    show win6_11.index ⟨(i 0).val / 2000, ht⟩ (0 : Fin 2) * 2000 ≤ (i 0).val
      ∧ (i 0).val < win6_11.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win6_11.index ⟨(i 0).val / 2000, ht⟩ (1 : Fin 2) * 2 ≤ (i 1).val
      ∧ (i 1).val < win6_11.index ⟨(i 0).val / 2000, ht⟩ (1 : Fin 2) * 2 + 2
    rw [e1]; omega

/-- THE RESULT ARRAY after the region: the read-out of the feature array and the ten weight and bias arrays as the
    region finds them, whatever the result array held before. -/
theorem final11 (c : Dev nD) :
    (dat6 (F := Ideal) V c).arrAt 11 cfg6.N
      = readout (V c main_v85) (V c main_arg6) (V c main_v86) (V c main_arg8) (V c main_v87) (V c main_arg10)
          (V c main_v88) (V c main_arg12) (V c main_v89) (V c main_arg14) (V c main_v90) eps :=
  (dat6 V c).arrAt_eq_of_cover 11 (whole V c) (fun t _ => flushed_eq V c t) covered

end Cert.KernelIdeal.Region6

end
-- ==== Proof.LibRowGather.lean ====
/-
  A gather of whole rows read at an index.

  What `x[idx]` of a table `x : [N, C]` at an integer vector `idx : [E]` lowers to: a gather with offset_dims `[1]`,
  collapsed_slice_dims `[0]`, start_index_map `[0]`, slice sizes `[1, C]` and index_vector_dim 1 over the indices as
  `[E, 1]`.  Result element `(e, k)` is `x` at row `idx[e, 0]` — read as a signed integer and clamped into `[0, N − 1]`,
  as a gather clamps every start index — and column `k`.
-/
import Idealize.ShloMosaic.PureOps
import Idealize.ShloMosaic.Lib.ValueIdx

noncomputable section

namespace Cert.Lib

open Idealize.ShloMosaic Idealize.ShloMosaic.ValueIdx

variable {α : Type}

/-- Those dimension numbers for a table `[N, C]`, start indices `[E, 1]` and result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the clamped row `idx[e, 0]` and column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (⟨min (idx (ix2 e 0)).toInt.toNat (N - 1), by omega⟩ : Fin N) k) := by
  unfold Host.gather
  congr 1
  funext a
  refine Fin.ext ?_
  show (rowDims N C E wf).start (ix2 e k) idx a + (rowDims N C E wf).batchCoord (ix2 e k) a
      + (rowDims N C E wf).offCoord (ix2 e k) a = _
  rw [GatherDims.batchCoord_eq_zero _ _ _ List.not_mem_nil, Nat.add_zero]
  have ha : a = (0 : Fin 2) ∨ a = (1 : Fin 2) := by
    rcases a with ⟨v, hv⟩
    have hv2 : v < 2 := hv
    rcases Nat.lt_or_ge v 1 with h | h
    · left; exact Fin.ext (by show v = 0; omega)
    · right; exact Fin.ext (by show v = 1; omega)
  rcases ha with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims N C E wf).startIndexMap from
      fun h => absurd (congrArg Fin.val (List.mem_singleton.mp h)) Nat.one_ne_zero), Nat.zero_add]
    rfl

end Cert.Lib

end
-- ==== Proof.LibRowScatter.lean ====
/-
  A scatter-add of whole rows read at an index.

  What a segment sum of a table of rows `upd : [E, C]` by a vector of segment numbers `idx : [E]` into an
  accumulator `x : [R, C]` lowers to: a scatter with an add body, update_window_dims `[1]`, inserted_window_dims
  `[0]`, scatter_dims_to_operand_dims `[0]` and index_vector_dim 1 over the indices as `[E, 1]`.  Update row `e`
  is added to the accumulator`s row `idx[e, 0]` — read as a signed integer and NOT clamped: a row number outside
  `[0, R − 1]` drops the update —, column by column.  So result element `(r, k)` is `x (r, k)` plus the sum, over the
  update rows `e` whose row number is `r`, of `upd (e, k)`.
-/
import Idealize.ShloMosaic.PureOps
import Idealize.ShloMosaic.Lib.ValueIdx

noncomputable section

open scoped BigOperators

namespace Cert.Lib

open Idealize.ShloMosaic Idealize.ShloMosaic.ValueIdx

/-- Those dimension numbers for an operand `[R, C]`, scatter indices `[E, 1]` and updates `[E, C]`. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- An axis of a rank-2 shape is the first or the second. -/
theorem fin2_cases (a : Fin 2) : a = (0 : Fin 2) ∨ a = (1 : Fin 2) := by
  rcases a with ⟨v, hv⟩
  have hv2 : v < 2 := hv
  rcases Nat.lt_or_ge v 1 with h | h
  · left; exact Fin.ext (by show v = 0; omega)
  · right; exact Fin.ext (by show v = 1; omega)

section
variable {R C E w : Nat} (wf : ScatterDims.WF ⟨2, ![R, C]⟩ ⟨2, ![E, 1]⟩ ⟨2, ![E, C]⟩ [1] [0] [0] 1)

/-- On the row axis the window of update `(e, k')` starts at the row number `idx[e, 0]`, read signed. -/
theorem rowScatter_start_zero (idx : IVec ⟨2, ![E, 1]⟩ w) (e : Fin E) (k' : Fin C) :
    (rowScatterDims R C E wf).start (ix2 e k') idx (0 : Fin 2) = (idx (ix2 e 0)).toInt := by
  unfold ScatterDims.start
  rw [dif_pos (show (0 : Fin 2) ∈ (rowScatterDims R C E wf).scatterDimsToOperandDims from
    List.mem_singleton.mpr rfl)]
  have hsi : (rowScatterDims R C E wf).siIdx (ix2 e k')
      ⟨List.idxOf (0 : Fin 2) (rowScatterDims R C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start index does not name, the window starts at 0. -/
theorem rowScatter_start_one (idx : IVec ⟨2, ![E, 1]⟩ w) (j : (⟨2, ![E, C]⟩ : Shape).Idx) :
    (rowScatterDims R C E wf).start j idx (1 : Fin 2) = 0 := by
  unfold ScatterDims.start
  rw [dif_neg (show (1 : Fin 2) ∉ (rowScatterDims R C E wf).scatterDimsToOperandDims from
    fun h => absurd (congrArg Fin.val (List.mem_singleton.mp h)) Nat.one_ne_zero)]

/-- The row axis is an inserted window axis: the window coordinate there is 0. -/
theorem rowScatter_window_zero (j : (⟨2, ![E, C]⟩ : Shape).Idx) :
    (rowScatterDims R C E wf).window j (0 : Fin 2) = 0 := by
  unfold ScatterDims.window
  rw [dif_neg (show (0 : Fin 2) ∉ (rowScatterDims R C E wf).sKept from by
    simp [ScatterDims.sKept, Shape.kept, List.mem_filter])]

/-- On the column axis the window coordinate of update `(e, k')` is its column `k'`. -/
theorem rowScatter_window_one (e : Fin E) (k' : Fin C) :
    (rowScatterDims R C E wf).window (ix2 e k') (1 : Fin 2) = k'.val := by
  unfold ScatterDims.window
  rw [dif_pos (show (1 : Fin 2) ∈ (rowScatterDims R C E wf).sKept from by
    simp [ScatterDims.sKept, Shape.kept, List.mem_filter])]
  rfl

/-- WHERE AN UPDATE LANDS: update `(e, k')` lands at operand element `(r, k)` exactly when its row number
    `idx[e, 0]`, read signed, is `r` and its column is `k`. -/
theorem rowScatter_resultIdx_iff (idx : IVec ⟨2, ![E, 1]⟩ w) (e : Fin E) (k' k : Fin C) (r : Fin R) :
    (rowScatterDims R C E wf).resultIdx? (ix2 e k') idx = some (ix2 r k)
      ↔ (idx (ix2 e 0)).toInt = (r.val : Int) ∧ k' = k := by
  have hr : r.val < R := r.isLt
  have hk' : k'.val < C := k'.isLt
  unfold ScatterDims.resultIdx?
  constructor
  · intro h
    split at h
    · rename_i hin
      have hf := Option.some.inj h
      have h0 := congrArg Fin.val (congrFun hf (0 : Fin 2))
      have h1 := congrArg Fin.val (congrFun hf (1 : Fin 2))
      have hin0 := (hin (0 : Fin 2)).1
      simp only [rowScatter_start_zero, rowScatter_start_one, rowScatter_window_zero,
        rowScatter_window_one] at h0 h1 hin0
      have h0' : ((idx (ix2 e 0)).toInt + ((0 : Nat) : Int)).toNat = r.val := h0
      have h1' : ((0 : Int) + (k'.val : Int)).toNat = k.val := h1
      refine ⟨by omega, Fin.ext (by omega)⟩
    · exact absurd h (by simp)
  · rintro ⟨hrow, rfl⟩
    have hin : ∀ a : Fin 2,
        0 ≤ (rowScatterDims R C E wf).start (ix2 e k') idx a + (rowScatterDims R C E wf).window (ix2 e k') a ∧
        (rowScatterDims R C E wf).start (ix2 e k') idx a + (rowScatterDims R C E wf).window (ix2 e k') a
          < (⟨2, ![R, C]⟩ : Shape).size a := by
      intro a
      rcases fin2_cases a with rfl | rfl
      · rw [rowScatter_start_zero, rowScatter_window_zero, hrow]
        show 0 ≤ (r.val : Int) + ((0 : Nat) : Int) ∧ (r.val : Int) + ((0 : Nat) : Int) < ((R : Nat) : Int)
        omega
      · rw [rowScatter_start_one, rowScatter_window_one]
        show 0 ≤ (0 : Int) + (k'.val : Int) ∧ (0 : Int) + (k'.val : Int) < ((C : Nat) : Int)
        omega
    rw [dif_pos hin]
    congr 1
    funext a
    refine Fin.ext ?_
    rcases fin2_cases a with rfl | rfl
    · show ((rowScatterDims R C E wf).start (ix2 e k') idx 0
          + (rowScatterDims R C E wf).window (ix2 e k') 0).toNat = r.val
      rw [rowScatter_start_zero, rowScatter_window_zero, hrow]
      omega
    · show ((rowScatterDims R C E wf).start (ix2 e k') idx 1
          + (rowScatterDims R C E wf).window (ix2 e k') 1).toNat = k'.val
      rw [rowScatter_start_one, rowScatter_window_one]
      omega

/-- THE ROW SCATTER-ADD READ AT `(r, k)`: the operand there plus the sum, over the update rows whose row number
    `idx[e, 0]` (signed, not clamped) is `r`, of the update's column `k`. -/
theorem scatterAdd_rows_apply (x : (⟨2, ![R, C]⟩ : Shape).Idx → EReal) (idx : IVec ⟨2, ![E, 1]⟩ w)
    (upd : (⟨2, ![E, C]⟩ : Shape).Idx → EReal) (r : Fin R) (k : Fin C) :
    Ideal.hostScatterAdd (rowScatterDims R C E wf) x idx upd (ix2 r k)
      = x (ix2 r k) + ∑ e : Fin E, if (idx (ix2 e 0)).toInt = (r.val : Int) then upd (ix2 e k) else 0 := by
  unfold Ideal.hostScatterAdd
  refine congrArg (x (ix2 r k) + ·) ?_
  rw [Finset.sum_filter, sum_idx2]
  refine Finset.sum_congr rfl fun e _ => ?_
  by_cases hP : (idx (ix2 e 0)).toInt = (r.val : Int)
  · rw [if_pos hP, Finset.sum_eq_single k]
    · rw [if_pos ((rowScatter_resultIdx_iff wf idx e k k r).2 ⟨hP, rfl⟩)]
    · intro k' _ hk'
      rw [if_neg (fun h => hk' ((rowScatter_resultIdx_iff wf idx e k' k r).1 h).2)]
    · intro h; exact absurd (Finset.mem_univ k) h
  · rw [if_neg hP]
    refine Finset.sum_eq_zero fun k' _ => ?_
    rw [if_neg (fun h => hP ((rowScatter_resultIdx_iff wf idx e k' k r).1 h).1)]

/-- The same for the program`s accumulating scatter at the extended reals, which is that exact sum. -/
theorem host_scatterAdd_rows_apply {φ : FTy} (x : FVec Ideal ⟨2, ![R, C]⟩ φ) (idx : IVec ⟨2, ![E, 1]⟩ w)
    (upd : FVec Ideal ⟨2, ![E, C]⟩ φ) (r : Fin R) (k : Fin C) :
    Host.scatterAdd (rowScatterDims R C E wf) x idx upd (ix2 r k)
      = x (ix2 r k) + ∑ e : Fin E, if (idx (ix2 e 0)).toInt = (r.val : Int) then upd (ix2 e k) else 0 :=
  scatterAdd_rows_apply wf x idx upd r k

end

end Cert.Lib

end
-- ==== Proof.KernelEdges.lean ====
/-
  The host stretch between two regions of the kernel program: the scaled messages gathered along the real edges and summed
  per destination node.

  Each edge's source word goes through the array-indexing convention for negative numbers (`wrap`), becomes a start index
  `[e, 0]`, and the gather reads the message row at that index clamped into the table (`rowOf`); widening the gathered rows
  is the identity on extended reals; the scatter-add starts from zeros and adds row `e` into the row named by the
  destination word, read as a signed integer, dropping the rows whose destination is no row of the table.  So the
  stretch computes `sumInto 50000 dst (gatherRows src ms)`.
-/
import proofs.«181823_j62440234549671_2_alg».proof.Proof.Gen.KernelIdeal
import proofs.«181823_j62440234549671_2_alg».proof.Proof.Spec
import proofs.«181823_j62440234549671_2_alg».proof.Proof.LibRowGather
import proofs.«181823_j62440234549671_2_alg».proof.Proof.LibRowScatter
import Idealize.ShloMosaic.PureOps.Ideal
import Idealize.ShloMosaic.Lib.ValueIdx
import Idealize.ShloMosaic.Lib.Pipeline.Value

set_option maxRecDepth 16384

noncomputable section

open Idealize.ShloMosaic Idealize.ShloMosaic.ValueIdx

namespace Cert.KernelIdeal.Edges

open Cert.KernelIdeal Cert.KernelIdeal.Facts₀ Cert.KernelIdeal.Facts Cert.Spec

/-- The stretch's operations on the message table `ms`, the source words `sv` and the destination words `dv`. -/
def hostEdgeSum (ms : FVec Ideal S50000x192 .bf16) (sv dv : IVec S800000 32) : FVec Ideal S50000x192 .f32 :=
  Host.scatterAdd scatter_S50000x192_S800000x1_S800000x192_1_0_0_1
    (broadcastInDim S50000x192 ![] bcast_S_S50000x192 (constant (F := Ideal) S_ .f32 0x00000000#32))
    (broadcastInDim S800000x1 ![0] bcast_S800000_S800000x1_0 dv)
    (extf .f32 (Host.gather gather_S50000x192_S800000x1_S800000x192_1_0_n_n_0_1_1192 ms
      (broadcastInDim S800000x1 ![0] bcast_S800000_S800000x1_0
        (select (cmpi .slt sv (broadcastInDim S800000 ![] bcast_S_S800000 (constantI S_ 32 0#32)))
          (addi sv (broadcastInDim S800000 ![] bcast_S_S800000 (constantI S_ 32 50000#32))) sv))) bitsLt_bf16_f32)

/-- A vector of words read as a column of start indices. -/
theorem column_apply (v : IVec S800000 32) (e : Fin 800000) :
    broadcastInDim S800000x1 ![0] bcast_S800000_S800000x1_0 v (ix2 e (0 : Fin 1)) = v (ix1 e) :=
  broadcastInDim_apply ![0] bcast_S800000_S800000x1_0 v (ix2 e (0 : Fin 1)) (ix1 e) (fun a => match a with
    | ⟨0, _⟩ => by show e.val = if (800000 : Nat) = 1 then 0 else e.val; rw [if_neg (by decide)])

/-- A splat integer constant read at an index. -/
theorem splat_apply (k : BitVec 32) (e : Fin 800000) :
    broadcastInDim S800000 ![] bcast_S_S800000 (constantI S_ 32 k) (ix1 e) = k :=
  broadcastInDim_apply ![] bcast_S_S800000 (constantI S_ 32 k) (ix1 e) ix0 (fun a => a.elim0)

/-- THE STRETCH READ: row `r` is the sum of the message rows at the wrapped, clamped sources of the edges into `r`. -/
theorem hostEdgeSum_eq (ms : FVec Ideal S50000x192 .bf16) (sv dv : IVec S800000 32) :
    hostEdgeSum ms sv dv
      = sumInto 50000 (fun e : Fin 800000 => (dv (ix1 e)).toInt)
          (gatherRows (fun e : Fin 800000 => rowOf (wrap (sv (ix1 e)))) (ms : Arr 50000 192)) := by
  funext i
  obtain ⟨p, q, rfl⟩ : ∃ (p : Fin 50000) (q : Fin 192), i = ix2 p q := ⟨i 0, i 1, eq_ix2 i⟩
  unfold hostEdgeSum
  refine (Cert.Lib.host_scatterAdd_rows_apply (R := 50000) (C := 192) (E := 800000)
    scatter_S50000x192_S800000x1_S800000x192_1_0_0_1_wf _ _ _ p q).trans ?_
  rw [broadcastInDim_apply ![] bcast_S_S50000x192 (constant (F := Ideal) S_ .f32 0x00000000#32) (ix2 p q) ix0 (fun a => a.elim0)]
  show Ideal.ofBits .f32 0x00000000#32 + _ = _
  rw [Ideal.ofBits_zero_f32, zero_add]
  show _ = ∑ e : Fin 800000, if (dv (ix1 e)).toInt = (p.val : ℤ) then (ms : Arr 50000 192) (ix2 (rowOf (wrap (sv (ix1 e)))) q) else 0
  refine Finset.sum_congr rfl fun e _ => ?_
  rw [column_apply dv e]
  refine congrArg (fun z => if (dv (ix1 e)).toInt = (p.val : ℤ) then z else 0) ?_
  show Host.gather gather_S50000x192_S800000x1_S800000x192_1_0_n_n_0_1_1192 ms _ (ix2 e q) = _
  refine (Cert.Lib.gather_rows_apply (N := 50000) (C := 192) (E := 800000) (by decide)
    gather_S50000x192_S800000x1_S800000x192_1_0_n_n_0_1_1192_wf ms _ e q).trans ?_
  refine congrArg (fun r => ms (ix2 r q)) (Fin.ext ?_)
  show min (broadcastInDim S800000x1 ![0] bcast_S800000_S800000x1_0
      (select (cmpi .slt sv (broadcastInDim S800000 ![] bcast_S_S800000 (constantI S_ 32 0#32)))
        (addi sv (broadcastInDim S800000 ![] bcast_S_S800000 (constantI S_ 32 50000#32))) sv) (ix2 e (0 : Fin 1))).toInt.toNat (50000 - 1)
    = min (wrap (sv (ix1 e))).toInt.toNat 49999
  rw [column_apply _ e]
  show min (Scalar.select (IntOp.cmpi .slt (sv (ix1 e)) (broadcastInDim S800000 ![] bcast_S_S800000 (constantI S_ 32 0#32) (ix1 e)))
      (IntOp.addi (sv (ix1 e)) (broadcastInDim S800000 ![] bcast_S_S800000 (constantI S_ 32 50000#32) (ix1 e))) (sv (ix1 e))).toInt.toNat (50000 - 1)
    = min (wrap (sv (ix1 e))).toInt.toNat 49999
  rw [splat_apply, splat_apply]
  rfl

end Cert.KernelIdeal.Edges

end
-- ==== Proof.ChainReads.lean ====
/-
  The small host computations of the kernel program, read at an index: cutting a row of edge words out of the edge
  list, a slab out of the stacked layer weights, a row out of the stacked layer biases, a vector turned into a row or a
  column.  Each is a slice followed by shape casts that drop or add unit axes, so each result element is one element
  of the source.
-/
import proofs.«181823_j62440234549671_2_alg».proof.Proof.Gen.KernelIdeal
import proofs.«181823_j62440234549671_2_alg».proof.Proof.Spec
import Idealize.ShloMosaic.PureOps.Ideal
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.ValueIdx

namespace Cert.KernelIdeal.Reads

open Cert.KernelIdeal Cert.KernelIdeal.Facts₀ Cert.KernelIdeal.Facts Cert.Spec

/-- Row `r` of the edge list, cut out and flattened, read at edge `e`. -/
theorem edge_row_apply (x1 : EdgeWords) (o : Nat) (h : S2x800000.Slices ![o, 0] S1x800000) (hc : S1x800000.ShapeCasts S800000)
    (r : Fin 2) (hr : r.val = o) (e : Fin 800000) :
    shapeCast S800000 (extractStridedSlice S1x800000 ![o, 0] x1 h) hc (ix1 e) = x1 (ix2 r e) := by
  rw [shapeCast_1a_a_apply _ hc e]
  exact slice2_axis0_apply o x1 h (0 : Fin 1) e r (by rw [hr]; rfl)

/-- Slab `l` of the stacked layer weights, cut out and with its unit axis dropped. -/
theorem slab_eq (x4 : (⟨3, ![4, 192, 192]⟩ : Shape).Idx → EReal) (o : Nat) (h : S4x192x192.Slices ![o, 0, 0] S1x192x192)
    (hc : S1x192x192.ShapeCasts S192x192) (l : Fin 4) (hl : l.val = o) :
    shapeCast S192x192 (extractStridedSlice S1x192x192 ![o, 0, 0] x4 h) hc = layerWeights x4 l := by
  funext j
  obtain ⟨a, b, rfl⟩ : ∃ (a : Fin 192) (b : Fin 192), j = ix2 a b := ⟨j 0, j 1, eq_ix2 j⟩
  rw [shapeCast_1ab_ab_apply _ hc a b]
  refine extractStridedSlice_apply ![o, 0, 0] x4 h (ix3 (0 : Fin 1) a b) (ix3 l a b) (fun ax => ?_)
  match ax with
  | ⟨0, _⟩ => show l.val = o + 0; omega
  | ⟨1, _⟩ => show a.val = 0 + a.val; omega
  | ⟨2, _⟩ => show b.val = 0 + b.val; omega

/-- Row `l` of the stacked layer biases, cut out, flattened and made a row again. -/
theorem bias_row_eq (x5 : Arr 4 192) (o : Nat) (h : S4x192.Slices ![o, 0] S1x192) (hc1 : S1x192.ShapeCasts S192)
    (hc2 : S192.ShapeCasts S1x192) (l : Fin 4) (hl : l.val = o) :
    shapeCast S1x192 (shapeCast S192 (extractStridedSlice S1x192 ![o, 0] x5 h) hc1) hc2 = layerBias x5 l := by
  funext j
  obtain ⟨u, q, rfl⟩ : ∃ (u : Fin 1) (q : Fin 192), j = ix2 u q := ⟨j 0, j 1, eq_ix2 j⟩
  rw [shapeCast_a_1a_apply _ hc2 u q, shapeCast_1a_a_apply _ hc1 q]
  exact slice2_axis0_apply o x5 h (0 : Fin 1) q l (by rw [hl]; rfl)

/-- A vector reshaped to a `1 × n` row is that row. -/
theorem vec_row_eq {n : Nat} (v : Vec1 n) (hc : (⟨1, ![n]⟩ : Shape).ShapeCasts ⟨2, ![1, n]⟩) :
    shapeCast ⟨2, ![1, n]⟩ v hc = asRow v := by
  funext j
  obtain ⟨u, q, rfl⟩ : ∃ (u : Fin 1) (q : Fin n), j = ix2 u q := ⟨j 0, j 1, eq_ix2 j⟩
  exact shapeCast_a_1a_apply v hc u q

/-- The per-node factors broadcast along a new unit axis are the factor column. -/
theorem vec_col_eq (v : Vec1 50000) :
    broadcastInDim S50000x1 ![0] bcast_S50000_S50000x1_0 v = asCol v := by
  funext j
  obtain ⟨p, u, rfl⟩ : ∃ (p : Fin 50000) (u : Fin 1), j = ix2 p u := ⟨j 0, j 1, eq_ix2 j⟩
  exact broadcastInDim_apply ![0] bcast_S50000_S50000x1_0 v (ix2 p u) (ix1 p) (fun a => match a with
    | ⟨0, _⟩ => by show p.val = if (50000 : Nat) = 1 then 0 else p.val; rw [if_neg (by decide)])

end Cert.KernelIdeal.Reads

end
-- ==== Proof.ChainCarry.lean ====
/-
  Buffers carried unchanged between the boundaries of the kernel program's run.

  The run's buffer contents at the fifteen boundaries (`W0` the launch memory, `W1` after the first host stretch, `W2`
  after region 0, …, `W14` at the return) differ from one boundary to the next only where the segment between them
  writes: a host stretch writes its operations' result buffers, a region writes its output arrays.  Each lemma below
  walks one buffer back across the segments that leave it alone — a region that does not own it, a region that only
  reads it through an input window, a stretch none of whose operations writes it.
-/
import proofs.«181823_j62440234549671_2_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen

variable {F : FTy → Type} [FloatOps F]
variable (m : (ℓ : Loc nD τ sig) → Buf (Elt F) ℓ) (ρ : Dev nD → PrngReg) (c : Dev nD)

/-- No operation of the named host stretch writes the buffer at hand. -/
macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The source words when the first gather runs are those the first stretch wrote. -/
theorem src_4 : W4 m ρ c (Proc.devRef .tc main_v1) = W1 m ρ c (Proc.devRef .tc main_v1) :=
  ((W4_of_ne m ρ c main_v1 (by decide))).trans (((by host_keep hostOps1 : W3 m ρ c (Proc.devRef .tc main_v1) = W2 m ρ c (Proc.devRef .tc main_v1))).trans ((W2_of_ne m ρ c main_v1 (by decide))))

/-- … and still those at the second gather, -/
theorem src_6 : W6 m ρ c (Proc.devRef .tc main_v1) = W4 m ρ c (Proc.devRef .tc main_v1) :=
  ((W6_of_ne m ρ c main_v1 (by decide))).trans ((by host_keep hostOps2 : W5 m ρ c (Proc.devRef .tc main_v1) = W4 m ρ c (Proc.devRef .tc main_v1)))

/-- the third, -/
theorem src_8 : W8 m ρ c (Proc.devRef .tc main_v1) = W6 m ρ c (Proc.devRef .tc main_v1) :=
  ((W8_of_ne m ρ c main_v1 (by decide))).trans ((by host_keep hostOps3 : W7 m ρ c (Proc.devRef .tc main_v1) = W6 m ρ c (Proc.devRef .tc main_v1)))

/-- and the fourth. -/
theorem src_10 : W10 m ρ c (Proc.devRef .tc main_v1) = W8 m ρ c (Proc.devRef .tc main_v1) :=
  ((W10_of_ne m ρ c main_v1 (by decide))).trans ((by host_keep hostOps4 : W9 m ρ c (Proc.devRef .tc main_v1) = W8 m ρ c (Proc.devRef .tc main_v1)))

/-- The destination words when the first gather runs are those the first stretch wrote. -/
theorem dst_4 : W4 m ρ c (Proc.devRef .tc main_v3) = W1 m ρ c (Proc.devRef .tc main_v3) :=
  ((W4_of_ne m ρ c main_v3 (by decide))).trans (((by host_keep hostOps1 : W3 m ρ c (Proc.devRef .tc main_v3) = W2 m ρ c (Proc.devRef .tc main_v3))).trans ((W2_of_ne m ρ c main_v3 (by decide))))

/-- … and still those at the second gather, -/
theorem dst_6 : W6 m ρ c (Proc.devRef .tc main_v3) = W4 m ρ c (Proc.devRef .tc main_v3) :=
  ((W6_of_ne m ρ c main_v3 (by decide))).trans ((by host_keep hostOps2 : W5 m ρ c (Proc.devRef .tc main_v3) = W4 m ρ c (Proc.devRef .tc main_v3)))

/-- the third, -/
theorem dst_8 : W8 m ρ c (Proc.devRef .tc main_v3) = W6 m ρ c (Proc.devRef .tc main_v3) :=
  ((W8_of_ne m ρ c main_v3 (by decide))).trans ((by host_keep hostOps3 : W7 m ρ c (Proc.devRef .tc main_v3) = W6 m ρ c (Proc.devRef .tc main_v3)))

/-- and the fourth. -/
theorem dst_10 : W10 m ρ c (Proc.devRef .tc main_v3) = W8 m ρ c (Proc.devRef .tc main_v3) :=
  ((W10_of_ne m ρ c main_v3 (by decide))).trans ((by host_keep hostOps4 : W9 m ρ c (Proc.devRef .tc main_v3) = W8 m ρ c (Proc.devRef .tc main_v3)))

/-- The factor column as region 1 finds it is the one the first stretch wrote. -/
theorem fac_3 : W3 m ρ c (Proc.devRef .tc main_v14) = W1 m ρ c (Proc.devRef .tc main_v14) :=
  ((by host_keep hostOps1 : W3 m ρ c (Proc.devRef .tc main_v14) = W2 m ρ c (Proc.devRef .tc main_v14))).trans ((W2_of_ne m ρ c main_v14 (by decide)))

/-- Region 1 only reads it, the next stretch does not write it. -/
theorem fac_5 : W5 m ρ c (Proc.devRef .tc main_v14) = W3 m ρ c (Proc.devRef .tc main_v14) :=
  ((by host_keep hostOps2 : W5 m ρ c (Proc.devRef .tc main_v14) = W4 m ρ c (Proc.devRef .tc main_v14))).trans (((W4_arr m ρ c 2).trans (((dat1 (V3 m ρ) c).arrAt_in 2 rfl _).trans (A_eq1 (V3 m ρ) c 2))))

/-- Likewise across region 2, -/
theorem fac_7 : W7 m ρ c (Proc.devRef .tc main_v14) = W5 m ρ c (Proc.devRef .tc main_v14) :=
  ((by host_keep hostOps3 : W7 m ρ c (Proc.devRef .tc main_v14) = W6 m ρ c (Proc.devRef .tc main_v14))).trans (((W6_arr m ρ c 2).trans (((dat2 (V5 m ρ) c).arrAt_in 2 rfl _).trans (A_eq2 (V5 m ρ) c 2))))

/-- region 3, -/
theorem fac_9 : W9 m ρ c (Proc.devRef .tc main_v14) = W7 m ρ c (Proc.devRef .tc main_v14) :=
  ((by host_keep hostOps4 : W9 m ρ c (Proc.devRef .tc main_v14) = W8 m ρ c (Proc.devRef .tc main_v14))).trans (((W8_arr m ρ c 2).trans (((dat3 (V7 m ρ) c).arrAt_in 2 rfl _).trans (A_eq3 (V7 m ρ) c 2))))

/-- and region 4. -/
theorem fac_11 : W11 m ρ c (Proc.devRef .tc main_v14) = W9 m ρ c (Proc.devRef .tc main_v14) :=
  ((by host_keep hostOps5 : W11 m ρ c (Proc.devRef .tc main_v14) = W10 m ρ c (Proc.devRef .tc main_v14))).trans (((W10_arr m ρ c 2).trans (((dat4 (V9 m ρ) c).arrAt_in 2 rfl _).trans (A_eq4 (V9 m ρ) c 2))))

/-- The stacked layer weights are never written: as launched when the first slab is cut, -/
theorem wts_2 : W2 m ρ c (Proc.devRef .tc main_arg4) = W0 m ρ c (Proc.devRef .tc main_arg4) :=
  ((W2_of_ne m ρ c main_arg4 (by decide))).trans ((by host_keep hostOps0 : W1 m ρ c (Proc.devRef .tc main_arg4) = W0 m ρ c (Proc.devRef .tc main_arg4)))

/-- the second, -/
theorem wts_4 : W4 m ρ c (Proc.devRef .tc main_arg4) = W2 m ρ c (Proc.devRef .tc main_arg4) :=
  ((W4_of_ne m ρ c main_arg4 (by decide))).trans ((by host_keep hostOps1 : W3 m ρ c (Proc.devRef .tc main_arg4) = W2 m ρ c (Proc.devRef .tc main_arg4)))

/-- the third, -/
theorem wts_6 : W6 m ρ c (Proc.devRef .tc main_arg4) = W4 m ρ c (Proc.devRef .tc main_arg4) :=
  ((W6_of_ne m ρ c main_arg4 (by decide))).trans ((by host_keep hostOps2 : W5 m ρ c (Proc.devRef .tc main_arg4) = W4 m ρ c (Proc.devRef .tc main_arg4)))

/-- and the fourth. -/
theorem wts_8 : W8 m ρ c (Proc.devRef .tc main_arg4) = W6 m ρ c (Proc.devRef .tc main_arg4) :=
  ((W8_of_ne m ρ c main_arg4 (by decide))).trans ((by host_keep hostOps3 : W7 m ρ c (Proc.devRef .tc main_arg4) = W6 m ρ c (Proc.devRef .tc main_arg4)))

/-- The stacked layer biases are never written: as launched when the first row is cut, -/
theorem bias_4 : W4 m ρ c (Proc.devRef .tc main_arg5) = W0 m ρ c (Proc.devRef .tc main_arg5) :=
  ((W4_of_ne m ρ c main_arg5 (by decide))).trans (((by host_keep hostOps1 : W3 m ρ c (Proc.devRef .tc main_arg5) = W2 m ρ c (Proc.devRef .tc main_arg5))).trans (((W2_of_ne m ρ c main_arg5 (by decide))).trans ((by host_keep hostOps0 : W1 m ρ c (Proc.devRef .tc main_arg5) = W0 m ρ c (Proc.devRef .tc main_arg5)))))

/-- the second, -/
theorem bias_6 : W6 m ρ c (Proc.devRef .tc main_arg5) = W4 m ρ c (Proc.devRef .tc main_arg5) :=
  ((W6_of_ne m ρ c main_arg5 (by decide))).trans ((by host_keep hostOps2 : W5 m ρ c (Proc.devRef .tc main_arg5) = W4 m ρ c (Proc.devRef .tc main_arg5)))

/-- the third, -/
theorem bias_8 : W8 m ρ c (Proc.devRef .tc main_arg5) = W6 m ρ c (Proc.devRef .tc main_arg5) :=
  ((W8_of_ne m ρ c main_arg5 (by decide))).trans ((by host_keep hostOps3 : W7 m ρ c (Proc.devRef .tc main_arg5) = W6 m ρ c (Proc.devRef .tc main_arg5)))

/-- and the fourth. -/
theorem bias_10 : W10 m ρ c (Proc.devRef .tc main_arg5) = W8 m ρ c (Proc.devRef .tc main_arg5) :=
  ((W10_of_ne m ρ c main_arg5 (by decide))).trans ((by host_keep hostOps4 : W9 m ρ c (Proc.devRef .tc main_arg5) = W8 m ρ c (Proc.devRef .tc main_arg5)))

/-- The node features as region 0 finds them are as launched. -/
theorem x_1 : W1 m ρ c (Proc.devRef .tc main_arg0) = W0 m ρ c (Proc.devRef .tc main_arg0) :=
  (by host_keep hostOps0 : W1 m ρ c (Proc.devRef .tc main_arg0) = W0 m ρ c (Proc.devRef .tc main_arg0))

/-- So are the input weights. -/
theorem win_1 : W1 m ρ c (Proc.devRef .tc main_arg2) = W0 m ρ c (Proc.devRef .tc main_arg2) :=
  (by host_keep hostOps0 : W1 m ρ c (Proc.devRef .tc main_arg2) = W0 m ρ c (Proc.devRef .tc main_arg2))

/-- The projected features, written by region 0, reach region 2 unchanged (region 1 only reads them). -/
theorem h0_5 : W5 m ρ c (Proc.devRef .tc main_v16) = W2 m ρ c (Proc.devRef .tc main_v16) :=
  ((by host_keep hostOps2 : W5 m ρ c (Proc.devRef .tc main_v16) = W4 m ρ c (Proc.devRef .tc main_v16))).trans ((((W4_arr m ρ c 0).trans (((dat1 (V3 m ρ) c).arrAt_in 0 rfl _).trans (A_eq1 (V3 m ρ) c 0)))).trans ((by host_keep hostOps1 : W3 m ρ c (Proc.devRef .tc main_v16) = W2 m ρ c (Proc.devRef .tc main_v16))))

/-- … and region 1 finds them as region 0 left them. -/
theorem h0_3 : W3 m ρ c (Proc.devRef .tc main_v16) = W2 m ρ c (Proc.devRef .tc main_v16) :=
  (by host_keep hostOps1 : W3 m ρ c (Proc.devRef .tc main_v16) = W2 m ρ c (Proc.devRef .tc main_v16))

/-- The first messages reach region 2 as region 1 left them. -/
theorem ms0_5 : W5 m ρ c (Proc.devRef .tc main_v19) = W4 m ρ c (Proc.devRef .tc main_v19) :=
  (by host_keep hostOps2 : W5 m ρ c (Proc.devRef .tc main_v19) = W4 m ρ c (Proc.devRef .tc main_v19))

/-- Region 2's features reach region 3, -/
theorem h1_7 : W7 m ρ c (Proc.devRef .tc main_v36_0) = W6 m ρ c (Proc.devRef .tc main_v36_0) :=
  (by host_keep hostOps3 : W7 m ρ c (Proc.devRef .tc main_v36_0) = W6 m ρ c (Proc.devRef .tc main_v36_0))

/-- and its messages. -/
theorem ms1_7 : W7 m ρ c (Proc.devRef .tc main_v36_1) = W6 m ρ c (Proc.devRef .tc main_v36_1) :=
  (by host_keep hostOps3 : W7 m ρ c (Proc.devRef .tc main_v36_1) = W6 m ρ c (Proc.devRef .tc main_v36_1))

/-- Region 3's features reach region 4, -/
theorem h2_9 : W9 m ρ c (Proc.devRef .tc main_v53_0) = W8 m ρ c (Proc.devRef .tc main_v53_0) :=
  (by host_keep hostOps4 : W9 m ρ c (Proc.devRef .tc main_v53_0) = W8 m ρ c (Proc.devRef .tc main_v53_0))

/-- and its messages. -/
theorem ms2_9 : W9 m ρ c (Proc.devRef .tc main_v53_1) = W8 m ρ c (Proc.devRef .tc main_v53_1) :=
  (by host_keep hostOps4 : W9 m ρ c (Proc.devRef .tc main_v53_1) = W8 m ρ c (Proc.devRef .tc main_v53_1))

/-- Region 4's features reach region 5, -/
theorem h3_11 : W11 m ρ c (Proc.devRef .tc main_v70_0) = W10 m ρ c (Proc.devRef .tc main_v70_0) :=
  (by host_keep hostOps5 : W11 m ρ c (Proc.devRef .tc main_v70_0) = W10 m ρ c (Proc.devRef .tc main_v70_0))

/-- and its messages. -/
theorem ms3_11 : W11 m ρ c (Proc.devRef .tc main_v70_1) = W10 m ρ c (Proc.devRef .tc main_v70_1) :=
  (by host_keep hostOps5 : W11 m ρ c (Proc.devRef .tc main_v70_1) = W10 m ρ c (Proc.devRef .tc main_v70_1))

/-- Region 5's features reach the read-out. -/
theorem h4_13 : W13 m ρ c (Proc.devRef .tc main_v85) = W12 m ρ c (Proc.devRef .tc main_v85) :=
  (by host_keep hostOps6 : W13 m ρ c (Proc.devRef .tc main_v85) = W12 m ρ c (Proc.devRef .tc main_v85))

/-- Argument 6 (a read-out weight matrix) is as launched when the read-out runs. -/
theorem arg6_13 : W13 m ρ c (Proc.devRef .tc main_arg6) = W0 m ρ c (Proc.devRef .tc main_arg6) :=
  ((by host_keep hostOps6 : W13 m ρ c (Proc.devRef .tc main_arg6) = W12 m ρ c (Proc.devRef .tc main_arg6))).trans (((W12_of_ne m ρ c main_arg6 (by decide))).trans (((by host_keep hostOps5 : W11 m ρ c (Proc.devRef .tc main_arg6) = W10 m ρ c (Proc.devRef .tc main_arg6))).trans (((W10_of_ne m ρ c main_arg6 (by decide))).trans (((by host_keep hostOps4 : W9 m ρ c (Proc.devRef .tc main_arg6) = W8 m ρ c (Proc.devRef .tc main_arg6))).trans (((W8_of_ne m ρ c main_arg6 (by decide))).trans (((by host_keep hostOps3 : W7 m ρ c (Proc.devRef .tc main_arg6) = W6 m ρ c (Proc.devRef .tc main_arg6))).trans (((W6_of_ne m ρ c main_arg6 (by decide))).trans (((by host_keep hostOps2 : W5 m ρ c (Proc.devRef .tc main_arg6) = W4 m ρ c (Proc.devRef .tc main_arg6))).trans (((W4_of_ne m ρ c main_arg6 (by decide))).trans (((by host_keep hostOps1 : W3 m ρ c (Proc.devRef .tc main_arg6) = W2 m ρ c (Proc.devRef .tc main_arg6))).trans (((W2_of_ne m ρ c main_arg6 (by decide))).trans ((by host_keep hostOps0 : W1 m ρ c (Proc.devRef .tc main_arg6) = W0 m ρ c (Proc.devRef .tc main_arg6))))))))))))))

/-- Argument 8 (a read-out weight matrix) is as launched when the read-out runs. -/
theorem arg8_13 : W13 m ρ c (Proc.devRef .tc main_arg8) = W0 m ρ c (Proc.devRef .tc main_arg8) :=
  ((by host_keep hostOps6 : W13 m ρ c (Proc.devRef .tc main_arg8) = W12 m ρ c (Proc.devRef .tc main_arg8))).trans (((W12_of_ne m ρ c main_arg8 (by decide))).trans (((by host_keep hostOps5 : W11 m ρ c (Proc.devRef .tc main_arg8) = W10 m ρ c (Proc.devRef .tc main_arg8))).trans (((W10_of_ne m ρ c main_arg8 (by decide))).trans (((by host_keep hostOps4 : W9 m ρ c (Proc.devRef .tc main_arg8) = W8 m ρ c (Proc.devRef .tc main_arg8))).trans (((W8_of_ne m ρ c main_arg8 (by decide))).trans (((by host_keep hostOps3 : W7 m ρ c (Proc.devRef .tc main_arg8) = W6 m ρ c (Proc.devRef .tc main_arg8))).trans (((W6_of_ne m ρ c main_arg8 (by decide))).trans (((by host_keep hostOps2 : W5 m ρ c (Proc.devRef .tc main_arg8) = W4 m ρ c (Proc.devRef .tc main_arg8))).trans (((W4_of_ne m ρ c main_arg8 (by decide))).trans (((by host_keep hostOps1 : W3 m ρ c (Proc.devRef .tc main_arg8) = W2 m ρ c (Proc.devRef .tc main_arg8))).trans (((W2_of_ne m ρ c main_arg8 (by decide))).trans ((by host_keep hostOps0 : W1 m ρ c (Proc.devRef .tc main_arg8) = W0 m ρ c (Proc.devRef .tc main_arg8))))))))))))))

/-- Argument 10 (a read-out weight matrix) is as launched when the read-out runs. -/
theorem arg10_13 : W13 m ρ c (Proc.devRef .tc main_arg10) = W0 m ρ c (Proc.devRef .tc main_arg10) :=
  ((by host_keep hostOps6 : W13 m ρ c (Proc.devRef .tc main_arg10) = W12 m ρ c (Proc.devRef .tc main_arg10))).trans (((W12_of_ne m ρ c main_arg10 (by decide))).trans (((by host_keep hostOps5 : W11 m ρ c (Proc.devRef .tc main_arg10) = W10 m ρ c (Proc.devRef .tc main_arg10))).trans (((W10_of_ne m ρ c main_arg10 (by decide))).trans (((by host_keep hostOps4 : W9 m ρ c (Proc.devRef .tc main_arg10) = W8 m ρ c (Proc.devRef .tc main_arg10))).trans (((W8_of_ne m ρ c main_arg10 (by decide))).trans (((by host_keep hostOps3 : W7 m ρ c (Proc.devRef .tc main_arg10) = W6 m ρ c (Proc.devRef .tc main_arg10))).trans (((W6_of_ne m ρ c main_arg10 (by decide))).trans (((by host_keep hostOps2 : W5 m ρ c (Proc.devRef .tc main_arg10) = W4 m ρ c (Proc.devRef .tc main_arg10))).trans (((W4_of_ne m ρ c main_arg10 (by decide))).trans (((by host_keep hostOps1 : W3 m ρ c (Proc.devRef .tc main_arg10) = W2 m ρ c (Proc.devRef .tc main_arg10))).trans (((W2_of_ne m ρ c main_arg10 (by decide))).trans ((by host_keep hostOps0 : W1 m ρ c (Proc.devRef .tc main_arg10) = W0 m ρ c (Proc.devRef .tc main_arg10))))))))))))))

/-- Argument 12 (a read-out weight matrix) is as launched when the read-out runs. -/
theorem arg12_13 : W13 m ρ c (Proc.devRef .tc main_arg12) = W0 m ρ c (Proc.devRef .tc main_arg12) :=
  ((by host_keep hostOps6 : W13 m ρ c (Proc.devRef .tc main_arg12) = W12 m ρ c (Proc.devRef .tc main_arg12))).trans (((W12_of_ne m ρ c main_arg12 (by decide))).trans (((by host_keep hostOps5 : W11 m ρ c (Proc.devRef .tc main_arg12) = W10 m ρ c (Proc.devRef .tc main_arg12))).trans (((W10_of_ne m ρ c main_arg12 (by decide))).trans (((by host_keep hostOps4 : W9 m ρ c (Proc.devRef .tc main_arg12) = W8 m ρ c (Proc.devRef .tc main_arg12))).trans (((W8_of_ne m ρ c main_arg12 (by decide))).trans (((by host_keep hostOps3 : W7 m ρ c (Proc.devRef .tc main_arg12) = W6 m ρ c (Proc.devRef .tc main_arg12))).trans (((W6_of_ne m ρ c main_arg12 (by decide))).trans (((by host_keep hostOps2 : W5 m ρ c (Proc.devRef .tc main_arg12) = W4 m ρ c (Proc.devRef .tc main_arg12))).trans (((W4_of_ne m ρ c main_arg12 (by decide))).trans (((by host_keep hostOps1 : W3 m ρ c (Proc.devRef .tc main_arg12) = W2 m ρ c (Proc.devRef .tc main_arg12))).trans (((W2_of_ne m ρ c main_arg12 (by decide))).trans ((by host_keep hostOps0 : W1 m ρ c (Proc.devRef .tc main_arg12) = W0 m ρ c (Proc.devRef .tc main_arg12))))))))))))))

/-- Argument 14 (a read-out weight matrix) is as launched when the read-out runs. -/
theorem arg14_13 : W13 m ρ c (Proc.devRef .tc main_arg14) = W0 m ρ c (Proc.devRef .tc main_arg14) :=
  ((by host_keep hostOps6 : W13 m ρ c (Proc.devRef .tc main_arg14) = W12 m ρ c (Proc.devRef .tc main_arg14))).trans (((W12_of_ne m ρ c main_arg14 (by decide))).trans (((by host_keep hostOps5 : W11 m ρ c (Proc.devRef .tc main_arg14) = W10 m ρ c (Proc.devRef .tc main_arg14))).trans (((W10_of_ne m ρ c main_arg14 (by decide))).trans (((by host_keep hostOps4 : W9 m ρ c (Proc.devRef .tc main_arg14) = W8 m ρ c (Proc.devRef .tc main_arg14))).trans (((W8_of_ne m ρ c main_arg14 (by decide))).trans (((by host_keep hostOps3 : W7 m ρ c (Proc.devRef .tc main_arg14) = W6 m ρ c (Proc.devRef .tc main_arg14))).trans (((W6_of_ne m ρ c main_arg14 (by decide))).trans (((by host_keep hostOps2 : W5 m ρ c (Proc.devRef .tc main_arg14) = W4 m ρ c (Proc.devRef .tc main_arg14))).trans (((W4_of_ne m ρ c main_arg14 (by decide))).trans (((by host_keep hostOps1 : W3 m ρ c (Proc.devRef .tc main_arg14) = W2 m ρ c (Proc.devRef .tc main_arg14))).trans (((W2_of_ne m ρ c main_arg14 (by decide))).trans ((by host_keep hostOps0 : W1 m ρ c (Proc.devRef .tc main_arg14) = W0 m ρ c (Proc.devRef .tc main_arg14))))))))))))))

/-- Argument 7 (a read-out bias vector) is as launched when the last stretch reshapes it. -/
theorem arg7_12 : W12 m ρ c (Proc.devRef .tc main_arg7) = W0 m ρ c (Proc.devRef .tc main_arg7) :=
  ((W12_of_ne m ρ c main_arg7 (by decide))).trans (((by host_keep hostOps5 : W11 m ρ c (Proc.devRef .tc main_arg7) = W10 m ρ c (Proc.devRef .tc main_arg7))).trans (((W10_of_ne m ρ c main_arg7 (by decide))).trans (((by host_keep hostOps4 : W9 m ρ c (Proc.devRef .tc main_arg7) = W8 m ρ c (Proc.devRef .tc main_arg7))).trans (((W8_of_ne m ρ c main_arg7 (by decide))).trans (((by host_keep hostOps3 : W7 m ρ c (Proc.devRef .tc main_arg7) = W6 m ρ c (Proc.devRef .tc main_arg7))).trans (((W6_of_ne m ρ c main_arg7 (by decide))).trans (((by host_keep hostOps2 : W5 m ρ c (Proc.devRef .tc main_arg7) = W4 m ρ c (Proc.devRef .tc main_arg7))).trans (((W4_of_ne m ρ c main_arg7 (by decide))).trans (((by host_keep hostOps1 : W3 m ρ c (Proc.devRef .tc main_arg7) = W2 m ρ c (Proc.devRef .tc main_arg7))).trans (((W2_of_ne m ρ c main_arg7 (by decide))).trans ((by host_keep hostOps0 : W1 m ρ c (Proc.devRef .tc main_arg7) = W0 m ρ c (Proc.devRef .tc main_arg7)))))))))))))

/-- Argument 9 (a read-out bias vector) is as launched when the last stretch reshapes it. -/
theorem arg9_12 : W12 m ρ c (Proc.devRef .tc main_arg9) = W0 m ρ c (Proc.devRef .tc main_arg9) :=
  ((W12_of_ne m ρ c main_arg9 (by decide))).trans (((by host_keep hostOps5 : W11 m ρ c (Proc.devRef .tc main_arg9) = W10 m ρ c (Proc.devRef .tc main_arg9))).trans (((W10_of_ne m ρ c main_arg9 (by decide))).trans (((by host_keep hostOps4 : W9 m ρ c (Proc.devRef .tc main_arg9) = W8 m ρ c (Proc.devRef .tc main_arg9))).trans (((W8_of_ne m ρ c main_arg9 (by decide))).trans (((by host_keep hostOps3 : W7 m ρ c (Proc.devRef .tc main_arg9) = W6 m ρ c (Proc.devRef .tc main_arg9))).trans (((W6_of_ne m ρ c main_arg9 (by decide))).trans (((by host_keep hostOps2 : W5 m ρ c (Proc.devRef .tc main_arg9) = W4 m ρ c (Proc.devRef .tc main_arg9))).trans (((W4_of_ne m ρ c main_arg9 (by decide))).trans (((by host_keep hostOps1 : W3 m ρ c (Proc.devRef .tc main_arg9) = W2 m ρ c (Proc.devRef .tc main_arg9))).trans (((W2_of_ne m ρ c main_arg9 (by decide))).trans ((by host_keep hostOps0 : W1 m ρ c (Proc.devRef .tc main_arg9) = W0 m ρ c (Proc.devRef .tc main_arg9)))))))))))))

/-- Argument 11 (a read-out bias vector) is as launched when the last stretch reshapes it. -/
theorem arg11_12 : W12 m ρ c (Proc.devRef .tc main_arg11) = W0 m ρ c (Proc.devRef .tc main_arg11) :=
  ((W12_of_ne m ρ c main_arg11 (by decide))).trans (((by host_keep hostOps5 : W11 m ρ c (Proc.devRef .tc main_arg11) = W10 m ρ c (Proc.devRef .tc main_arg11))).trans (((W10_of_ne m ρ c main_arg11 (by decide))).trans (((by host_keep hostOps4 : W9 m ρ c (Proc.devRef .tc main_arg11) = W8 m ρ c (Proc.devRef .tc main_arg11))).trans (((W8_of_ne m ρ c main_arg11 (by decide))).trans (((by host_keep hostOps3 : W7 m ρ c (Proc.devRef .tc main_arg11) = W6 m ρ c (Proc.devRef .tc main_arg11))).trans (((W6_of_ne m ρ c main_arg11 (by decide))).trans (((by host_keep hostOps2 : W5 m ρ c (Proc.devRef .tc main_arg11) = W4 m ρ c (Proc.devRef .tc main_arg11))).trans (((W4_of_ne m ρ c main_arg11 (by decide))).trans (((by host_keep hostOps1 : W3 m ρ c (Proc.devRef .tc main_arg11) = W2 m ρ c (Proc.devRef .tc main_arg11))).trans (((W2_of_ne m ρ c main_arg11 (by decide))).trans ((by host_keep hostOps0 : W1 m ρ c (Proc.devRef .tc main_arg11) = W0 m ρ c (Proc.devRef .tc main_arg11)))))))))))))

/-- Argument 13 (a read-out bias vector) is as launched when the last stretch reshapes it. -/
theorem arg13_12 : W12 m ρ c (Proc.devRef .tc main_arg13) = W0 m ρ c (Proc.devRef .tc main_arg13) :=
  ((W12_of_ne m ρ c main_arg13 (by decide))).trans (((by host_keep hostOps5 : W11 m ρ c (Proc.devRef .tc main_arg13) = W10 m ρ c (Proc.devRef .tc main_arg13))).trans (((W10_of_ne m ρ c main_arg13 (by decide))).trans (((by host_keep hostOps4 : W9 m ρ c (Proc.devRef .tc main_arg13) = W8 m ρ c (Proc.devRef .tc main_arg13))).trans (((W8_of_ne m ρ c main_arg13 (by decide))).trans (((by host_keep hostOps3 : W7 m ρ c (Proc.devRef .tc main_arg13) = W6 m ρ c (Proc.devRef .tc main_arg13))).trans (((W6_of_ne m ρ c main_arg13 (by decide))).trans (((by host_keep hostOps2 : W5 m ρ c (Proc.devRef .tc main_arg13) = W4 m ρ c (Proc.devRef .tc main_arg13))).trans (((W4_of_ne m ρ c main_arg13 (by decide))).trans (((by host_keep hostOps1 : W3 m ρ c (Proc.devRef .tc main_arg13) = W2 m ρ c (Proc.devRef .tc main_arg13))).trans (((W2_of_ne m ρ c main_arg13 (by decide))).trans ((by host_keep hostOps0 : W1 m ρ c (Proc.devRef .tc main_arg13) = W0 m ρ c (Proc.devRef .tc main_arg13)))))))))))))

/-- Argument 15 (a read-out bias vector) is as launched when the last stretch reshapes it. -/
theorem arg15_12 : W12 m ρ c (Proc.devRef .tc main_arg15) = W0 m ρ c (Proc.devRef .tc main_arg15) :=
  ((W12_of_ne m ρ c main_arg15 (by decide))).trans (((by host_keep hostOps5 : W11 m ρ c (Proc.devRef .tc main_arg15) = W10 m ρ c (Proc.devRef .tc main_arg15))).trans (((W10_of_ne m ρ c main_arg15 (by decide))).trans (((by host_keep hostOps4 : W9 m ρ c (Proc.devRef .tc main_arg15) = W8 m ρ c (Proc.devRef .tc main_arg15))).trans (((W8_of_ne m ρ c main_arg15 (by decide))).trans (((by host_keep hostOps3 : W7 m ρ c (Proc.devRef .tc main_arg15) = W6 m ρ c (Proc.devRef .tc main_arg15))).trans (((W6_of_ne m ρ c main_arg15 (by decide))).trans (((by host_keep hostOps2 : W5 m ρ c (Proc.devRef .tc main_arg15) = W4 m ρ c (Proc.devRef .tc main_arg15))).trans (((W4_of_ne m ρ c main_arg15 (by decide))).trans (((by host_keep hostOps1 : W3 m ρ c (Proc.devRef .tc main_arg15) = W2 m ρ c (Proc.devRef .tc main_arg15))).trans (((W2_of_ne m ρ c main_arg15 (by decide))).trans ((by host_keep hostOps0 : W1 m ρ c (Proc.devRef .tc main_arg15) = W0 m ρ c (Proc.devRef .tc main_arg15)))))))))))))

end Cert.KernelIdeal.Carry

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.ChainStages.lean ====
/-
  The kernel program's result as one function of its arguments.

  The run's boundary contents are followed from the launch memory to the return: each host stretch's results are read
  off its operations, each region's output arrays are the region's whole-array function of the arrays it finds, and a
  buffer nobody writes in between is carried.  Region 0 leaves the projected features; region 1 the first messages
  `(h · w₀) ⊙ d`; each stretch before regions 2 … 5 gathers the messages along the real edges and sums them per
  destination; regions 2 … 4 leave the next features and the next messages, region 5 the last features, region 6 the
  read-out.  Composed, the result buffer ends holding `netK` of the arguments, with the per-node factors those the first
  stretch computes.
-/
import proofs.«181823_j62440234549671_2_alg».proof.Proof.Gen.KernelIdeal.Frame
import proofs.«181823_j62440234549671_2_alg».proof.Proof.Spec
import proofs.«181823_j62440234549671_2_alg».proof.Proof.Region0
import proofs.«181823_j62440234549671_2_alg».proof.Proof.Region1
import proofs.«181823_j62440234549671_2_alg».proof.Proof.Region2
import proofs.«181823_j62440234549671_2_alg».proof.Proof.Region3
import proofs.«181823_j62440234549671_2_alg».proof.Proof.Region4
import proofs.«181823_j62440234549671_2_alg».proof.Proof.Region5
import proofs.«181823_j62440234549671_2_alg».proof.Proof.Region6
import proofs.«181823_j62440234549671_2_alg».proof.Proof.KernelEdges
import proofs.«181823_j62440234549671_2_alg».proof.Proof.ChainReads
import proofs.«181823_j62440234549671_2_alg».proof.Proof.ChainCarry
import proofs.«181823_j62440234549671_2_alg».proof.Proof.LibAfterAppend
import Idealize.ShloMosaic.PureOps.Ideal

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Chain

open Cert.KernelIdeal Cert.KernelIdeal.Gen Cert.Spec Cert.Layers
open Cert.KernelIdeal.Carry Cert.KernelIdeal.Edges Cert.KernelIdeal.Reads

variable (m : (ℓ : Loc nD τ sig) → Buf (Elt Ideal) ℓ) (ρ : Dev nD → PrngReg) (c : Dev nD)

/-! ## The launch arrays by name, and the network's pieces over them -/

abbrev nodes : Arr 50000 41 := m ((c : Thread nD τ).loc main_arg0)
abbrev edges : EdgeWords := m ((c : Thread nD τ).loc main_arg1)
abbrev winA : Arr 41 192 := m ((c : Thread nD τ).loc main_arg2)
abbrev binV : Vec1 192 := m ((c : Thread nD τ).loc main_arg3)
abbrev wcA : (⟨3, ![4, 192, 192]⟩ : Shape).Idx → EReal := m ((c : Thread nD τ).loc main_arg4)
abbrev bcA : Arr 4 192 := m ((c : Thread nD τ).loc main_arg5)

/-- The per-node factors, as the first host stretch leaves them. -/
def fac : Vec1 50000 := W1 m ρ c (Proc.devRef .tc main_v13)

def wl (l : Fin 4) : Arr 192 192 := layerWeights (wcA m c) l
def bl (l : Fin 4) : Arr 1 192 := layerBias (bcA m c) l

/-- The messages of layer `l` for the features `h`. -/
def msg (l : Fin 4) (h : Arr 50000 192) : Arr 50000 192 := scaleRows (project h (wl m c l)) (asCol (fac m ρ c))

def feat0 : Arr 50000 192 := inputFeatures (nodes m c) (winA m c) (asRow (binV m c))
def feat1 : Arr 50000 192 := updateK (edges m c) (asCol (fac m ρ c)) (wl m c 0) (bl m c 0) (feat0 m c)
def feat2 : Arr 50000 192 := updateK (edges m c) (asCol (fac m ρ c)) (wl m c 1) (bl m c 1) (feat1 m ρ c)
def feat3 : Arr 50000 192 := updateK (edges m c) (asCol (fac m ρ c)) (wl m c 2) (bl m c 2) (feat2 m ρ c)
def feat4 : Arr 50000 192 := updateK (edges m c) (asCol (fac m ρ c)) (wl m c 3) (bl m c 3) (feat3 m ρ c)

/-! ## The first stretch -/

/-- The source word of edge `e`, as every gather finds it. -/
theorem read_src (e : Fin 800000) : (W1 m ρ c (Proc.devRef .tc main_v1) : IVec S800000 32) (ix1 e) = srcWord (edges m c) e := by
  have h : W1 m ρ c (Proc.devRef .tc main_v1) = shapeCast S800000 (extractStridedSlice S1x800000 ![0, 0] (edges m c) slices_S2x800000_S1x800000_0_0) shapeCasts_S1x800000_S800000 := by
    show StableHlo.after hostOps0 (W0 m ρ c) (Proc.devRef .tc main_v1) = _
    after_results
    rfl
  rw [h]
  exact edge_row_apply (edges m c) 0 _ _ 0 rfl e

/-- The destination word of edge `e`, as every scatter finds it. -/
theorem read_dst (e : Fin 800000) : (W1 m ρ c (Proc.devRef .tc main_v3) : IVec S800000 32) (ix1 e) = dstWord (edges m c) e := by
  have h : W1 m ρ c (Proc.devRef .tc main_v3) = shapeCast S800000 (extractStridedSlice S1x800000 ![1, 0] (edges m c) slices_S2x800000_S1x800000_1_0) shapeCasts_S1x800000_S800000 := by
    show StableHlo.after hostOps0 (W0 m ρ c) (Proc.devRef .tc main_v3) = _
    after_results
    rfl
  rw [h]
  exact edge_row_apply (edges m c) 1 _ _ 1 rfl e

/-- The factor column is the factor vector, one entry per row: the stretch's last two operations broadcast the
    vector along a new unit axis and reshape the input bias, whatever the seventeen operations before them left. -/
theorem facCol : (W1 m ρ c (Proc.devRef .tc main_v14) : Arr 50000 1) = asCol (n := 50000) (fac m ρ c) := by
  have hsplit : (hostOps0 : List (HloOp τ sig (Elt Ideal))) = hostOps0.take 17 ++ hostOps0.drop 17 :=
    (List.take_append_drop 17 _).symm
  have h14 : ∀ X : Valuation τ sig (Elt Ideal),
      StableHlo.after ((hostOps0 : List (HloOp τ sig (Elt Ideal))).drop 17) X (Proc.devRef .tc main_v14)
        = broadcastInDim S50000x1 ![0] bcast_S50000_S50000x1_0 (X (Proc.devRef .tc main_v13)) := by
    intro X
    simp only [hostOps0, List.drop_succ_cons, List.drop_zero]
    after_results
  have h13 : ∀ X : Valuation τ sig (Elt Ideal),
      StableHlo.after ((hostOps0 : List (HloOp τ sig (Elt Ideal))).drop 17) X (Proc.devRef .tc main_v13)
        = X (Proc.devRef .tc main_v13) := by
    intro X
    simp only [hostOps0, List.drop_succ_cons, List.drop_zero]
    after_results
  unfold fac
  show StableHlo.after hostOps0 (W0 m ρ c) (Proc.devRef .tc main_v14)
    = asCol (n := 50000) (StableHlo.after hostOps0 (W0 m ρ c) (Proc.devRef .tc main_v13))
  rw [hsplit, Cert.Lib.after_append, h14, h13]
  exact vec_col_eq _

/-- The input bias, reshaped to a row. -/
theorem binRow : (W1 m ρ c (Proc.devRef .tc main_v15) : Arr 1 192) = asRow (binV m c) := by
  have h : W1 m ρ c (Proc.devRef .tc main_v15) = shapeCast S1x192 (binV m c) shapeCasts_S192_S1x192 := by
    show StableHlo.after hostOps0 (W0 m ρ c) (Proc.devRef .tc main_v15) = _
    after_results
    rfl
  rw [h]
  exact vec_row_eq (binV m c) _

/-! ## Region 0 and region 1 -/

/-- Region 0 leaves the projected input features. -/
theorem stage0 : (W2 m ρ c (Proc.devRef .tc main_v16) : Arr 50000 192) = feat0 m c := by
  refine (W2_arr m ρ c 3).trans ((Region0.final3 (V1 m ρ) c).trans ?_)
  show addRow (project (W1 m ρ c (Proc.devRef .tc main_arg0)) (W1 m ρ c (Proc.devRef .tc main_arg2))) (W1 m ρ c (Proc.devRef .tc main_v15)) = _
  rw [x_1 m ρ c, win_1 m ρ c, binRow m ρ c]
  rfl

/-- The weights of layer 0, as region 1 finds them. -/
theorem firstW : (W3 m ρ c (Proc.devRef .tc main_v18) : Arr 192 192) = wl m c 0 := by
  have h : W3 m ρ c (Proc.devRef .tc main_v18) = shapeCast S192x192 (extractStridedSlice S1x192x192 ![0, 0, 0] (W2 m ρ c (Proc.devRef .tc main_arg4)) slices_S4x192x192_S1x192x192_0_0_0) shapeCasts_S1x192x192_S192x192 := by
    show StableHlo.after hostOps1 (W2 m ρ c) (Proc.devRef .tc main_v18) = _
    after_results
    rfl
  rw [h, wts_2 m ρ c]
  exact slab_eq (wcA m c) 0 _ _ 0 rfl

/-- Region 1 leaves the messages of layer 0. -/
theorem stage1 : (W4 m ρ c (Proc.devRef .tc main_v19) : Arr 50000 192) = msg m ρ c 0 (feat0 m c) := by
  refine (W4_arr m ρ c 3).trans ((Region1.final3 (V3 m ρ) c).trans ?_)
  show scaleRows (project (W3 m ρ c (Proc.devRef .tc main_v16)) (W3 m ρ c (Proc.devRef .tc main_v18))) (W3 m ρ c (Proc.devRef .tc main_v14)) = _
  rw [h0_3 m ρ c, stage0 m ρ c, firstW m ρ c, fac_3 m ρ c, facCol m ρ c]
  rfl

/-! ## Layer 0: the stretch before region 2, and region 2 -/

/-- The messages gathered along the real edges and summed per destination, as region 2 finds them. -/
theorem agg0 : (W5 m ρ c (Proc.devRef .tc main_v30) : Arr 50000 192)
    = sumInto 50000 (dstK (edges m c)) (gatherRows (srcK (edges m c)) (msg m ρ c 0 (feat0 m c))) := by
  have h : W5 m ρ c (Proc.devRef .tc main_v30) = hostEdgeSum (W4 m ρ c (Proc.devRef .tc main_v19)) (W4 m ρ c (Proc.devRef .tc main_v1)) (W4 m ρ c (Proc.devRef .tc main_v3)) := by
    show StableHlo.after hostOps2 (W4 m ρ c) (Proc.devRef .tc main_v30) = _
    after_results_simp
    rfl
  rw [h, hostEdgeSum_eq, stage1 m ρ c, (src_4 m ρ c), (dst_4 m ρ c)]
  refine congrArg₂ (fun s d => sumInto 50000 d (gatherRows s (msg m ρ c 0 (feat0 m c)))) ?_ ?_
  · funext e; show rowOf (wrap (W1 m ρ c (Proc.devRef .tc main_v1) (ix1 e))) = rowOf (wrap (srcWord (edges m c) e)); rw [read_src m ρ c e]
  · funext e; show (W1 m ρ c (Proc.devRef .tc main_v3) (ix1 e)).toInt = (dstWord (edges m c) e).toInt; rw [read_dst m ρ c e]

/-- The bias row of layer 0, as region 2 finds it. -/
theorem biasRow0 : (W5 m ρ c (Proc.devRef .tc main_v35) : Arr 1 192) = bl m c 0 := by
  have h : W5 m ρ c (Proc.devRef .tc main_v35) = shapeCast S1x192 (shapeCast S192 (extractStridedSlice S1x192 ![0, 0] (W4 m ρ c (Proc.devRef .tc main_arg5)) slices_S4x192_S1x192_0_0) shapeCasts_S1x192_S192) shapeCasts_S192_S1x192 := by
    show StableHlo.after hostOps2 (W4 m ρ c) (Proc.devRef .tc main_v35) = _
    after_results_simp
    rfl
  rw [h, (bias_4 m ρ c)]
  exact bias_row_eq (bcA m c) 0 _ _ _ 0 rfl

/-- The weights of layer 1, as region 2 finds them. -/
theorem nextW0 : (W5 m ρ c (Proc.devRef .tc main_v34) : Arr 192 192) = wl m c 1 := by
  have h : W5 m ρ c (Proc.devRef .tc main_v34) = shapeCast S192x192 (extractStridedSlice S1x192x192 ![1, 0, 0] (W4 m ρ c (Proc.devRef .tc main_arg4)) slices_S4x192x192_S1x192x192_1_0_0) shapeCasts_S1x192x192_S192x192 := by
    show StableHlo.after hostOps2 (W4 m ρ c) (Proc.devRef .tc main_v34) = _
    after_results_simp
    rfl
  rw [h, ((wts_4 m ρ c).trans (wts_2 m ρ c))]
  exact slab_eq (wcA m c) 1 _ _ 1 rfl

/-- Region 2 leaves the features after layer 0 … -/
theorem stage2_h : (W6 m ρ c (Proc.devRef .tc main_v36_0) : Arr 50000 192) = feat1 m ρ c := by
  refine (W6_arr m ρ c 6).trans ((Region2.final6 (V5 m ρ) c).trans ?_)
  show residual (W5 m ρ c (Proc.devRef .tc main_v30)) (W5 m ρ c (Proc.devRef .tc main_v19)) (W5 m ρ c (Proc.devRef .tc main_v14)) (W5 m ρ c (Proc.devRef .tc main_v35)) (W5 m ρ c (Proc.devRef .tc main_v16)) = _
  rw [agg0 m ρ c, (ms0_5 m ρ c), stage1 m ρ c, ((fac_5 m ρ c).trans (fac_3 m ρ c)), facCol m ρ c, biasRow0 m ρ c, (h0_5 m ρ c), stage0 m ρ c]
  rfl

/-- … and the messages of layer 1. -/
theorem stage2_ms : (W6 m ρ c (Proc.devRef .tc main_v36_1) : Arr 50000 192) = msg m ρ c 1 (feat1 m ρ c) := by
  refine (W6_arr m ρ c 7).trans ((Region2.final7 (V5 m ρ) c).trans ?_)
  show scaleRows (project (residual (W5 m ρ c (Proc.devRef .tc main_v30)) (W5 m ρ c (Proc.devRef .tc main_v19)) (W5 m ρ c (Proc.devRef .tc main_v14)) (W5 m ρ c (Proc.devRef .tc main_v35)) (W5 m ρ c (Proc.devRef .tc main_v16))) (W5 m ρ c (Proc.devRef .tc main_v34))) (W5 m ρ c (Proc.devRef .tc main_v14)) = _
  rw [agg0 m ρ c, (ms0_5 m ρ c), stage1 m ρ c, ((fac_5 m ρ c).trans (fac_3 m ρ c)), facCol m ρ c, biasRow0 m ρ c, (h0_5 m ρ c), stage0 m ρ c, nextW0 m ρ c]
  rfl

/-! ## Layer 1: the stretch before region 3, and region 3 -/

/-- The messages gathered along the real edges and summed per destination, as region 3 finds them. -/
theorem agg1 : (W7 m ρ c (Proc.devRef .tc main_v47) : Arr 50000 192)
    = sumInto 50000 (dstK (edges m c)) (gatherRows (srcK (edges m c)) (msg m ρ c 1 (feat1 m ρ c))) := by
  have h : W7 m ρ c (Proc.devRef .tc main_v47) = hostEdgeSum (W6 m ρ c (Proc.devRef .tc main_v36_1)) (W6 m ρ c (Proc.devRef .tc main_v1)) (W6 m ρ c (Proc.devRef .tc main_v3)) := by
    show StableHlo.after hostOps3 (W6 m ρ c) (Proc.devRef .tc main_v47) = _
    after_results_simp
    rfl
  rw [h, hostEdgeSum_eq, stage2_ms m ρ c, ((src_6 m ρ c).trans (src_4 m ρ c)), ((dst_6 m ρ c).trans (dst_4 m ρ c))]
  refine congrArg₂ (fun s d => sumInto 50000 d (gatherRows s (msg m ρ c 1 (feat1 m ρ c)))) ?_ ?_
  · funext e; show rowOf (wrap (W1 m ρ c (Proc.devRef .tc main_v1) (ix1 e))) = rowOf (wrap (srcWord (edges m c) e)); rw [read_src m ρ c e]
  · funext e; show (W1 m ρ c (Proc.devRef .tc main_v3) (ix1 e)).toInt = (dstWord (edges m c) e).toInt; rw [read_dst m ρ c e]

/-- The bias row of layer 1, as region 3 finds it. -/
theorem biasRow1 : (W7 m ρ c (Proc.devRef .tc main_v52) : Arr 1 192) = bl m c 1 := by
  have h : W7 m ρ c (Proc.devRef .tc main_v52) = shapeCast S1x192 (shapeCast S192 (extractStridedSlice S1x192 ![1, 0] (W6 m ρ c (Proc.devRef .tc main_arg5)) slices_S4x192_S1x192_1_0) shapeCasts_S1x192_S192) shapeCasts_S192_S1x192 := by
    show StableHlo.after hostOps3 (W6 m ρ c) (Proc.devRef .tc main_v52) = _
    after_results_simp
    rfl
  rw [h, ((bias_6 m ρ c).trans (bias_4 m ρ c))]
  exact bias_row_eq (bcA m c) 1 _ _ _ 1 rfl

/-- The weights of layer 2, as region 3 finds them. -/
theorem nextW1 : (W7 m ρ c (Proc.devRef .tc main_v51) : Arr 192 192) = wl m c 2 := by
  have h : W7 m ρ c (Proc.devRef .tc main_v51) = shapeCast S192x192 (extractStridedSlice S1x192x192 ![2, 0, 0] (W6 m ρ c (Proc.devRef .tc main_arg4)) slices_S4x192x192_S1x192x192_2_0_0) shapeCasts_S1x192x192_S192x192 := by
    show StableHlo.after hostOps3 (W6 m ρ c) (Proc.devRef .tc main_v51) = _
    after_results_simp
    rfl
  rw [h, ((wts_6 m ρ c).trans ((wts_4 m ρ c).trans (wts_2 m ρ c)))]
  exact slab_eq (wcA m c) 2 _ _ 2 rfl

/-- Region 3 leaves the features after layer 1 … -/
theorem stage3_h : (W8 m ρ c (Proc.devRef .tc main_v53_0) : Arr 50000 192) = feat2 m ρ c := by
  refine (W8_arr m ρ c 6).trans ((Region3.final6 (V7 m ρ) c).trans ?_)
  show residual (W7 m ρ c (Proc.devRef .tc main_v47)) (W7 m ρ c (Proc.devRef .tc main_v36_1)) (W7 m ρ c (Proc.devRef .tc main_v14)) (W7 m ρ c (Proc.devRef .tc main_v52)) (W7 m ρ c (Proc.devRef .tc main_v36_0)) = _
  rw [agg1 m ρ c, (ms1_7 m ρ c), stage2_ms m ρ c, ((fac_7 m ρ c).trans ((fac_5 m ρ c).trans (fac_3 m ρ c))), facCol m ρ c, biasRow1 m ρ c, (h1_7 m ρ c), stage2_h m ρ c]
  rfl

/-- … and the messages of layer 2. -/
theorem stage3_ms : (W8 m ρ c (Proc.devRef .tc main_v53_1) : Arr 50000 192) = msg m ρ c 2 (feat2 m ρ c) := by
  refine (W8_arr m ρ c 7).trans ((Region3.final7 (V7 m ρ) c).trans ?_)
  show scaleRows (project (residual (W7 m ρ c (Proc.devRef .tc main_v47)) (W7 m ρ c (Proc.devRef .tc main_v36_1)) (W7 m ρ c (Proc.devRef .tc main_v14)) (W7 m ρ c (Proc.devRef .tc main_v52)) (W7 m ρ c (Proc.devRef .tc main_v36_0))) (W7 m ρ c (Proc.devRef .tc main_v51))) (W7 m ρ c (Proc.devRef .tc main_v14)) = _
  rw [agg1 m ρ c, (ms1_7 m ρ c), stage2_ms m ρ c, ((fac_7 m ρ c).trans ((fac_5 m ρ c).trans (fac_3 m ρ c))), facCol m ρ c, biasRow1 m ρ c, (h1_7 m ρ c), stage2_h m ρ c, nextW1 m ρ c]
  rfl

/-! ## Layer 2: the stretch before region 4, and region 4 -/

/-- The messages gathered along the real edges and summed per destination, as region 4 finds them. -/
theorem agg2 : (W9 m ρ c (Proc.devRef .tc main_v64) : Arr 50000 192)
    = sumInto 50000 (dstK (edges m c)) (gatherRows (srcK (edges m c)) (msg m ρ c 2 (feat2 m ρ c))) := by
  have h : W9 m ρ c (Proc.devRef .tc main_v64) = hostEdgeSum (W8 m ρ c (Proc.devRef .tc main_v53_1)) (W8 m ρ c (Proc.devRef .tc main_v1)) (W8 m ρ c (Proc.devRef .tc main_v3)) := by
    show StableHlo.after hostOps4 (W8 m ρ c) (Proc.devRef .tc main_v64) = _
    after_results_simp
    rfl
  rw [h, hostEdgeSum_eq, stage3_ms m ρ c, ((src_8 m ρ c).trans ((src_6 m ρ c).trans (src_4 m ρ c))), ((dst_8 m ρ c).trans ((dst_6 m ρ c).trans (dst_4 m ρ c)))]
  refine congrArg₂ (fun s d => sumInto 50000 d (gatherRows s (msg m ρ c 2 (feat2 m ρ c)))) ?_ ?_
  · funext e; show rowOf (wrap (W1 m ρ c (Proc.devRef .tc main_v1) (ix1 e))) = rowOf (wrap (srcWord (edges m c) e)); rw [read_src m ρ c e]
  · funext e; show (W1 m ρ c (Proc.devRef .tc main_v3) (ix1 e)).toInt = (dstWord (edges m c) e).toInt; rw [read_dst m ρ c e]

/-- The bias row of layer 2, as region 4 finds it. -/
theorem biasRow2 : (W9 m ρ c (Proc.devRef .tc main_v69) : Arr 1 192) = bl m c 2 := by
  have h : W9 m ρ c (Proc.devRef .tc main_v69) = shapeCast S1x192 (shapeCast S192 (extractStridedSlice S1x192 ![2, 0] (W8 m ρ c (Proc.devRef .tc main_arg5)) slices_S4x192_S1x192_2_0) shapeCasts_S1x192_S192) shapeCasts_S192_S1x192 := by
    show StableHlo.after hostOps4 (W8 m ρ c) (Proc.devRef .tc main_v69) = _
    after_results_simp
    rfl
  rw [h, ((bias_8 m ρ c).trans ((bias_6 m ρ c).trans (bias_4 m ρ c)))]
  exact bias_row_eq (bcA m c) 2 _ _ _ 2 rfl

/-- The weights of layer 3, as region 4 finds them. -/
theorem nextW2 : (W9 m ρ c (Proc.devRef .tc main_v68) : Arr 192 192) = wl m c 3 := by
  have h : W9 m ρ c (Proc.devRef .tc main_v68) = shapeCast S192x192 (extractStridedSlice S1x192x192 ![3, 0, 0] (W8 m ρ c (Proc.devRef .tc main_arg4)) slices_S4x192x192_S1x192x192_3_0_0) shapeCasts_S1x192x192_S192x192 := by
    show StableHlo.after hostOps4 (W8 m ρ c) (Proc.devRef .tc main_v68) = _
    after_results_simp
    rfl
  rw [h, ((wts_8 m ρ c).trans ((wts_6 m ρ c).trans ((wts_4 m ρ c).trans (wts_2 m ρ c))))]
  exact slab_eq (wcA m c) 3 _ _ 3 rfl

/-- Region 4 leaves the features after layer 2 … -/
theorem stage4_h : (W10 m ρ c (Proc.devRef .tc main_v70_0) : Arr 50000 192) = feat3 m ρ c := by
  refine (W10_arr m ρ c 6).trans ((Region4.final6 (V9 m ρ) c).trans ?_)
  show residual (W9 m ρ c (Proc.devRef .tc main_v64)) (W9 m ρ c (Proc.devRef .tc main_v53_1)) (W9 m ρ c (Proc.devRef .tc main_v14)) (W9 m ρ c (Proc.devRef .tc main_v69)) (W9 m ρ c (Proc.devRef .tc main_v53_0)) = _
  rw [agg2 m ρ c, (ms2_9 m ρ c), stage3_ms m ρ c, ((fac_9 m ρ c).trans ((fac_7 m ρ c).trans ((fac_5 m ρ c).trans (fac_3 m ρ c)))), facCol m ρ c, biasRow2 m ρ c, (h2_9 m ρ c), stage3_h m ρ c]
  rfl

/-- … and the messages of layer 3. -/
theorem stage4_ms : (W10 m ρ c (Proc.devRef .tc main_v70_1) : Arr 50000 192) = msg m ρ c 3 (feat3 m ρ c) := by
  refine (W10_arr m ρ c 7).trans ((Region4.final7 (V9 m ρ) c).trans ?_)
  show scaleRows (project (residual (W9 m ρ c (Proc.devRef .tc main_v64)) (W9 m ρ c (Proc.devRef .tc main_v53_1)) (W9 m ρ c (Proc.devRef .tc main_v14)) (W9 m ρ c (Proc.devRef .tc main_v69)) (W9 m ρ c (Proc.devRef .tc main_v53_0))) (W9 m ρ c (Proc.devRef .tc main_v68))) (W9 m ρ c (Proc.devRef .tc main_v14)) = _
  rw [agg2 m ρ c, (ms2_9 m ρ c), stage3_ms m ρ c, ((fac_9 m ρ c).trans ((fac_7 m ρ c).trans ((fac_5 m ρ c).trans (fac_3 m ρ c)))), facCol m ρ c, biasRow2 m ρ c, (h2_9 m ρ c), stage3_h m ρ c, nextW2 m ρ c]
  rfl

/-! ## Layer 3: the stretch before region 5, and region 5 -/

theorem agg3 : (W11 m ρ c (Proc.devRef .tc main_v81) : Arr 50000 192)
    = sumInto 50000 (dstK (edges m c)) (gatherRows (srcK (edges m c)) (msg m ρ c 3 (feat3 m ρ c))) := by
  have h : W11 m ρ c (Proc.devRef .tc main_v81) = hostEdgeSum (W10 m ρ c (Proc.devRef .tc main_v70_1)) (W10 m ρ c (Proc.devRef .tc main_v1)) (W10 m ρ c (Proc.devRef .tc main_v3)) := by
    show StableHlo.after hostOps5 (W10 m ρ c) (Proc.devRef .tc main_v81) = _
    after_results_simp
    rfl
  rw [h, hostEdgeSum_eq, stage4_ms m ρ c, (src_10 m ρ c).trans ((src_8 m ρ c).trans ((src_6 m ρ c).trans (src_4 m ρ c))),
    (dst_10 m ρ c).trans ((dst_8 m ρ c).trans ((dst_6 m ρ c).trans (dst_4 m ρ c)))]
  refine congrArg₂ (fun s d => sumInto 50000 d (gatherRows s (msg m ρ c 3 (feat3 m ρ c)))) ?_ ?_
  · funext e; show rowOf (wrap (W1 m ρ c (Proc.devRef .tc main_v1) (ix1 e))) = rowOf (wrap (srcWord (edges m c) e)); rw [read_src m ρ c e]
  · funext e; show (W1 m ρ c (Proc.devRef .tc main_v3) (ix1 e)).toInt = (dstWord (edges m c) e).toInt; rw [read_dst m ρ c e]

theorem biasRow3 : (W11 m ρ c (Proc.devRef .tc main_v84) : Arr 1 192) = bl m c 3 := by
  have h : W11 m ρ c (Proc.devRef .tc main_v84) = shapeCast S1x192 (shapeCast S192 (extractStridedSlice S1x192 ![3, 0] (W10 m ρ c (Proc.devRef .tc main_arg5)) slices_S4x192_S1x192_3_0) shapeCasts_S1x192_S192) shapeCasts_S192_S1x192 := by
    show StableHlo.after hostOps5 (W10 m ρ c) (Proc.devRef .tc main_v84) = _
    after_results_simp
    rfl
  rw [h, (bias_10 m ρ c).trans ((bias_8 m ρ c).trans ((bias_6 m ρ c).trans (bias_4 m ρ c)))]
  exact bias_row_eq (bcA m c) 3 _ _ _ 3 rfl

/-- Region 5 leaves the features after the last layer. -/
theorem stage5 : (W12 m ρ c (Proc.devRef .tc main_v85) : Arr 50000 192) = feat4 m ρ c := by
  refine (W12_arr m ρ c 5).trans ((Region5.final5 (V11 m ρ) c).trans ?_)
  show residual (W11 m ρ c (Proc.devRef .tc main_v81)) (W11 m ρ c (Proc.devRef .tc main_v70_1)) (W11 m ρ c (Proc.devRef .tc main_v14)) (W11 m ρ c (Proc.devRef .tc main_v84)) (W11 m ρ c (Proc.devRef .tc main_v70_0)) = _
  rw [agg3 m ρ c, ms3_11 m ρ c, stage4_ms m ρ c, (fac_11 m ρ c).trans ((fac_9 m ρ c).trans ((fac_7 m ρ c).trans ((fac_5 m ρ c).trans (fac_3 m ρ c)))),
    facCol m ρ c, biasRow3 m ρ c, h3_11 m ρ c, stage4_h m ρ c]
  rfl

/-! ## The last stretch and the read-out -/

theorem headBias7 : (W13 m ρ c (Proc.devRef .tc main_v86) : Arr 1 192) = asRow (m ((c : Thread nD τ).loc main_arg7) : Vec1 192) := by
  have h : W13 m ρ c (Proc.devRef .tc main_v86) = shapeCast S1x192 (W12 m ρ c (Proc.devRef .tc main_arg7)) shapeCasts_S192_S1x192 := by
    show StableHlo.after hostOps6 (W12 m ρ c) (Proc.devRef .tc main_v86) = _
    after_results
    rfl
  rw [h, arg7_12 m ρ c]
  exact vec_row_eq _ _

theorem headBias9 : (W13 m ρ c (Proc.devRef .tc main_v87) : Arr 1 96) = asRow (m ((c : Thread nD τ).loc main_arg9) : Vec1 96) := by
  have h : W13 m ρ c (Proc.devRef .tc main_v87) = shapeCast S1x96 (W12 m ρ c (Proc.devRef .tc main_arg9)) shapeCasts_S96_S1x96 := by
    show StableHlo.after hostOps6 (W12 m ρ c) (Proc.devRef .tc main_v87) = _
    after_results
    rfl
  rw [h, arg9_12 m ρ c]
  exact vec_row_eq _ _

theorem headBias11 : (W13 m ρ c (Proc.devRef .tc main_v88) : Arr 1 2) = asRow (m ((c : Thread nD τ).loc main_arg11) : Vec1 2) := by
  have h : W13 m ρ c (Proc.devRef .tc main_v88) = shapeCast S1x2 (W12 m ρ c (Proc.devRef .tc main_arg11)) shapeCasts_S2_S1x2 := by
    show StableHlo.after hostOps6 (W12 m ρ c) (Proc.devRef .tc main_v88) = _
    after_results
    rfl
  rw [h, arg11_12 m ρ c]
  exact vec_row_eq _ _

theorem headBias13 : (W13 m ρ c (Proc.devRef .tc main_v89) : Arr 1 96) = asRow (m ((c : Thread nD τ).loc main_arg13) : Vec1 96) := by
  have h : W13 m ρ c (Proc.devRef .tc main_v89) = shapeCast S1x96 (W12 m ρ c (Proc.devRef .tc main_arg13)) shapeCasts_S96_S1x96 := by
    show StableHlo.after hostOps6 (W12 m ρ c) (Proc.devRef .tc main_v89) = _
    after_results
    rfl
  rw [h, arg13_12 m ρ c]
  exact vec_row_eq _ _

theorem headBias15 : (W13 m ρ c (Proc.devRef .tc main_v90) : Arr 1 1) = asRow (m ((c : Thread nD τ).loc main_arg15) : Vec1 1) := by
  have h : W13 m ρ c (Proc.devRef .tc main_v90) = shapeCast S1x1 (W12 m ρ c (Proc.devRef .tc main_arg15)) shapeCasts_S1_S1x1 := by
    show StableHlo.after hostOps6 (W12 m ρ c) (Proc.devRef .tc main_v90) = _
    after_results
    rfl
  rw [h, arg15_12 m ρ c]
  exact vec_row_eq _ _

/-- THE RESULT: the result buffer at the return holds the network, in the kernel's arrangement, of the arguments. -/
theorem result_eq : (W14 m ρ c (Proc.devRef .tc main_v91) : Arr 50000 2)
    = netK (nodes m c) (edges m c) (fac m ρ c) (winA m c) (asRow (binV m c)) (layerWeights (wcA m c)) (layerBias (bcA m c))
        (m ((c : Thread nD τ).loc main_arg6)) (asRow (m ((c : Thread nD τ).loc main_arg7) : Vec1 192))
        (m ((c : Thread nD τ).loc main_arg8)) (asRow (m ((c : Thread nD τ).loc main_arg9) : Vec1 96))
        (m ((c : Thread nD τ).loc main_arg10)) (asRow (m ((c : Thread nD τ).loc main_arg11) : Vec1 2))
        (m ((c : Thread nD τ).loc main_arg12)) (asRow (m ((c : Thread nD τ).loc main_arg13) : Vec1 96))
        (m ((c : Thread nD τ).loc main_arg14)) (asRow (m ((c : Thread nD τ).loc main_arg15) : Vec1 1)) := by
  refine (W14_arr m ρ c 11).trans ((Region6.final11 (V13 m ρ) c).trans ?_)
  show readout (W13 m ρ c (Proc.devRef .tc main_v85)) (W13 m ρ c (Proc.devRef .tc main_arg6)) (W13 m ρ c (Proc.devRef .tc main_v86)) (W13 m ρ c (Proc.devRef .tc main_arg8)) (W13 m ρ c (Proc.devRef .tc main_v87))
    (W13 m ρ c (Proc.devRef .tc main_arg10)) (W13 m ρ c (Proc.devRef .tc main_v88)) (W13 m ρ c (Proc.devRef .tc main_arg12)) (W13 m ρ c (Proc.devRef .tc main_v89)) (W13 m ρ c (Proc.devRef .tc main_arg14)) (W13 m ρ c (Proc.devRef .tc main_v90)) eps = _
  rw [h4_13 m ρ c, stage5 m ρ c, arg6_13 m ρ c, arg8_13 m ρ c, arg10_13 m ρ c, arg12_13 m ρ c, arg14_13 m ρ c,
    headBias7 m ρ c, headBias9 m ρ c, headBias11 m ρ c, headBias13 m ρ c, headBias15 m ρ c]
  rfl

end Cert.KernelIdeal.Chain

end
-- ==== Proof.FactorBridge.lean ====
/-
  The per-node normalisation factor is the same array in both programs.

  Each program computes, before anything else, one factor per node from the edge list alone: the destination words
  of the 800000 edges (row 1 of the list) are followed by one self-loop word `0, 1, …, 49999` per node; a one is
  added into a zero vector at each of these 850000 positions, which counts every node's incoming edges and its
  loop; the count is raised to at least one and the factor is its inverse square root, `1 / sqrt (max (count, 1))`.

  The two programs spell this with the same operations on the same operands, each over its own copies of the shape
  names and of the scatter's dimension numbers.  So the equality is a congruence: the index array, the zero vector,
  the vector of ones, the lower bound and the dimension numbers are equal one by one, and the scatter-add itself is
  never opened.
-/
import proofs.«181823_j62440234549671_2_alg».proof.Proof.Gen.KernelIdeal.Frame
import proofs.«181823_j62440234549671_2_alg».proof.Proof.Gen.ReferenceIdeal.Read
import Idealize.ShloMosaic.PureOps.Ideal

noncomputable section

namespace Cert.Bridge

open Idealize.ShloMosaic Idealize.ShloMosaic.TcCoe Idealize.SL.Sem Idealize.ShloMosaic.StableHlo

/-- Equal operands give equal factors: `1 / sqrt (max (scatter-add d z ix o) e)` depends only on its five operands. -/
theorem factor_congr {s si u : Shape} (d d' : ScatterDims s si u) (z z' : FVec Ideal s .f32) (ix ix' : IVec si 32)
    (o o' : FVec Ideal u .f32) (e e' : FVec Ideal s .f32)
    (hd : d = d') (hz : z = z') (hix : ix = ix') (ho : o = o') (he : e = e') :
    Host.rsqrt (maximumf (Host.scatterAdd d z ix o) e) = Host.rsqrt (maximumf (Host.scatterAdd d' z' ix' o') e') := by
  subst hd hz hix ho he
  rfl

open Cert.ReferenceIdeal.Read in
/-- The factor vector the kernel's program holds when its first region starts is the reference's factor vector of
    the same edge list. -/
theorem factor_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W1 m ρ c (Proc.devRef .tc Cert.KernelIdeal.main_v13)
      = Cert.ReferenceIdeal.Read.val_main_v13 (F := Ideal)
          (m ((c : Thread Cert.KernelIdeal.nD Cert.KernelIdeal.τ).loc Cert.KernelIdeal.main_arg1)) := by
  show StableHlo.after Cert.KernelIdeal.Gen.hostOps0 (Cert.KernelIdeal.Gen.W0 m ρ c)
      (Proc.devRef .tc Cert.KernelIdeal.main_v13) = _
  -- the left side as the operations' term over the edge list
  after_results
  -- the right side as the operations' term over the edge list
  unfold val_main_v13 val_main_v12 val_main_v11 val_main_v10 val_main_v9 val_main_v8 val_main_v7 val_main_v6 val_main_v5
    val_main_v4 val_main_v0 val_main_cst val_main_cst_0 val_main_cst_1
  refine factor_congr _ _ _ _ _ _ _ _ _ _ ?_ ?_ ?_ ?_ ?_
  · -- the scatter's dimension numbers: the same lists in both copies
    rfl
  · -- the zero vector the counts start from
    rfl
  · -- the destination words followed by the loop words, as a column of indices
    rfl
  · -- the 850000 ones that are added
    rfl
  · -- the lower bound one
    rfl

end Cert.Bridge

end
-- ==== Proof.RefSmall.lean ====
/-
  Two small facts about the reference program's first stages, over the extended reals.

  * The input projection.  The reference multiplies the node features by the input weights and adds the bias vector,
    which it first lays out as a row and then repeats over all rows.  That is `inputFeatures`: the projection plus the
    bias row, the vector read as a `1 × 192` row.

  * The degree factor.  Each node's factor is `1 / sqrt (max deg 1)`, where `deg` is a sum scattered over the edge
    list.  Whatever extended real `deg` is, `max deg 1` is either `+∞`, whose inverse square root is `0`, or a real
    number `≥ 1`, whose inverse square root is the positive real `(sqrt ·)⁻¹`.  So every factor is a nonnegative real,
    and the scattered sum itself never has to be opened.
-/
import proofs.«181823_j62440234549671_2_alg».proof.Proof.Gen.ReferenceIdeal.Read
import proofs.«181823_j62440234549671_2_alg».proof.Proof.Spec
import proofs.«181823_j62440234549671_2_alg».proof.Proof.LibDenseLayers
import Idealize.ShloMosaic.Lib.IdealHost
import Idealize.ShloMosaic.Lib.ValueLayout

noncomputable section

open Idealize.ShloMosaic Idealize.ShloMosaic.ValueIdx

namespace Cert.ReferenceIdeal.RefValue

open Cert.ReferenceIdeal Cert.ReferenceIdeal.Gen Cert.ReferenceIdeal.Read Cert.Spec Cert.Layers

/-! ## The input projection -/

/-- The bias vector cast to a row is the vector read as a row: both read entry `q` at `(0, q)`. -/
theorem cast_row_eq_asRow (b : (⟨1, ![192]⟩ : Shape).Idx → EReal) (hc : (⟨1, ![192]⟩ : Shape).ShapeCasts ⟨2, ![1, 192]⟩) :
    shapeCast ⟨2, ![1, 192]⟩ b hc = asRow b := by
  funext j
  obtain ⟨u, q, rfl⟩ : ∃ (u : Fin 1) (q : Fin 192), j = ix2 u q := ⟨j 0, j 1, eq_ix2 j⟩
  exact shapeCast_a_1a_apply b hc u q

/-- The reference's input stage is the projection of the features plus the bias row. -/
theorem ref_input (x0 : (⟨S50000x41, .f32⟩ : BufTy).Contents (Elt Ideal)) (x2 : (⟨S41x192, .f32⟩ : BufTy).Contents (Elt Ideal))
    (x3 : (⟨S192, .f32⟩ : BufTy).Contents (Elt Ideal)) :
    val_main_v33 (F := Ideal) x0 x2 x3 = inputFeatures x0 x2 (asRow x3) := by
  have hc : (⟨1, ![192]⟩ : Shape).ShapeCasts ⟨2, ![1, 192]⟩ := by decide
  unfold val_main_v33 val_main_v32 val_main_v31 val_main_v30 inputFeatures
  rw [Cert.Layers.dotGeneral_eq_project (M := 50000) (K := 41) (N := 192) dot_S50000x41_S41x192_S50000x192_1_0_0_1_n_n rfl none x0 x2]
  refine (Cert.Layers.addf_bias_eq_addRow (M := 50000) (N := 192) (project x0 x2) x3 bcast_S192_S1x192_1
    bcast_S1x192_S50000x192_0_1 hc).trans ?_
  exact congrArg (addRow (project x0 x2)) (cast_row_eq_asRow x3 hc)

/-! ## The degree factor -/

/-- For every extended real `y`, the inverse square root of `max y 1` is a nonnegative real. -/
theorem rsqrt_max_one_real (y : EReal) : ∃ r : ℝ, 0 ≤ r ∧ Ideal.rsqrt (max y 1) = (r : EReal) := by
  induction y using EReal.rec
  · -- `max ⊥ 1 = 1`
    refine ⟨(Real.sqrt 1)⁻¹, by positivity, ?_⟩
    rw [max_eq_right bot_le]
    show Ideal.rsqrt ((1 : ℝ) : EReal) = _
    rw [Ideal.rsqrt_coe, if_neg (by norm_num), if_neg (by norm_num)]
  · -- a real `r`: `max r 1` is a real `≥ 1`
    rename_i r
    have h1 : (1 : ℝ) ≤ max r 1 := le_max_right r 1
    refine ⟨(Real.sqrt (max r 1))⁻¹, by positivity, ?_⟩
    have hmax : max (r : EReal) 1 = ((max r 1 : ℝ) : EReal) := by
      rw [← EReal.coe_one]
      exact (EReal.coe_strictMono.monotone.map_max).symm
    rw [hmax, Ideal.rsqrt_coe, if_neg (by linarith), if_neg (by linarith)]
  · -- `max ⊤ 1 = ⊤`, whose inverse square root is `0`
    refine ⟨0, le_refl 0, ?_⟩
    rw [max_eq_left le_top, Ideal.rsqrt_top]
    rfl

/-- Every node's degree factor in the reference is a nonnegative real, whatever the edge list. -/
theorem dis_real : ∀ (x1 : (⟨S2x800000, .i32⟩ : BufTy).Contents (Elt Ideal)) (i : S50000.Idx),
    ∃ r : ℝ, 0 ≤ r ∧ val_main_v13 (F := Ideal) x1 i = (r : EReal) := by
  intro x1 i
  have h : val_main_v13 (F := Ideal) x1 i = Ideal.rsqrt (max (val_main_v10 (F := Ideal) x1 i) 1) := by
    rw [val_main_v13_apply, val_main_v12_apply, val_main_v11_apply, val_main_cst_1_apply]
    generalize val_main_v10 (F := Ideal) x1 i = y
    show Ideal.rsqrt (max y (Ideal.ofBits .f32 0x3F800000#32)) = _
    rw [Ideal.ofBits_one_f32]
  rw [h]
  exact rsqrt_max_one_real _

end Cert.ReferenceIdeal.RefValue

end
-- ==== Proof.RefElemGather.lean ====
/-
  A gather of single elements of a vector read at an index.

  What `x[idx]` of a table `x : [N]` at an integer vector `idx : [E]` lowers to: a gather with no offset dimension,
  collapsed_slice_dims `[0]`, start_index_map `[0]`, slice sizes `[1]` and index_vector_dim 1 over the indices as
  `[E, 1]`.  Result element `e` is `x` at the position `idx[e, 0]` — read as a signed integer and clamped into
  `[0, N − 1]`, as a gather clamps every start index.
-/
import Idealize.ShloMosaic.PureOps
import Idealize.ShloMosaic.Lib.ValueIdx

noncomputable section

namespace Cert.ReferenceIdeal.RefValue

open Idealize.ShloMosaic Idealize.ShloMosaic.ValueIdx

variable {α : Type}

/-- Those dimension numbers for a table `[N]`, start indices `[E, 1]` and result `[E]`. -/
abbrev elemDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the table at the clamped position `idx[e, 0]`. -/
theorem gather_elems_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemDims N E wf) x idx (ix1 e)
      = x (ix1 (⟨min (idx (ix2 e 0)).toInt.toNat (N - 1), by omega⟩ : Fin N)) := by
  unfold Host.gather
  congr 1
  funext a
  obtain rfl : a = 0 := Subsingleton.elim _ _
  refine Fin.ext ?_
  show (elemDims N E wf).start (ix1 e) idx 0 + (elemDims N E wf).batchCoord (ix1 e) 0
      + (elemDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N E wf).startIndexMap from List.mem_singleton.mpr rfl)]
  have hsi : (elemDims N E wf).siIdx (ix1 e) ⟨List.idxOf (0 : Fin 1) (elemDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Cert.ReferenceIdeal.RefValue

end
-- ==== Proof.RefEdges.lean ====
/-
  The index data of the reference's graph convolution, read element by element.

  The reference appends one self-loop per node to the edge list: each of the two index vectors (sources, destinations)
  is the corresponding row of the edge list followed by `0, 1, …, 49999`.  A negative entry `w` is replaced by
  `w + 50000` before it is used as a row number of a gather (the array-indexing convention), and a gather clamps the
  row number into `[0, 49999]`.  The normalisation coefficient of edge `e` is the product of the per-node factor at
  its two end points; the per-node factor itself is never opened here.
-/
import proofs.«181823_j62440234549671_2_alg».proof.Proof.Gen.ReferenceIdeal.Read
import proofs.«181823_j62440234549671_2_alg».proof.Proof.Spec
import proofs.«181823_j62440234549671_2_alg».proof.Proof.RefElemGather
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.Read Cert.Spec Cert.Layers
open Idealize.ShloMosaic Idealize.ShloMosaic.ValueIdx

/-! ## Layout operations on the 850000 edge slots -/

/-- A vector over the edge slots broadcast to a one-column array reads, at `(e, 0)`, its entry `e`. -/
theorem col_of_vec_apply {α : Type} (y : S850000.Idx → α) (e : Fin 850000) (u : Fin 1) :
    broadcastInDim S850000x1 ![0] bcast_S850000_S850000x1_0 y (ix2 e u) = y (ix1 e) :=
  broadcastInDim_apply _ bcast_S850000_S850000x1_0 y (ix2 e u) (ix1 e) (fun a => by
    match a with
    | ⟨0, _⟩ => show e.val = if (850000 : Nat) = 1 then 0 else e.val; rw [if_neg (by decide)])

/-- A one-column array over the edge slots broadcast over the 192 features reads, at `(e, q)`, its entry `(e, 0)`. -/
theorem col_over_features_apply {α : Type} (y : S850000x1.Idx → α) (e : Fin 850000) (q : Fin 192) :
    broadcastInDim S850000x192 ![0, 1] bcast_S850000x1_S850000x192_0_1 y (ix2 e q) = y (ix2 e (0 : Fin 1)) :=
  broadcastInDim_apply _ bcast_S850000x1_S850000x192_0_1 y (ix2 e q) (ix2 e (0 : Fin 1)) (fun a => by
    match a with
    | ⟨0, _⟩ => show e.val = if (850000 : Nat) = 1 then 0 else e.val; rw [if_neg (by decide)]
    | ⟨1, _⟩ => show 0 = if (1 : Nat) = 1 then 0 else q.val; rw [if_pos rfl])

/-! ## The two index vectors: a row of the edge list, then one self-loop per node -/

/-- 800000 words followed by the node numbers `0 … 49999`, read at slot `e`. -/
theorem concat_loops_apply (f : S800000.Idx → BitVec 32) (e : Fin 850000) :
    concatenate S850000 0 [⟨S800000, f⟩, ⟨S50000, val_main_v0 (F := Ideal)⟩] concatenates_S800000_S50000_S850000_d0 (ix1 e)
      = withLoops (fun e' => f (ix1 e')) e := by
  unfold withLoops
  by_cases h : e.val < 800000
  · rw [dif_pos h]
    exact concatenate_pair_apply_left (0 : Fin 1) f (val_main_v0 (F := Ideal)) concatenates_S800000_S50000_S850000_d0
      (ix1 e) rfl (ix1 (⟨e.val, h⟩ : Fin 800000)) (fun b => by
        match b with
        | ⟨0, _⟩ => rfl)
  · rw [dif_neg h]
    have h2 : e.val - 800000 < 50000 := by have := e.isLt; omega
    refine (concatenate_pair_apply_right (0 : Fin 1) f (val_main_v0 (F := Ideal)) concatenates_S800000_S50000_S850000_d0
      (ix1 e) rfl rfl (ix1 (⟨e.val - 800000, h2⟩ : Fin 50000))
      (fun b hb => absurd (Subsingleton.elim _ _) hb) ?_).trans ?_
    · show (e.val - 800000) + 800000 = e.val
      omega
    · rfl

/-- The source vector: row 0 of the edge list, then the loops. -/
theorem src_words (x1 : (⟨S2x800000, .i32⟩ : BufTy).Contents (Elt Ideal)) (e : Fin 850000) :
    val_main_v3 (F := Ideal) x1 (ix1 e) = withLoops (srcWord x1) e := by
  unfold val_main_v3
  rw [concat_loops_apply]
  refine congrArg (fun g => withLoops g e) (funext fun e' => ?_)
  rw [val_main_v2_apply, val_main_v1_apply]
  unfold srcWord
  refine congrArg x1 (funext fun a => Fin.ext ?_)
  match a with
  | ⟨0, _⟩ => rfl
  | ⟨1, _⟩ => show e'.val % 800000 = e'.val; exact Nat.mod_eq_of_lt e'.isLt

/-- The destination vector: row 1 of the edge list, then the loops. -/
theorem dst_words (x1 : (⟨S2x800000, .i32⟩ : BufTy).Contents (Elt Ideal)) (e : Fin 850000) :
    val_main_v6 (F := Ideal) x1 (ix1 e) = withLoops (dstWord x1) e := by
  unfold val_main_v6
  rw [concat_loops_apply]
  refine congrArg (fun g => withLoops g e) (funext fun e' => ?_)
  rw [val_main_v5_apply, val_main_v4_apply]
  unfold dstWord
  refine congrArg x1 (funext fun a => Fin.ext ?_)
  match a with
  | ⟨0, _⟩ => rfl
  | ⟨1, _⟩ => show e'.val % 800000 = e'.val; exact Nat.mod_eq_of_lt e'.isLt

/-! ## Negative entries wrapped around -/

/-- `select (w < 0) (w + 50000) w` over the edge slots, read at slot `e`. -/
theorem wrap_apply (w : IVec S850000 32) (e : Fin 850000) :
    select (cmpi .slt w (broadcastInDim S850000 ![] bcast_S_S850000 (constantI S_ 32 0#32)))
        (addi w (broadcastInDim S850000 ![] bcast_S_S850000 (constantI S_ 32 50000#32))) w (ix1 e)
      = wrap (w (ix1 e)) := by
  show Scalar.select (IntOp.cmpi .slt (w (ix1 e)) (broadcastInDim S850000 ![] bcast_S_S850000 (constantI S_ 32 0#32) (ix1 e)))
      (IntOp.addi (w (ix1 e)) (broadcastInDim S850000 ![] bcast_S_S850000 (constantI S_ 32 50000#32) (ix1 e))) (w (ix1 e)) = _
  rw [broadcastInDim_scalar_apply, broadcastInDim_scalar_apply]
  rfl

/-- The wrapped source words that the coefficient reads. -/
theorem wrapped_src_coef (x1 : (⟨S2x800000, .i32⟩ : BufTy).Contents (Elt Ideal)) (e : Fin 850000) :
    val_main_v18 (F := Ideal) x1 (ix1 e) = wrap (withLoops (srcWord x1) e) := by
  unfold val_main_v18 val_main_v15 val_main_v17 val_main_v14 val_main_v16 val_main_c val_main_c_2
  rw [wrap_apply, src_words]

/-- The wrapped destination words that the coefficient reads. -/
theorem wrapped_dst_coef (x1 : (⟨S2x800000, .i32⟩ : BufTy).Contents (Elt Ideal)) (e : Fin 850000) :
    val_main_v25 (F := Ideal) x1 (ix1 e) = wrap (withLoops (dstWord x1) e) := by
  unfold val_main_v25 val_main_v22 val_main_v24 val_main_v21 val_main_v23 val_main_c_3 val_main_c_4
  rw [wrap_apply, dst_words]

/-- The wrapped source words of each of the four layers' row gathers. -/
theorem wrapped_src0 (x1 : (⟨S2x800000, .i32⟩ : BufTy).Contents (Elt Ideal)) (e : Fin 850000) :
    val_main_v41 (F := Ideal) x1 (ix1 e) = wrap (withLoops (srcWord x1) e) := by
  unfold val_main_v41 val_main_v38 val_main_v40 val_main_v37 val_main_v39 val_main_c_5 val_main_c_6
  rw [wrap_apply, src_words]

theorem wrapped_src1 (x1 : (⟨S2x800000, .i32⟩ : BufTy).Contents (Elt Ideal)) (e : Fin 850000) :
    val_main_v63 (F := Ideal) x1 (ix1 e) = wrap (withLoops (srcWord x1) e) := by
  unfold val_main_v63 val_main_v60 val_main_v62 val_main_v59 val_main_v61 val_main_c_8 val_main_c_9
  rw [wrap_apply, src_words]

theorem wrapped_src2 (x1 : (⟨S2x800000, .i32⟩ : BufTy).Contents (Elt Ideal)) (e : Fin 850000) :
    val_main_v85 (F := Ideal) x1 (ix1 e) = wrap (withLoops (srcWord x1) e) := by
  unfold val_main_v85 val_main_v82 val_main_v84 val_main_v81 val_main_v83 val_main_c_11 val_main_c_12
  rw [wrap_apply, src_words]

theorem wrapped_src3 (x1 : (⟨S2x800000, .i32⟩ : BufTy).Contents (Elt Ideal)) (e : Fin 850000) :
    val_main_v107 (F := Ideal) x1 (ix1 e) = wrap (withLoops (srcWord x1) e) := by
  unfold val_main_v107 val_main_v104 val_main_v106 val_main_v103 val_main_v105 val_main_c_14 val_main_c_15
  rw [wrap_apply, src_words]

/-! ## The per-node factor gathered at both end points, and their product -/

/-- The table of per-node factors gathered at a column of start words `idx`: slot `e` reads the node `rowOf (idx e)`. -/
theorem factor_gather_apply (dv : FVec Ideal S50000 .f32) (idx : IVec S850000 32) (e : Fin 850000) :
    Host.gather gather_S50000_S850000x1_S850000_n_0_n_n_0_1_1 dv
        (broadcastInDim S850000x1 ![0] bcast_S850000_S850000x1_0 idx) (ix1 e)
      = dv (ix1 (rowOf (idx (ix1 e)))) := by
  have hd : gather_S50000_S850000x1_S850000_n_0_n_n_0_1_1
      = elemDims 50000 850000 gather_S50000_S850000x1_S850000_n_0_n_n_0_1_1_wf := rfl
  rw [hd]
  refine (gather_elems_apply (by decide) gather_S50000_S850000x1_S850000_n_0_n_n_0_1_1_wf dv _ e).trans
    (congrArg dv (funext fun a => Fin.ext ?_))
  match a with
  | ⟨0, _⟩ =>
    show min ((broadcastInDim S850000x1 ![0] bcast_S850000_S850000x1_0 idx) (ix2 e (0 : Fin 1))).toInt.toNat (50000 - 1)
      = min (idx (ix1 e)).toInt.toNat 49999
    rw [col_of_vec_apply]

/-- THE COEFFICIENT COLUMN: entry `(e, 0)` is the product of the factors of edge `e`'s two end points. -/
theorem coef_apply (x1 : (⟨S2x800000, .i32⟩ : BufTy).Contents (Elt Ideal)) (e : Fin 850000) :
    val_main_v29 (F := Ideal) x1 (ix2 e (0 : Fin 1)) = coefR x1 (val_main_v13 (F := Ideal) x1) e := by
  unfold val_main_v29
  rw [col_of_vec_apply, val_main_v28_apply, Ideal.mulf_def]
  unfold val_main_v20 val_main_v27 val_main_v19 val_main_v26 coefR srcR dstRowR
  generalize val_main_v13 (F := Ideal) x1 = dv
  rw [factor_gather_apply, factor_gather_apply, wrapped_src_coef, wrapped_dst_coef]

end Cert.ReferenceIdeal.RefValue

end
-- ==== Proof.RefLayer.lean ====
/-
  One graph-convolution layer of the reference as an index-by-index function.

  The layer is `h + max (segment_sum (coef ⊙ (h · W)[src], dst) + b) 0`: the features are projected, the projected rows
  are gathered along the sources of the edge slots, each gathered row is multiplied by its slot's coefficient, the rows
  are added into the row their slot's destination names (a slot whose destination is no row number is dropped), the
  bias row is added, the result is clamped at zero and added to the features.  Entry `(p, q)` of the result is therefore
  `h (p, q) + max (Σ_{e : dst e = p} coef e · (h · W) (src e, q) + b q) 0`, which is the specification's `updateR`.
  It is stated once, over arbitrary operand arrays, and the four layers are instances of it.
-/
import proofs.«181823_j62440234549671_2_alg».proof.Proof.Gen.ReferenceIdeal.Read
import proofs.«181823_j62440234549671_2_alg».proof.Proof.Spec
import proofs.«181823_j62440234549671_2_alg».proof.Proof.LibDenseLayers
import proofs.«181823_j62440234549671_2_alg».proof.Proof.LibRowGather
import proofs.«181823_j62440234549671_2_alg».proof.Proof.LibRowScatter
import proofs.«181823_j62440234549671_2_alg».proof.Proof.RefEdges

noncomputable section

namespace Cert.ReferenceIdeal.RefValue

open Cert.ReferenceIdeal Cert.ReferenceIdeal.Gen Cert.ReferenceIdeal.Read Cert.Spec Cert.Layers
open Idealize.ShloMosaic Idealize.ShloMosaic.ValueIdx

/-- Rows of a table gathered at a column of start words `idx`: entry `(e, q)` reads row `rowOf (idx e)`, column `q`. -/
theorem row_gather_apply (x : FVec Ideal S50000x192 .f32) (idx : IVec S850000 32) (e : Fin 850000) (q : Fin 192) :
    Host.gather gather_S50000x192_S850000x1_S850000x192_1_0_n_n_0_1_1192 x
        (broadcastInDim S850000x1 ![0] bcast_S850000_S850000x1_0 idx) (ix2 e q)
      = x (ix2 (rowOf (idx (ix1 e))) q) := by
  have hd : gather_S50000x192_S850000x1_S850000x192_1_0_n_n_0_1_1192
      = Cert.Lib.rowDims 50000 192 850000 gather_S50000x192_S850000x1_S850000x192_1_0_n_n_0_1_1192_wf := rfl
  rw [hd]
  refine (Cert.Lib.gather_rows_apply (by decide) gather_S50000x192_S850000x1_S850000x192_1_0_n_n_0_1_1192_wf x _ e q).trans
    (congrArg x (funext fun a => Fin.ext ?_))
  match a with
  | ⟨0, _⟩ =>
    show min ((broadcastInDim S850000x1 ![0] bcast_S850000_S850000x1_0 idx) (ix2 e (0 : Fin 1))).toInt.toNat (50000 - 1)
      = min (idx (ix1 e)).toInt.toNat 49999
    rw [col_of_vec_apply]
  | ⟨1, _⟩ => rfl

/-- A bias vector broadcast to a row and then over all 50000 rows reads, at `(p, q)`, its entry `q`. -/
theorem bias_rows_apply (bvec : FVec Ideal S192 .f32) (p : Fin 50000) (q : Fin 192) :
    broadcastInDim S50000x192 ![0, 1] bcast_S1x192_S50000x192_0_1 (broadcastInDim S1x192 ![1] bcast_S192_S1x192_1 bvec) (ix2 p q)
      = bvec (ix1 q) := by
  rw [broadcastInDim_apply _ bcast_S1x192_S50000x192_0_1 _ (ix2 p q) (ix2 (0 : Fin 1) q) (fun a => by
    match a with
    | ⟨0, _⟩ => show 0 = if (1 : Nat) = 1 then 0 else p.val; rw [if_pos rfl]
    | ⟨1, _⟩ => show q.val = if (192 : Nat) = 1 then 0 else q.val; rw [if_neg (by decide)])]
  exact broadcastInDim_apply _ bcast_S192_S1x192_1 bvec (ix2 (0 : Fin 1) q) (ix1 q) (fun a => by
    match a with
    | ⟨0, _⟩ => show q.val = if (192 : Nat) = 1 then 0 else q.val; rw [if_neg (by decide)])

/-- The broadcast zero constant reads zero. -/
theorem zeros_apply (i : S50000x192.Idx) :
    broadcastInDim S50000x192 ![] bcast_S_S50000x192 (constant (F := Ideal) S_ .f32 0x00000000#32) i = 0 := by
  rw [broadcastInDim_scalar_apply]
  exact Ideal.ofBits_zero_f32

/-- THE MESSAGE OF SLOT `e`, column `q`: the slot's coefficient times the projected features of its source row. -/
theorem message_apply (h : FVec Ideal S50000x192 .f32) (W : FVec Ideal S192x192 .f32)
    (coef : FVec Ideal S850000x1 .f32) (src : IVec S850000 32) (e : Fin 850000) (q : Fin 192) :
    mulf (broadcastInDim S850000x192 ![0, 1] bcast_S850000x1_S850000x192_0_1 coef)
        (Host.gather gather_S50000x192_S850000x1_S850000x192_1_0_n_n_0_1_1192
          (Host.dotGeneral dot_S50000x192_S192x192_S50000x192_1_0_0_1_n_n none h W)
          (broadcastInDim S850000x1 ![0] bcast_S850000_S850000x1_0 src)) (ix2 e q)
      = coef (ix2 e (0 : Fin 1)) * project h W (ix2 (rowOf (src (ix1 e))) q) := by
  have hproj : Host.dotGeneral dot_S50000x192_S192x192_S50000x192_1_0_0_1_n_n none h W = project h W :=
    dotGeneral_eq_project _ rfl none h W
  rw [mulf_apply, col_over_features_apply, row_gather_apply, hproj]

/-- THE SEGMENT SUM at `(p, q)`: rows `upd` added into zeros by the destination words `dst` — the sum, over the slots
    whose destination word read as a signed integer is `p`, of the row's column `q`. -/
theorem segment_sum_apply (dst : IVec S850000 32) (upd : FVec Ideal S850000x192 .f32) (p : Fin 50000) (q : Fin 192) :
    Host.scatterAdd scatter_S50000x192_S850000x1_S850000x192_1_0_0_1
        (broadcastInDim S50000x192 ![] bcast_S_S50000x192 (constant (F := Ideal) S_ .f32 0x00000000#32))
        (broadcastInDim S850000x1 ![0] bcast_S850000_S850000x1_0 dst) upd (ix2 p q)
      = ∑ e : Fin 850000, if (dst (ix1 e)).toInt = (p.val : ℤ) then upd (ix2 e q) else 0 := by
  have hsc : scatter_S50000x192_S850000x1_S850000x192_1_0_0_1
      = Cert.Lib.rowScatterDims 50000 192 850000 scatter_S50000x192_S850000x1_S850000x192_1_0_0_1_wf := rfl
  rw [hsc]
  refine (Cert.Lib.host_scatterAdd_rows_apply scatter_S50000x192_S850000x1_S850000x192_1_0_0_1_wf _ _ upd p q).trans ?_
  rw [zeros_apply, zero_add]
  refine Finset.sum_congr rfl fun e _ => ?_
  rw [col_of_vec_apply]

/-- The specification's layer at `(p, q)`. -/
theorem updateR_apply (x1 : EdgeWords) (dv : Vec1 50000) (w : Arr 192 192) (b : Arr 1 192) (h : Arr 50000 192)
    (p : Fin 50000) (q : Fin 192) :
    updateR x1 dv w b h (ix2 p q)
      = h (ix2 p q) + max ((∑ e : Fin 850000, if dstR x1 e = (p.val : ℤ)
          then coefR x1 dv e * project h w (ix2 (srcR x1 e) q) else 0) + b (ix2 (0 : Fin 1) q)) 0 := rfl

/-- ONE LAYER.  `h` the features, `W` the weights, `bvec` the bias vector, `coef` the coefficient column, `src` the
    wrapped source words and `dst` the destination words of the 850000 edge slots; the hypotheses say what these
    operands are in terms of the edge list `x1`, the per-node factors `dv`, the weights `w` and the bias row `b`. -/
theorem layer_eq_updateR (x1 : EdgeWords) (dv : Vec1 50000) (w : Arr 192 192) (b : Arr 1 192)
    (h : FVec Ideal S50000x192 .f32) (W : FVec Ideal S192x192 .f32) (bvec : FVec Ideal S192 .f32)
    (coef : FVec Ideal S850000x1 .f32) (src dst : IVec S850000 32)
    (hsrc : ∀ e : Fin 850000, src (ix1 e) = wrap (withLoops (srcWord x1) e))
    (hdst : ∀ e : Fin 850000, dst (ix1 e) = withLoops (dstWord x1) e)
    (hcoef : ∀ e : Fin 850000, coef (ix2 e (0 : Fin 1)) = coefR x1 dv e)
    (hW : W = w) (hb : ∀ q : Fin 192, bvec (ix1 q) = b (ix2 (0 : Fin 1) q)) :
    addf h (maximumf (addf (Host.scatterAdd scatter_S50000x192_S850000x1_S850000x192_1_0_0_1
            (broadcastInDim S50000x192 ![] bcast_S_S50000x192 (constant (F := Ideal) S_ .f32 0x00000000#32))
            (broadcastInDim S850000x1 ![0] bcast_S850000_S850000x1_0 dst)
            (mulf (broadcastInDim S850000x192 ![0, 1] bcast_S850000x1_S850000x192_0_1 coef)
              (Host.gather gather_S50000x192_S850000x1_S850000x192_1_0_n_n_0_1_1192
                (Host.dotGeneral dot_S50000x192_S192x192_S50000x192_1_0_0_1_n_n none h W)
                (broadcastInDim S850000x1 ![0] bcast_S850000_S850000x1_0 src))))
          (broadcastInDim S50000x192 ![0, 1] bcast_S1x192_S50000x192_0_1 (broadcastInDim S1x192 ![1] bcast_S192_S1x192_1 bvec)))
        (broadcastInDim S50000x192 ![] bcast_S_S50000x192 (constant (F := Ideal) S_ .f32 0x00000000#32)))
      = updateR x1 dv w b h := by
  subst hW
  funext i
  obtain ⟨p, q, rfl⟩ : ∃ (p : Fin 50000) (q : Fin 192), i = ix2 p q := ⟨i 0, i 1, eq_ix2 i⟩
  rw [updateR_apply, addf_apply, maximumf_apply, addf_apply, segment_sum_apply, bias_rows_apply, hb, zeros_apply]
  refine congrArg (fun s => h (ix2 p q) + max (s + b (ix2 (0 : Fin 1) q)) 0) ?_
  refine Finset.sum_congr rfl fun e _ => ?_
  rw [hdst, message_apply, hcoef, hsrc]
  rfl

end Cert.ReferenceIdeal.RefValue

end
-- ==== Proof.RefLayers.lean ====
/-
  The reference's four graph-convolution layers are the specification's layer function.

  Each layer reads its weights as one slab of the stacked weights and its
  bias as one row of the stacked biases, and is otherwise the same composition of operations on the features of the
  layer before; so each is the one-layer statement with that layer's operands.
-/
import proofs.«181823_j62440234549671_2_alg».proof.Proof.Gen.ReferenceIdeal.Read
import proofs.«181823_j62440234549671_2_alg».proof.Proof.Spec
import proofs.«181823_j62440234549671_2_alg».proof.Proof.LibDenseLayers
import proofs.«181823_j62440234549671_2_alg».proof.Proof.RefEdges
import proofs.«181823_j62440234549671_2_alg».proof.Proof.RefLayer

noncomputable section

namespace Cert.ReferenceIdeal.RefValue

open Cert.ReferenceIdeal Cert.ReferenceIdeal.Gen Cert.ReferenceIdeal.Read Cert.Spec Cert.Layers
open Idealize.ShloMosaic Idealize.ShloMosaic.ValueIdx

/-! ### The first layer -/

/-- Its weights: slab 0 of the stacked weights. -/
theorem weights0 (x4 : (⟨S4x192x192, .f32⟩ : BufTy).Contents (Elt Ideal)) :
    val_main_v35 (F := Ideal) x4 = layerWeights x4 0 := by
  funext j
  obtain ⟨a, c, rfl⟩ : ∃ (a : Fin 192) (c : Fin 192), j = ix2 a c := ⟨j 0, j 1, eq_ix2 j⟩
  rw [val_main_v35_apply, val_main_v34_apply]
  unfold layerWeights
  refine congrArg x4 (funext fun d => Fin.ext ?_)
  have ha : a.val < 192 := a.isLt
  have hc : c.val < 192 := c.isLt
  match d with
  | ⟨0, _⟩ => rfl
  | ⟨1, _⟩ => show (a.val * 192 + c.val) / 192 % 192 = a.val; omega
  | ⟨2, _⟩ => show (a.val * 192 + c.val) % 192 = c.val; omega

/-- Its bias: row 0 of the stacked biases. -/
theorem bias0 (x5 : (⟨S4x192, .f32⟩ : BufTy).Contents (Elt Ideal)) (q : Fin 192) :
    val_main_v50 (F := Ideal) x5 (ix1 q) = layerBias x5 0 (ix2 (0 : Fin 1) q) := by
  rw [val_main_v50_apply, val_main_v49_apply]
  unfold layerBias
  refine congrArg x5 (funext fun d => Fin.ext ?_)
  match d with
  | ⟨0, _⟩ => rfl
  | ⟨1, _⟩ => show q.val % 192 = q.val; exact Nat.mod_eq_of_lt q.isLt

theorem ref_layer0 (x0 : (⟨S50000x41, .f32⟩ : BufTy).Contents (Elt Ideal)) (x1 : (⟨S2x800000, .i32⟩ : BufTy).Contents (Elt Ideal))
    (x2 : (⟨S41x192, .f32⟩ : BufTy).Contents (Elt Ideal)) (x3 : (⟨S192, .f32⟩ : BufTy).Contents (Elt Ideal))
    (x4 : (⟨S4x192x192, .f32⟩ : BufTy).Contents (Elt Ideal)) (x5 : (⟨S4x192, .f32⟩ : BufTy).Contents (Elt Ideal)) :
    val_main_v55 (F := Ideal) x0 x1 x2 x3 x4 x5
      = updateR x1 (val_main_v13 (F := Ideal) x1) (layerWeights x4 0) (layerBias x5 0)
          (val_main_v33 (F := Ideal) x0 x2 x3) := by
  unfold val_main_v55 val_main_v54 val_main_v53 val_main_v52 val_main_v51 val_main_v48 val_main_v47
    val_main_v46 val_main_cst_7 val_main_v45 val_main_v44 val_main_v43 val_main_v42 val_main_v36
    val_main_call0_v0 val_main_call0_cst
  exact layer_eq_updateR x1 (val_main_v13 (F := Ideal) x1) (layerWeights x4 0) (layerBias x5 0)
    (val_main_v33 (F := Ideal) x0 x2 x3) (val_main_v35 (F := Ideal) x4) (val_main_v50 (F := Ideal) x5)
    (val_main_v29 (F := Ideal) x1) (val_main_v41 (F := Ideal) x1) (val_main_v6 (F := Ideal) x1)
    (wrapped_src0 x1) (dst_words x1) (coef_apply x1) (weights0 x4) (bias0 x5)

/-! ### The second layer -/

/-- Its weights: slab 1 of the stacked weights. -/
theorem weights1 (x4 : (⟨S4x192x192, .f32⟩ : BufTy).Contents (Elt Ideal)) :
    val_main_v57 (F := Ideal) x4 = layerWeights x4 1 := by
  funext j
  obtain ⟨a, c, rfl⟩ : ∃ (a : Fin 192) (c : Fin 192), j = ix2 a c := ⟨j 0, j 1, eq_ix2 j⟩
  rw [val_main_v57_apply, val_main_v56_apply]
  unfold layerWeights
  refine congrArg x4 (funext fun d => Fin.ext ?_)
  have ha : a.val < 192 := a.isLt
  have hc : c.val < 192 := c.isLt
  match d with
  | ⟨0, _⟩ => rfl
  | ⟨1, _⟩ => show (a.val * 192 + c.val) / 192 % 192 = a.val; omega
  | ⟨2, _⟩ => show (a.val * 192 + c.val) % 192 = c.val; omega

/-- Its bias: row 1 of the stacked biases. -/
theorem bias1 (x5 : (⟨S4x192, .f32⟩ : BufTy).Contents (Elt Ideal)) (q : Fin 192) :
    val_main_v72 (F := Ideal) x5 (ix1 q) = layerBias x5 1 (ix2 (0 : Fin 1) q) := by
  rw [val_main_v72_apply, val_main_v71_apply]
  unfold layerBias
  refine congrArg x5 (funext fun d => Fin.ext ?_)
  match d with
  | ⟨0, _⟩ => rfl
  | ⟨1, _⟩ => show q.val % 192 = q.val; exact Nat.mod_eq_of_lt q.isLt

theorem ref_layer1 (x0 : (⟨S50000x41, .f32⟩ : BufTy).Contents (Elt Ideal)) (x1 : (⟨S2x800000, .i32⟩ : BufTy).Contents (Elt Ideal))
    (x2 : (⟨S41x192, .f32⟩ : BufTy).Contents (Elt Ideal)) (x3 : (⟨S192, .f32⟩ : BufTy).Contents (Elt Ideal))
    (x4 : (⟨S4x192x192, .f32⟩ : BufTy).Contents (Elt Ideal)) (x5 : (⟨S4x192, .f32⟩ : BufTy).Contents (Elt Ideal)) :
    val_main_v77 (F := Ideal) x0 x1 x2 x3 x4 x5
      = updateR x1 (val_main_v13 (F := Ideal) x1) (layerWeights x4 1) (layerBias x5 1)
          (val_main_v55 (F := Ideal) x0 x1 x2 x3 x4 x5) := by
  unfold val_main_v77 val_main_v76 val_main_v75 val_main_v74 val_main_v73 val_main_v70 val_main_v69
    val_main_v68 val_main_cst_10 val_main_v67 val_main_v66 val_main_v65 val_main_v64 val_main_v58
    val_main_call1_v0 val_main_call1_cst
  exact layer_eq_updateR x1 (val_main_v13 (F := Ideal) x1) (layerWeights x4 1) (layerBias x5 1)
    (val_main_v55 (F := Ideal) x0 x1 x2 x3 x4 x5) (val_main_v57 (F := Ideal) x4) (val_main_v72 (F := Ideal) x5)
    (val_main_v29 (F := Ideal) x1) (val_main_v63 (F := Ideal) x1) (val_main_v6 (F := Ideal) x1)
    (wrapped_src1 x1) (dst_words x1) (coef_apply x1) (weights1 x4) (bias1 x5)

/-! ### The third layer -/

/-- Its weights: slab 2 of the stacked weights. -/
theorem weights2 (x4 : (⟨S4x192x192, .f32⟩ : BufTy).Contents (Elt Ideal)) :
    val_main_v79 (F := Ideal) x4 = layerWeights x4 2 := by
  funext j
  obtain ⟨a, c, rfl⟩ : ∃ (a : Fin 192) (c : Fin 192), j = ix2 a c := ⟨j 0, j 1, eq_ix2 j⟩
  rw [val_main_v79_apply, val_main_v78_apply]
  unfold layerWeights
  refine congrArg x4 (funext fun d => Fin.ext ?_)
  have ha : a.val < 192 := a.isLt
  have hc : c.val < 192 := c.isLt
  match d with
  | ⟨0, _⟩ => rfl
  | ⟨1, _⟩ => show (a.val * 192 + c.val) / 192 % 192 = a.val; omega
  | ⟨2, _⟩ => show (a.val * 192 + c.val) % 192 = c.val; omega

/-- Its bias: row 2 of the stacked biases. -/
theorem bias2 (x5 : (⟨S4x192, .f32⟩ : BufTy).Contents (Elt Ideal)) (q : Fin 192) :
    val_main_v94 (F := Ideal) x5 (ix1 q) = layerBias x5 2 (ix2 (0 : Fin 1) q) := by
  rw [val_main_v94_apply, val_main_v93_apply]
  unfold layerBias
  refine congrArg x5 (funext fun d => Fin.ext ?_)
  match d with
  | ⟨0, _⟩ => rfl
  | ⟨1, _⟩ => show q.val % 192 = q.val; exact Nat.mod_eq_of_lt q.isLt

theorem ref_layer2 (x0 : (⟨S50000x41, .f32⟩ : BufTy).Contents (Elt Ideal)) (x1 : (⟨S2x800000, .i32⟩ : BufTy).Contents (Elt Ideal))
    (x2 : (⟨S41x192, .f32⟩ : BufTy).Contents (Elt Ideal)) (x3 : (⟨S192, .f32⟩ : BufTy).Contents (Elt Ideal))
    (x4 : (⟨S4x192x192, .f32⟩ : BufTy).Contents (Elt Ideal)) (x5 : (⟨S4x192, .f32⟩ : BufTy).Contents (Elt Ideal)) :
    val_main_v99 (F := Ideal) x0 x1 x2 x3 x4 x5
      = updateR x1 (val_main_v13 (F := Ideal) x1) (layerWeights x4 2) (layerBias x5 2)
          (val_main_v77 (F := Ideal) x0 x1 x2 x3 x4 x5) := by
  unfold val_main_v99 val_main_v98 val_main_v97 val_main_v96 val_main_v95 val_main_v92 val_main_v91
    val_main_v90 val_main_cst_13 val_main_v89 val_main_v88 val_main_v87 val_main_v86 val_main_v80
    val_main_call2_v0 val_main_call2_cst
  exact layer_eq_updateR x1 (val_main_v13 (F := Ideal) x1) (layerWeights x4 2) (layerBias x5 2)
    (val_main_v77 (F := Ideal) x0 x1 x2 x3 x4 x5) (val_main_v79 (F := Ideal) x4) (val_main_v94 (F := Ideal) x5)
    (val_main_v29 (F := Ideal) x1) (val_main_v85 (F := Ideal) x1) (val_main_v6 (F := Ideal) x1)
    (wrapped_src2 x1) (dst_words x1) (coef_apply x1) (weights2 x4) (bias2 x5)

/-! ### The fourth layer -/

/-- Its weights: slab 3 of the stacked weights. -/
theorem weights3 (x4 : (⟨S4x192x192, .f32⟩ : BufTy).Contents (Elt Ideal)) :
    val_main_v101 (F := Ideal) x4 = layerWeights x4 3 := by
  funext j
  obtain ⟨a, c, rfl⟩ : ∃ (a : Fin 192) (c : Fin 192), j = ix2 a c := ⟨j 0, j 1, eq_ix2 j⟩
  rw [val_main_v101_apply, val_main_v100_apply]
  unfold layerWeights
  refine congrArg x4 (funext fun d => Fin.ext ?_)
  have ha : a.val < 192 := a.isLt
  have hc : c.val < 192 := c.isLt
  match d with
  | ⟨0, _⟩ => rfl
  | ⟨1, _⟩ => show (a.val * 192 + c.val) / 192 % 192 = a.val; omega
  | ⟨2, _⟩ => show (a.val * 192 + c.val) % 192 = c.val; omega

/-- Its bias: row 3 of the stacked biases. -/
theorem bias3 (x5 : (⟨S4x192, .f32⟩ : BufTy).Contents (Elt Ideal)) (q : Fin 192) :
    val_main_v116 (F := Ideal) x5 (ix1 q) = layerBias x5 3 (ix2 (0 : Fin 1) q) := by
  rw [val_main_v116_apply, val_main_v115_apply]
  unfold layerBias
  refine congrArg x5 (funext fun d => Fin.ext ?_)
  match d with
  | ⟨0, _⟩ => rfl
  | ⟨1, _⟩ => show q.val % 192 = q.val; exact Nat.mod_eq_of_lt q.isLt

theorem ref_layer3 (x0 : (⟨S50000x41, .f32⟩ : BufTy).Contents (Elt Ideal)) (x1 : (⟨S2x800000, .i32⟩ : BufTy).Contents (Elt Ideal))
    (x2 : (⟨S41x192, .f32⟩ : BufTy).Contents (Elt Ideal)) (x3 : (⟨S192, .f32⟩ : BufTy).Contents (Elt Ideal))
    (x4 : (⟨S4x192x192, .f32⟩ : BufTy).Contents (Elt Ideal)) (x5 : (⟨S4x192, .f32⟩ : BufTy).Contents (Elt Ideal)) :
    val_main_v121 (F := Ideal) x0 x1 x2 x3 x4 x5
      = updateR x1 (val_main_v13 (F := Ideal) x1) (layerWeights x4 3) (layerBias x5 3)
          (val_main_v99 (F := Ideal) x0 x1 x2 x3 x4 x5) := by
  unfold val_main_v121 val_main_v120 val_main_v119 val_main_v118 val_main_v117 val_main_v114 val_main_v113
    val_main_v112 val_main_cst_16 val_main_v111 val_main_v110 val_main_v109 val_main_v108 val_main_v102
    val_main_call3_v0 val_main_call3_cst
  exact layer_eq_updateR x1 (val_main_v13 (F := Ideal) x1) (layerWeights x4 3) (layerBias x5 3)
    (val_main_v99 (F := Ideal) x0 x1 x2 x3 x4 x5) (val_main_v101 (F := Ideal) x4) (val_main_v116 (F := Ideal) x5)
    (val_main_v29 (F := Ideal) x1) (val_main_v107 (F := Ideal) x1) (val_main_v6 (F := Ideal) x1)
    (wrapped_src3 x1) (dst_words x1) (coef_apply x1) (weights3 x4) (bias3 x5)

end Cert.ReferenceIdeal.RefValue

end
-- ==== Proof.RefHeads.lean ====
/-
  The reference program's read-out is the function `Cert.Spec.readout` of the node features.

  After its four graph-convolution layers the reference holds the features `h` (one row of 192 numbers per node) and
  finishes with two small dense heads and a normalisation:

  * the position head, `pos = max (max (h · W₁ + b₁) 0 · W₂ + b₂) 0 · W₃ + b₃`, two numbers per node;
  * the radius head, `z = max (h · V₁ + c₁) 0 · V₂ + c₂`, one number per node, followed by `1 / (1 + exp (−z))`,
    which is the logistic function of `z` by the definition of that function over the extended reals;
  * the result `pos / sqrt (pos₀² + pos₁² + ε) · radius`, the square root and the radius being columns that are
    repeated over the two coordinates.

  Each dense layer is read as a whole array: a matrix product with ordinary dimension numbers is `project`, the
  addition of the bias vector repeated over all rows is `addRow`, and the maximum with the repeated zero constant
  makes it `addRowClamp`.  The rest is read entry by entry: the sum of the squares over the two coordinates starts
  from the zero constant, so it is `0 + Σ_k pos (p, k)²`; the constant `1.0` is read as the number one; the
  constant `ε` is kept as the word the program spells and is never evaluated.  The features `h` stay an opaque
  term throughout: nothing here depends on how they were computed.
-/
import proofs.«181823_j62440234549671_2_alg».proof.Proof.Gen.ReferenceIdeal.Read
import proofs.«181823_j62440234549671_2_alg».proof.Proof.Spec
import proofs.«181823_j62440234549671_2_alg».proof.Proof.LibDenseLayers
import Idealize.ShloMosaic.Lib.IdealHost
import Idealize.ShloMosaic.Lib.ValueLayout

noncomputable section

namespace Cert.ReferenceIdeal.RefValue

open Cert.ReferenceIdeal Cert.ReferenceIdeal.Gen Cert.ReferenceIdeal.Read Cert.Spec Cert.Layers
open Idealize.ShloMosaic Idealize.ShloMosaic.ValueIdx

/-! ## One dense layer as a whole array -/

/-- A bias vector reshaped to a `1 × N` row is the row `asRow` of it: entry `(0, q)` of either is entry `q`. -/
theorem heads_shapeCast_eq_asRow {N : Nat} (b : FVec Ideal ⟨1, ![N]⟩ .f32)
    (hc : (⟨1, ![N]⟩ : Shape).ShapeCasts ⟨2, ![1, N]⟩) : shapeCast ⟨2, ![1, N]⟩ b hc = asRow b := by
  funext j
  obtain ⟨u, q, rfl⟩ : ∃ (u : Fin 1) (q : Fin N), j = ix2 u q := ⟨j 0, j 1, eq_ix2 j⟩
  exact shapeCast_a_1a_apply b hc u q

/-- A matrix product, the bias vector added to every row and the clamp at zero: `max (a · w + b) 0`. -/
theorem heads_dense_clamp {M K N : Nat} (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf (Host.dotGeneral d none a w)
        (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp (project a w) (asRow b) := by
  rw [dotGeneral_eq_project d hd none a w, maximumf_bias_eq_addRowClamp (project a w) b h1 h2 h0 hc,
    heads_shapeCast_eq_asRow b hc]

/-- A matrix product and the bias vector added to every row: `a · w + b`. -/
theorem heads_dense_plain {M K N : Nat} (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a w)
        (broadcastInDim ⟨2, ![M, N]⟩ ![0, 1] h2 (broadcastInDim ⟨2, ![1, N]⟩ ![1] h1 b))
      = addRow (project a w) (asRow b) := by
  rw [dotGeneral_eq_project d hd none a w, addf_bias_eq_addRow (project a w) b h1 h2 hc,
    heads_shapeCast_eq_asRow b hc]

variable (x0 : (⟨S50000x41, .f32⟩ : BufTy).Contents (Elt Ideal)) (x1 : (⟨S2x800000, .i32⟩ : BufTy).Contents (Elt Ideal)) (x2 : (⟨S41x192, .f32⟩ : BufTy).Contents (Elt Ideal)) (x3 : (⟨S192, .f32⟩ : BufTy).Contents (Elt Ideal)) (x4 : (⟨S4x192x192, .f32⟩ : BufTy).Contents (Elt Ideal)) (x5 : (⟨S4x192, .f32⟩ : BufTy).Contents (Elt Ideal))
  (x6 : (⟨S192x192, .f32⟩ : BufTy).Contents (Elt Ideal)) (x7 : (⟨S192, .f32⟩ : BufTy).Contents (Elt Ideal)) (x8 : (⟨S192x96, .f32⟩ : BufTy).Contents (Elt Ideal)) (x9 : (⟨S96, .f32⟩ : BufTy).Contents (Elt Ideal)) (x10 : (⟨S96x2, .f32⟩ : BufTy).Contents (Elt Ideal)) (x11 : (⟨S2, .f32⟩ : BufTy).Contents (Elt Ideal))
  (x12 : (⟨S192x96, .f32⟩ : BufTy).Contents (Elt Ideal)) (x13 : (⟨S96, .f32⟩ : BufTy).Contents (Elt Ideal)) (x14 : (⟨S96x1, .f32⟩ : BufTy).Contents (Elt Ideal)) (x15 : (⟨S1, .f32⟩ : BufTy).Contents (Elt Ideal))

/-! ## The position head -/

/-- The first layer of the position head: `max (h · W₁ + b₁) 0`. -/
theorem heads_pos_layer1 :
    val_main_v126 (F := Ideal) x0 x1 x2 x3 x4 x5 x6 x7
      = addRowClamp (project (val_main_v121 (F := Ideal) x0 x1 x2 x3 x4 x5) x6) (asRow x7) := by
  unfold val_main_v126 val_main_v125 val_main_v124 val_main_v123 val_main_v122 val_main_call4_v0 val_main_call4_cst
  exact heads_dense_clamp _ rfl _ x6 x7 _ _ _ (by decide)

/-- The second layer of the position head: `max (· · W₂ + b₂) 0`. -/
theorem heads_pos_layer2 :
    val_main_v131 (F := Ideal) x0 x1 x2 x3 x4 x5 x6 x7 x8 x9
      = addRowClamp (project (val_main_v126 (F := Ideal) x0 x1 x2 x3 x4 x5 x6 x7) x8) (asRow x9) := by
  unfold val_main_v131 val_main_v130 val_main_v129 val_main_v128 val_main_v127 val_main_call5_v0 val_main_call5_cst
  exact heads_dense_clamp _ rfl _ x8 x9 _ _ _ (by decide)

/-- The last layer of the position head, without a clamp: `· · W₃ + b₃`. -/
theorem heads_pos_layer3 :
    val_main_v135 (F := Ideal) x0 x1 x2 x3 x4 x5 x6 x7 x8 x9 x10 x11
      = addRow (project (val_main_v131 (F := Ideal) x0 x1 x2 x3 x4 x5 x6 x7 x8 x9) x10) (asRow x11) := by
  unfold val_main_v135 val_main_v134 val_main_v133 val_main_v132
  exact heads_dense_plain _ rfl _ x10 x11 _ _ (by decide)

/-- The position head of the reference is `position` of the features. -/
theorem heads_position :
    val_main_v135 (F := Ideal) x0 x1 x2 x3 x4 x5 x6 x7 x8 x9 x10 x11
      = position (val_main_v121 (F := Ideal) x0 x1 x2 x3 x4 x5) x6 (asRow x7) x8 (asRow x9) x10 (asRow x11) := by
  unfold position
  rw [heads_pos_layer3, heads_pos_layer2, heads_pos_layer1]

/-! ## The radius head before the logistic function -/

/-- The first layer of the radius head: `max (h · V₁ + c₁) 0`. -/
theorem heads_rad_layer1 :
    val_main_v140 (F := Ideal) x0 x1 x2 x3 x4 x5 x12 x13
      = addRowClamp (project (val_main_v121 (F := Ideal) x0 x1 x2 x3 x4 x5) x12) (asRow x13) := by
  unfold val_main_v140 val_main_v139 val_main_v138 val_main_v137 val_main_v136 val_main_call6_v0 val_main_call6_cst
  exact heads_dense_clamp _ rfl _ x12 x13 _ _ _ (by decide)

/-- The second layer of the radius head: one number per node, `· · V₂ + c₂`. -/
theorem heads_rad_layer2 :
    val_main_v144 (F := Ideal) x0 x1 x2 x3 x4 x5 x12 x13 x14 x15
      = addRow (project (val_main_v140 (F := Ideal) x0 x1 x2 x3 x4 x5 x12 x13) x14) (asRow x15) := by
  unfold val_main_v144 val_main_v143 val_main_v142 val_main_v141
  exact heads_dense_plain _ rfl _ x14 x15 _ _ (by decide)

/-- The argument of the logistic function is the radius head's two dense layers applied to the features. -/
theorem heads_radius_arg :
    val_main_v144 (F := Ideal) x0 x1 x2 x3 x4 x5 x12 x13 x14 x15
      = addRow (project (addRowClamp (project (val_main_v121 (F := Ideal) x0 x1 x2 x3 x4 x5) x12) (asRow x13)) x14) (asRow x15) := by
  rw [heads_rad_layer2, heads_rad_layer1]

/-! ## The normalisation, entry by entry -/

/-- The column index that a `[50000, 1]` column repeated over two coordinates reads at `(p, q)` is `(p, 0)`. -/
theorem heads_idx_norm (p : Fin 50000) (q : Fin 2) : idx_main_v157 (ix2 p q) = ix2 p (0 : Fin 1) :=
  funext fun a => Fin.ext (by match a with | ⟨0, _⟩ => rfl | ⟨1, _⟩ => rfl)

theorem heads_idx_radius (p : Fin 50000) (q : Fin 2) : idx_main_v159 (ix2 p q) = ix2 p (0 : Fin 1) :=
  funext fun a => Fin.ext (by match a with | ⟨0, _⟩ => rfl | ⟨1, _⟩ => rfl)

/-- The vector index that the row sums reshaped to a column read at `(p, 0)` is `p`. -/
theorem heads_idx_sum (p : Fin 50000) (u : Fin 1) : idx_main_v153 (ix2 p u) = ix1 p :=
  funext fun a => Fin.ext (by match a with | ⟨0, _⟩ => rfl)

/-- The `k`-th summand of row `p`'s sum sits at `(p, k)`. -/
theorem heads_idx_term (p : Fin 50000) (k : Fin 2) : idx_main_v152 (ix1 p) k = ix2 p k :=
  funext fun a => Fin.ext (by match a with | ⟨0, _⟩ => rfl | ⟨1, _⟩ => rfl)

/-- The divisor of row `p`: `sqrt (Σ_k pos (p, k)² + ε)`.  The sum starts from the zero constant, `0 + Σ = Σ`. -/
theorem heads_norm_apply (p : Fin 50000) :
    val_main_v156 (F := Ideal) x0 x1 x2 x3 x4 x5 x6 x7 x8 x9 x10 x11 (ix2 p (0 : Fin 1))
      = Ideal.sqrt ((∑ k : Fin 2, val_main_v135 (F := Ideal) x0 x1 x2 x3 x4 x5 x6 x7 x8 x9 x10 x11 (ix2 p k) * val_main_v135 (F := Ideal) x0 x1 x2 x3 x4 x5 x6 x7 x8 x9 x10 x11 (ix2 p k)) + eps) := by
  have hsum : (∑ k : Fin 2, val_main_v151 (F := Ideal) x0 x1 x2 x3 x4 x5 x6 x7 x8 x9 x10 x11 (idx_main_v152 (ix1 p) k))
      = ∑ k : Fin 2, val_main_v135 (F := Ideal) x0 x1 x2 x3 x4 x5 x6 x7 x8 x9 x10 x11 (ix2 p k) * val_main_v135 (F := Ideal) x0 x1 x2 x3 x4 x5 x6 x7 x8 x9 x10 x11 (ix2 p k) :=
    Finset.sum_congr rfl fun k _ => by rw [heads_idx_term p k, val_main_v151_apply, Ideal.mulf_def]
  rw [val_main_v156_apply, val_main_v155_apply, val_main_v153_apply, heads_idx_sum p 0, val_main_v152_apply, hsum,
    val_main_cst_19_apply, val_main_v154_apply, val_main_cst_20_apply, Ideal.ofBits_def, Ideal.ofBits_def,
    Ideal.ofBits_zero_f32, zero_add, Ideal.addf_def, Ideal.hostUnary_sqrt_def]
  rfl

/-- The radius of row `p`: `1 / (1 + exp (−z))` is the logistic function of `z`, by that function's definition. -/
theorem heads_radius_apply (p : Fin 50000) :
    val_main_v150 (F := Ideal) x0 x1 x2 x3 x4 x5 x12 x13 x14 x15 (ix2 p (0 : Fin 1))
      = Ideal.logistic (val_main_v144 (F := Ideal) x0 x1 x2 x3 x4 x5 x12 x13 x14 x15 (ix2 p (0 : Fin 1))) := by
  rw [val_main_v150_apply, val_main_v149_apply, val_main_cst_18_apply, val_main_v148_apply, val_main_v147_apply,
    val_main_cst_17_apply, val_main_v146_apply, val_main_v145_apply, Ideal.ofBits_def, Ideal.ofBits_one_f32]
  rfl

/-- The reference's result at `(p, q)`: the position divided by the row's divisor, times the row's radius. -/
theorem heads_result_apply (p : Fin 50000) (q : Fin 2) :
    val_main_v160 (F := Ideal) x0 x1 x2 x3 x4 x5 x6 x7 x8 x9 x10 x11 x12 x13 x14 x15 (ix2 p q)
      = Ideal.div (val_main_v135 (F := Ideal) x0 x1 x2 x3 x4 x5 x6 x7 x8 x9 x10 x11 (ix2 p q))
          (Ideal.sqrt ((∑ k : Fin 2, val_main_v135 (F := Ideal) x0 x1 x2 x3 x4 x5 x6 x7 x8 x9 x10 x11 (ix2 p k) * val_main_v135 (F := Ideal) x0 x1 x2 x3 x4 x5 x6 x7 x8 x9 x10 x11 (ix2 p k)) + eps))
        * Ideal.logistic (val_main_v144 (F := Ideal) x0 x1 x2 x3 x4 x5 x12 x13 x14 x15 (ix2 p (0 : Fin 1))) := by
  rw [val_main_v160_apply, val_main_v158_apply, val_main_v157_apply, heads_idx_norm p q, heads_norm_apply,
    val_main_v159_apply, heads_idx_radius p q, heads_radius_apply, Ideal.hostDivf_def, Ideal.mulf_def]

/-! ## The read-out -/

/-- The reference's last operation is the read-out `readout` of the features after the four layers. -/
theorem heads_value :
    val_main_v160 (F := Ideal) x0 x1 x2 x3 x4 x5 x6 x7 x8 x9 x10 x11 x12 x13 x14 x15
      = readout (val_main_v121 (F := Ideal) x0 x1 x2 x3 x4 x5) x6 (asRow x7) x8 (asRow x9) x10 (asRow x11)
          x12 (asRow x13) x14 (asRow x15) eps := by
  funext i
  obtain ⟨p, q, rfl⟩ : ∃ (p : Fin 50000) (q : Fin 2), i = ix2 p q := ⟨i 0, i 1, eq_ix2 i⟩
  rw [heads_result_apply, heads_position, heads_radius_arg]
  rfl

end Cert.ReferenceIdeal.RefValue

end
-- ==== Proof.ValueBridge.lean ====
/-
  Both programs' results as ONE function of the argument arrays.

  The kernel program's result buffer ends holding the network in the kernel's arrangement (`netK`, the per-node
  factors those its first host stretch computes); those factors are the reference's own (the two programs compute
  them by the same operations), each is a nonnegative real, so the law of the layers turns `netK` into the
  reference's arrangement `netR`.  The reference's result is `netR` of its arguments, read off its operations: the
  input projection, four layers, the read-out.
-/
import proofs.«181823_j62440234549671_2_alg».proof.Proof.Gen.KernelIdeal.Frame
import proofs.«181823_j62440234549671_2_alg».proof.Proof.Gen.ReferenceIdeal.Read
import proofs.«181823_j62440234549671_2_alg».proof.Proof.Spec
import proofs.«181823_j62440234549671_2_alg».proof.Proof.Law
import proofs.«181823_j62440234549671_2_alg».proof.Proof.ChainStages
import proofs.«181823_j62440234549671_2_alg».proof.Proof.FactorBridge
import proofs.«181823_j62440234549671_2_alg».proof.Proof.RefSmall
import proofs.«181823_j62440234549671_2_alg».proof.Proof.RefLayers
import proofs.«181823_j62440234549671_2_alg».proof.Proof.RefHeads
import Idealize.ShloMosaic.PureOps.Ideal

set_option maxRecDepth 16384

noncomputable section

open Idealize.ShloMosaic Idealize.ShloMosaic.TcCoe Idealize.ShloMosaic.ValueIdx Idealize.SL.Sem

namespace Cert.Bridge

open Cert.Spec Cert.Layers

/-- The common value: the network in the reference's arrangement, of the kernel program's launch arrays. -/
def value (m : (ℓ : Loc Cert.KernelIdeal.nD Cert.KernelIdeal.τ Cert.KernelIdeal.sig) → Buf (Elt Ideal) ℓ) (c : Dev Cert.KernelIdeal.nD) : Arr 50000 2 :=
  netR (m ((c : Thread Cert.KernelIdeal.nD Cert.KernelIdeal.τ).loc Cert.KernelIdeal.main_arg0)) (m ((c : Thread Cert.KernelIdeal.nD Cert.KernelIdeal.τ).loc Cert.KernelIdeal.main_arg1)) (Cert.ReferenceIdeal.Read.val_main_v13 (F := Ideal) (m ((c : Thread Cert.KernelIdeal.nD Cert.KernelIdeal.τ).loc Cert.KernelIdeal.main_arg1))) (m ((c : Thread Cert.KernelIdeal.nD Cert.KernelIdeal.τ).loc Cert.KernelIdeal.main_arg2)) (asRow (m ((c : Thread Cert.KernelIdeal.nD Cert.KernelIdeal.τ).loc Cert.KernelIdeal.main_arg3))) (layerWeights (m ((c : Thread Cert.KernelIdeal.nD Cert.KernelIdeal.τ).loc Cert.KernelIdeal.main_arg4))) (layerBias (m ((c : Thread Cert.KernelIdeal.nD Cert.KernelIdeal.τ).loc Cert.KernelIdeal.main_arg5)))
      (m ((c : Thread Cert.KernelIdeal.nD Cert.KernelIdeal.τ).loc Cert.KernelIdeal.main_arg6)) (asRow (m ((c : Thread Cert.KernelIdeal.nD Cert.KernelIdeal.τ).loc Cert.KernelIdeal.main_arg7))) (m ((c : Thread Cert.KernelIdeal.nD Cert.KernelIdeal.τ).loc Cert.KernelIdeal.main_arg8)) (asRow (m ((c : Thread Cert.KernelIdeal.nD Cert.KernelIdeal.τ).loc Cert.KernelIdeal.main_arg9))) (m ((c : Thread Cert.KernelIdeal.nD Cert.KernelIdeal.τ).loc Cert.KernelIdeal.main_arg10)) (asRow (m ((c : Thread Cert.KernelIdeal.nD Cert.KernelIdeal.τ).loc Cert.KernelIdeal.main_arg11)))
      (m ((c : Thread Cert.KernelIdeal.nD Cert.KernelIdeal.τ).loc Cert.KernelIdeal.main_arg12)) (asRow (m ((c : Thread Cert.KernelIdeal.nD Cert.KernelIdeal.τ).loc Cert.KernelIdeal.main_arg13))) (m ((c : Thread Cert.KernelIdeal.nD Cert.KernelIdeal.τ).loc Cert.KernelIdeal.main_arg14)) (asRow (m ((c : Thread Cert.KernelIdeal.nD Cert.KernelIdeal.τ).loc Cert.KernelIdeal.main_arg15)))

/-- The kernel program's result buffer at the return holds the common value. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.W14 m ρ c (Proc.devRef .tc Cert.KernelIdeal.main_v91) : Arr 50000 2) = value m c := by
  rw [Cert.KernelIdeal.Chain.result_eq m ρ c]
  have hfac : Cert.KernelIdeal.Chain.fac m ρ c = Cert.ReferenceIdeal.Read.val_main_v13 (F := Ideal) (m ((c : Thread Cert.KernelIdeal.nD Cert.KernelIdeal.τ).loc Cert.KernelIdeal.main_arg1)) :=
    Cert.Bridge.factor_eq m ρ c
  rw [hfac]
  exact netK_eq_netR _ _ _ (Cert.ReferenceIdeal.RefValue.dis_real _) _ _ _ _ _ _ _ _ _ _ _ _ _ _

/-- The reference's result, as a function of its arguments, is the network in its own arrangement. -/
theorem ref_value (x0 : _) (x1 : _) (x2 : _) (x3 : _) (x4 : _) (x5 : _) (x6 : _) (x7 : _) (x8 : _) (x9 : _) (x10 : _) (x11 : _) (x12 : _) (x13 : _) (x14 : _) (x15 : _) :
    Cert.ReferenceIdeal.Read.val_main_v160 (F := Ideal) x0 x1 x2 x3 x4 x5 x6 x7 x8 x9 x10 x11 x12 x13 x14 x15
      = netR x0 x1 (Cert.ReferenceIdeal.Read.val_main_v13 (F := Ideal) x1) x2 (asRow x3) (layerWeights x4) (layerBias x5)
          x6 (asRow x7) x8 (asRow x9) x10 (asRow x11) x12 (asRow x13) x14 (asRow x15) := by
  rw [Cert.ReferenceIdeal.RefValue.heads_value, Cert.ReferenceIdeal.RefValue.ref_layer3, Cert.ReferenceIdeal.RefValue.ref_layer2,
    Cert.ReferenceIdeal.RefValue.ref_layer1, Cert.ReferenceIdeal.RefValue.ref_layer0, Cert.ReferenceIdeal.RefValue.ref_input]
  rfl

end Cert.Bridge

end
-- ==== Proof.lean ====
/-
  The certificate: a four-layer graph-convolution network with two read-out heads, computed by seven row-banded kernels
  with the edge gathers and scatter-adds between them, against the plain array program.

  Over the extended reals the two programs differ only in how a layer's neighbourhood sum is arranged: the reference
  sums `d(src) · d(dst) · m[src]` over the real edges and one self-loop per node; the kernel sums the pre-scaled messages
  `m[src] · d(src)` over the real edges, adds the node's own pre-scaled message, and multiplies by `d(dst)` afterwards.
  The per-node factor `d` is the reciprocal square root of a number at least one, a nonnegative real, and multiplication
  by a nonnegative real distributes over any sum of extended reals: the two arrangements agree (Proof/Law.lean) for
  every input, so the claims need nothing of the precondition.  The kernel program's run and result are read in
  Proof/KernelRun.lean, Proof/Region0 … Region6.lean and Proof/ChainStages.lean, the reference's in
  Proof/RefSmall.lean, Proof/RefLayers.lean and Proof/RefHeads.lean; Proof/ValueBridge.lean joins them.
-/
import proofs.«181823_j62440234549671_2_alg».proof.Defs
import proofs.«181823_j62440234549671_2_alg».proof.Proof.Gen.Kernel
import proofs.«181823_j62440234549671_2_alg».proof.Proof.Gen.Kernel.Skeleton
import proofs.«181823_j62440234549671_2_alg».proof.Proof.Gen.Kernel.Launch
import proofs.«181823_j62440234549671_2_alg».proof.Proof.Gen.Kernel.Points
import proofs.«181823_j62440234549671_2_alg».proof.Proof.Gen.Kernel.Frame
import proofs.«181823_j62440234549671_2_alg».proof.Proof.Gen.KernelIdeal
import proofs.«181823_j62440234549671_2_alg».proof.Proof.Gen.KernelIdeal.Skeleton
import proofs.«181823_j62440234549671_2_alg».proof.Proof.Gen.KernelIdeal.Launch
import proofs.«181823_j62440234549671_2_alg».proof.Proof.Gen.KernelIdeal.Points
import proofs.«181823_j62440234549671_2_alg».proof.Proof.Gen.KernelIdeal.Frame
import proofs.«181823_j62440234549671_2_alg».proof.Proof.Gen.ReferenceIdeal
import proofs.«181823_j62440234549671_2_alg».proof.Proof.Gen.ReferenceIdeal.Read
import proofs.«181823_j62440234549671_2_alg».proof.Proof.Gen.Pre_finite_inputs
import proofs.«181823_j62440234549671_2_alg».proof.Proof.KernelRun
import proofs.«181823_j62440234549671_2_alg».proof.Proof.ValueBridge
import Idealize.ShloMosaic.Adequacy
import Idealize.ShloMosaic.Init

set_option maxRecDepth 16384

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network's value (`Cert.Bridge.value`) in
    their result buffers, and with their arguments as launched. -/
theorem algebraic : Cert.algebraic_KernelIdeal_ReferenceIdeal := by
  intro m ρ m' ρ' _ hagree
  refine ⟨fun c => Cert.Bridge.value m c, ?_, ?_⟩
  · exact (θ_run Cert.KernelIdeal.defs _ _).mono
      (fun r h c => ⟨(h c).1.trans (Cert.Bridge.kernel_value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v160_eq, e0, e1, e2, e3, e4, e5, e6, e7, e8, e9, e10, e11, e12, e13, e14, e15]
    exact Cert.Bridge.ref_value _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
